-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v107)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v107) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S100000x96 : Shape := ⟨2, ![100000, 96]⟩
abbrev S800000x32 : Shape := ⟨2, ![800000, 32]⟩
abbrev S800000 : Shape := ⟨1, ![800000]⟩
abbrev S400000 : Shape := ⟨1, ![400000]⟩
abbrev S128x128 : Shape := ⟨2, ![128, 128]⟩
abbrev S256x1 : Shape := ⟨2, ![256, 1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S100000x96 : S_.BroadcastsInDim S100000x96 (![] : Fin 0 → Fin S100000x96.rank)
  reducesTo_S100000x96_S_d0_1 : S100000x96.ReducesTo [0, 1] S_
  bcast_S_S800000x32 : S_.BroadcastsInDim S800000x32 (![] : Fin 0 → Fin S800000x32.rank)
  reducesTo_S800000x32_S_d0_1 : S800000x32.ReducesTo [0, 1] S_
  bcast_S_S128x128 : S_.BroadcastsInDim S128x128 (![] : Fin 0 → Fin S128x128.rank)
  reducesTo_S128x128_S_d0_1 : S128x128.ReducesTo [0, 1] S_
  bcast_S_S256x1 : S_.BroadcastsInDim S256x1 (![] : Fin 0 → Fin S256x1.rank)
  reducesTo_S256x1_S_d0_1 : S256x1.ReducesTo [0, 1] S_

variable [Facts]

def fn_part2 {F : FTy → Type} [FloatOps F] (main_arg11 : FVec F S256x1 .f32) (main_arg12 : FVec F S256x1 .f32) (main_v33 : IVec S_ 1) : IVec S_ 1 :=
  let main_v34 : FVec F S256x1 .f32 := Host.absf main_arg11
  let main_cst_12 : FVec F S_ .f32 := constant S_ .f32 0x7F800000#32
  let main_v35 : FVec F S256x1 .f32 := broadcastInDim S256x1 ![] bcast_S_S256x1 main_cst_12
  let main_v36 : IVec S256x1 1 := cmpf .olt main_v34 main_v35
  let main_c_13 : IVec S_ 1 := constantI S_ 1 1#1
  let main_v37 : IVec S_ 1 := (fun x v => Host.reduce IntOp.andi x v reducesTo_S256x1_S_d0_1 h_S_) main_v36 main_c_13
  let main_v38 : IVec S_ 1 := andi main_v33 main_v37
  let main_v39 : FVec F S256x1 .f32 := Host.absf main_arg12
  let main_cst_14 : FVec F S_ .f32 := constant S_ .f32 0x7F800000#32
  let main_v40 : FVec F S256x1 .f32 := broadcastInDim S256x1 ![] bcast_S_S256x1 main_cst_14
  let main_v41 : IVec S256x1 1 := cmpf .olt main_v39 main_v40
  let main_c_15 : IVec S_ 1 := constantI S_ 1 1#1
  let main_v42 : IVec S_ 1 := (fun x v => Host.reduce IntOp.andi x v reducesTo_S256x1_S_d0_1 h_S_) main_v41 main_c_15
  let main_v43 : IVec S_ 1 := andi main_v38 main_v42
  main_v43

def fn_part1 {F : FTy → Type} [FloatOps F] (main_arg8 : FVec F S128x128 .f32) (main_arg9 : FVec F S128x128 .f32) (main_arg10 : FVec F S256x1 .f32) (main_arg11 : FVec F S256x1 .f32) (main_arg12 : FVec F S256x1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg8
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg9
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S256x1 .f32 := Host.absf main_arg10
  let main_cst_10 : FVec F S_ .f32 := constant S_ .f32 0x7F800000#32
  let main_v30 : FVec F S256x1 .f32 := broadcastInDim S256x1 ![] bcast_S_S256x1 main_cst_10
  let main_v31 : IVec S256x1 1 := cmpf .olt main_v29 main_v30
  let main_c_11 : IVec S_ 1 := constantI S_ 1 1#1
  let main_v32 : IVec S_ 1 := (fun x v => Host.reduce IntOp.andi x v reducesTo_S256x1_S_d0_1 h_S_) main_v31 main_c_11
  let main_v33 : IVec S_ 1 := andi main_v28 main_v32
  fn_part2 (F := F) main_arg11 main_arg12 main_v33

def fn {F : FTy → Type} [FloatOps F] (main_arg0 : FVec F S50000x128 .f32) (main_arg1 : FVec F S100000x96 .f32) (main_arg2 : FVec F S800000x32 .f32) (main_arg3 : IVec S800000 32) (main_arg4 : IVec S800000 32) (main_arg5 : IVec S400000 32) (main_arg6 : IVec S400000 32) (main_arg7 : FVec F S128x128 .f32) (main_arg8 : FVec F S128x128 .f32) (main_arg9 : FVec F S128x128 .f32) (main_arg10 : FVec F S256x1 .f32) (main_arg11 : FVec F S256x1 .f32) (main_arg12 : FVec F S256x1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S100000x96 .f32 := Host.absf main_arg1
  let main_cst_0 : FVec F S_ .f32 := constant S_ .f32 0x7F800000#32
  let main_v5 : FVec F S100000x96 .f32 := broadcastInDim S100000x96 ![] bcast_S_S100000x96 main_cst_0
  let main_v6 : IVec S100000x96 1 := cmpf .olt main_v4 main_v5
  let main_c_1 : IVec S_ 1 := constantI S_ 1 1#1
  let main_v7 : IVec S_ 1 := (fun x v => Host.reduce IntOp.andi x v reducesTo_S100000x96_S_d0_1 h_S_) main_v6 main_c_1
  let main_v8 : IVec S_ 1 := andi main_v3 main_v7
  let main_v9 : FVec F S800000x32 .f32 := Host.absf main_arg2
  let main_cst_2 : FVec F S_ .f32 := constant S_ .f32 0x7F800000#32
  let main_v10 : FVec F S800000x32 .f32 := broadcastInDim S800000x32 ![] bcast_S_S800000x32 main_cst_2
  let main_v11 : IVec S800000x32 1 := cmpf .olt main_v9 main_v10
  let main_c_3 : IVec S_ 1 := constantI S_ 1 1#1
  let main_v12 : IVec S_ 1 := (fun x v => Host.reduce IntOp.andi x v reducesTo_S800000x32_S_d0_1 h_S_) main_v11 main_c_3
  let main_v13 : IVec S_ 1 := andi main_v8 main_v12
  let main_v14 : FVec F S128x128 .f32 := Host.absf main_arg7
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg8 main_arg9 main_arg10 main_arg11 main_arg12 main_v13 main_v16
-- ==== Kernel.lean ====
abbrev S50000x128 : Shape := ⟨2, ![50000, 128]⟩
abbrev S100000x96 : Shape := ⟨2, ![100000, 96]⟩
abbrev S800000x32 : Shape := ⟨2, ![800000, 32]⟩
abbrev S800000 : Shape := ⟨1, ![800000]⟩
abbrev S400000 : Shape := ⟨1, ![400000]⟩
abbrev S128x128 : Shape := ⟨2, ![128, 128]⟩
abbrev S256x1 : Shape := ⟨2, ![256, 1]⟩
abbrev S128x1 : Shape := ⟨2, ![128, 1]⟩
abbrev S1x128 : Shape := ⟨2, ![1, 128]⟩
abbrev S96x128 : Shape := ⟨2, ![96, 128]⟩
abbrev S32x128 : Shape := ⟨2, ![32, 128]⟩
abbrev S50000x4 : Shape := ⟨2, ![50000, 4]⟩
abbrev S5000x128 : Shape := ⟨2, ![5000, 128]⟩
abbrev S5000x4 : Shape := ⟨2, ![5000, 4]⟩
abbrev S5000 : Shape := ⟨1, ![5000]⟩
abbrev S5000x1 : Shape := ⟨2, ![5000, 1]⟩
abbrev S50000x1 : Shape := ⟨2, ![50000, 1]⟩
abbrev S_ : Shape := ⟨0, ![]⟩
abbrev S800000x1 : Shape := ⟨2, ![800000, 1]⟩
abbrev S800000x96 : Shape := ⟨2, ![800000, 96]⟩
abbrev S800000x128 : Shape := ⟨2, ![800000, 128]⟩
abbrev S4000x96 : Shape := ⟨2, ![4000, 96]⟩
abbrev S4000x32 : Shape := ⟨2, ![4000, 32]⟩
abbrev S4000x1 : Shape := ⟨2, ![4000, 1]⟩
abbrev S4000x128 : Shape := ⟨2, ![4000, 128]⟩
abbrev S4000 : Shape := ⟨1, ![4000]⟩
abbrev S400000x1 : Shape := ⟨2, ![400000, 1]⟩
abbrev S400000x128 : Shape := ⟨2, ![400000, 128]⟩

abbrev nBuf : Space → Nat
  | .hbm => 149
  | .vmem => 37
  | .smem => 0
  | _ => 0

abbrev hbmTy0_0 (i : Nat) : BufTy := match i % 128 with
  | 0 => ⟨S50000x128, .f32⟩
  | 1 => ⟨S100000x96, .f32⟩
  | 2 => ⟨S800000x32, .f32⟩
  | 3 => ⟨S800000, .i32⟩
  | 4 => ⟨S800000, .i32⟩
  | 5 => ⟨S400000, .i32⟩
  | 6 => ⟨S400000, .i32⟩
  | 7 => ⟨S128x128, .f32⟩
  | 8 => ⟨S128x128, .f32⟩
  | 9 => ⟨S128x128, .f32⟩
  | 10 => ⟨S256x1, .f32⟩
  | 11 => ⟨S256x1, .f32⟩
  | 12 => ⟨S256x1, .f32⟩
  | 13 => ⟨S128x1, .f32⟩
  | 14 => ⟨S128x1, .f32⟩
  | 15 => ⟨S128x1, .f32⟩
  | 16 => ⟨S1x128, .f32⟩
  | 17 => ⟨S128x1, .f32⟩
  | 18 => ⟨S1x128, .f32⟩
  | 19 => ⟨S128x1, .f32⟩
  | 20 => ⟨S1x128, .f32⟩
  | 21 => ⟨S128x1, .f32⟩
  | 22 => ⟨S1x128, .f32⟩
  | 23 => ⟨S128x1, .f32⟩
  | 24 => ⟨S1x128, .f32⟩
  | 25 => ⟨S96x128, .f32⟩
  | 26 => ⟨S32x128, .f32⟩
  | 27 => ⟨S50000x128, .f32⟩
  | 28 => ⟨S50000x128, .f32⟩
  | 29 => ⟨S50000x4, .f32⟩
  | 30 => ⟨S50000x1, .f32⟩
  | 31 => ⟨S50000x1, .f32⟩
  | 32 => ⟨S50000x1, .f32⟩
  | 33 => ⟨S50000x1, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000x96, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S800000x1, .f32⟩
  | 52 => ⟨S800000x128, .f32⟩
  | 53 => ⟨S800000x1, .f32⟩
  | 54 => ⟨S_, .i32⟩
  | 55 => ⟨S400000, .i32⟩
  | 56 => ⟨S400000, .i1⟩
  | 57 => ⟨S_, .i32⟩
  | 58 => ⟨S400000, .i32⟩
  | 59 => ⟨S400000, .i32⟩
  | 60 => ⟨S400000, .i32⟩
  | 61 => ⟨S400000x1, .i32⟩
  | 62 => ⟨S400000x128, .f32⟩
  | 63 => ⟨S_, .i32⟩
  | 64 => ⟨S400000, .i32⟩
  | 65 => ⟨S400000, .i1⟩
  | 66 => ⟨S_, .i32⟩
  | 67 => ⟨S400000, .i32⟩
  | 68 => ⟨S400000, .i32⟩
  | 69 => ⟨S400000, .i32⟩
  | 70 => ⟨S400000x1, .i32⟩
  | 71 => ⟨S400000x1, .f32⟩
  | 72 => ⟨S_, .i32⟩
  | 73 => ⟨S400000, .i32⟩
  | 74 => ⟨S400000, .i1⟩
  | 75 => ⟨S_, .i32⟩
  | 76 => ⟨S400000, .i32⟩
  | 77 => ⟨S400000, .i32⟩
  | 78 => ⟨S400000, .i32⟩
  | 79 => ⟨S400000x1, .i32⟩
  | 80 => ⟨S400000x1, .f32⟩
  | 81 => ⟨S400000x1, .f32⟩
  | 82 => ⟨S_, .f32⟩
  | 83 => ⟨S400000x1, .f32⟩
  | 84 => ⟨S400000x1, .i1⟩
  | 85 => ⟨S_, .f32⟩
  | 86 => ⟨S400000x1, .f32⟩
  | 87 => ⟨S400000x1, .f32⟩
  | 88 => ⟨S400000x1, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S50000x1, .f32⟩
  | 98 => ⟨S50000x1, .f32⟩
  | 99 => ⟨S50000x1, .f32⟩
  | 100 => ⟨S800000x1, .f32⟩
  | 101 => ⟨S800000x1, .f32⟩
  | 102 => ⟨S800000x1, .f32⟩
  | 103 => ⟨S400000x1, .f32⟩
  | 104 => ⟨S400000x1, .f32⟩
  | 105 => ⟨S400000x1, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S50000x1, .f32⟩
  | 117 => ⟨S50000x1, .f32⟩
  | 118 => ⟨S800000x1, .f32⟩
  | 119 => ⟨S800000x1, .f32⟩
  | 120 => ⟨S400000x1, .f32⟩
  | 121 => ⟨S400000x1, .f32⟩
  | 122 => ⟨S800000x128, .f32⟩
  | 123 => ⟨S800000x128, .f32⟩
  | 124 => ⟨S400000x128, .f32⟩
  | 125 => ⟨S400000x128, .f32⟩
  | 126 => ⟨S_, .f32⟩
  | 127 => ⟨S50000x128, .f32⟩
  | _ => ⟨S50000x128, .f32⟩

abbrev hbmTy0_1 (i : Nat) : BufTy := match i % 128 with
  | 0 => ⟨S_, .i32⟩
  | 1 => ⟨S800000, .i32⟩
  | 2 => ⟨S800000, .i1⟩
  | 3 => ⟨S_, .i32⟩
  | 4 => ⟨S800000, .i32⟩
  | 5 => ⟨S800000, .i32⟩
  | 6 => ⟨S800000, .i32⟩
  | 7 => ⟨S800000x1, .i32⟩
  | 8 => ⟨S50000x128, .f32⟩
  | 9 => ⟨S_, .f32⟩
  | 10 => ⟨S50000x128, .f32⟩
  | 11 => ⟨S_, .i32⟩
  | 12 => ⟨S400000, .i32⟩
  | 13 => ⟨S400000, .i1⟩
  | 14 => ⟨S_, .i32⟩
  | 15 => ⟨S400000, .i32⟩
  | 16 => ⟨S400000, .i32⟩
  | 17 => ⟨S400000, .i32⟩
  | 18 => ⟨S400000x1, .i32⟩
  | 19 => ⟨S50000x128, .f32⟩
  | 20 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x4, .f32⟩
  | .local _ .vmem, ⟨13, _⟩ => ⟨S5000x4, .f32⟩
  | .local _ .vmem, ⟨14, _⟩ => ⟨S4000x96, .f32⟩
  | .local _ .vmem, ⟨15, _⟩ => ⟨S4000x96, .f32⟩
  | .local _ .vmem, ⟨16, _⟩ => ⟨S4000x32, .f32⟩
  | .local _ .vmem, ⟨17, _⟩ => ⟨S4000x32, .f32⟩
  | .local _ .vmem, ⟨18, _⟩ => ⟨S4000x1, .f32⟩
  | .local _ .vmem, ⟨19, _⟩ => ⟨S4000x1, .f32⟩
  | .local _ .vmem, ⟨20, _⟩ => ⟨S96x128, .f32⟩
  | .local _ .vmem, ⟨21, _⟩ => ⟨S32x128, .f32⟩
  | .local _ .vmem, ⟨22, _⟩ => ⟨S1x128, .f32⟩
  | .local _ .vmem, ⟨23, _⟩ => ⟨S4000x128, .f32⟩
  | .local _ .vmem, ⟨24, _⟩ => ⟨S4000x128, .f32⟩
  | .local _ .vmem, ⟨25, _⟩ => ⟨S4000x1, .f32⟩
  | .local _ .vmem, ⟨26, _⟩ => ⟨S4000x1, .f32⟩
  | .local _ .vmem, ⟨27, _⟩ => ⟨S5000x128, .f32⟩
  | .local _ .vmem, ⟨28, _⟩ => ⟨S5000x128, .f32⟩
  | .local _ .vmem, ⟨29, _⟩ => ⟨S5000x1, .f32⟩
  | .local _ .vmem, ⟨30, _⟩ => ⟨S5000x1, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14_0 : Ref sig .tc := ⟨.hbm, 27, rfl⟩
abbrev main_v14_1 : Ref sig .tc := ⟨.hbm, 28, rfl⟩
abbrev main_v14_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c : Ref sig .tc := ⟨.hbm, 34, rfl⟩
abbrev main_v19 : Ref sig .tc := ⟨.hbm, 35, rfl⟩
abbrev main_v20 : Ref sig .tc := ⟨.hbm, 36, rfl⟩
abbrev main_c_0 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_1 : Ref sig .tc := ⟨.hbm, 43, rfl⟩
abbrev main_v26 : Ref sig .tc := ⟨.hbm, 44, rfl⟩
abbrev main_v27 : Ref sig .tc := ⟨.hbm, 45, rfl⟩
abbrev main_c_2 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33_0 : Ref sig .tc := ⟨.hbm, 52, rfl⟩
abbrev main_v33_1 : Ref sig .tc := ⟨.hbm, 53, rfl⟩
abbrev main_c_3 : Ref sig .tc := ⟨.hbm, 54, rfl⟩
abbrev main_v34 : Ref sig .tc := ⟨.hbm, 55, rfl⟩
abbrev main_v35 : Ref sig .tc := ⟨.hbm, 56, rfl⟩
abbrev main_c_4 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_c_5 : Ref sig .tc := ⟨.hbm, 63, rfl⟩
abbrev main_v41 : Ref sig .tc := ⟨.hbm, 64, rfl⟩
abbrev main_v42 : Ref sig .tc := ⟨.hbm, 65, rfl⟩
abbrev main_c_6 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_c_7 : Ref sig .tc := ⟨.hbm, 72, rfl⟩
abbrev main_v48 : Ref sig .tc := ⟨.hbm, 73, rfl⟩
abbrev main_v49 : Ref sig .tc := ⟨.hbm, 74, rfl⟩
abbrev main_c_8 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst : Ref sig .tc := ⟨.hbm, 82, rfl⟩
abbrev main_v56 : Ref sig .tc := ⟨.hbm, 83, rfl⟩
abbrev main_v57 : Ref sig .tc := ⟨.hbm, 84, rfl⟩
abbrev main_cst_9 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_10 : Ref sig .tc := ⟨.hbm, 89, rfl⟩
abbrev main_v61 : Ref sig .tc := ⟨.hbm, 90, rfl⟩
abbrev main_cst_11 : Ref sig .tc := ⟨.hbm, 91, rfl⟩
abbrev main_v62 : Ref sig .tc := ⟨.hbm, 92, rfl⟩
abbrev main_cst_12 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_13 : Ref sig .tc := ⟨.hbm, 106, rfl⟩
abbrev main_v75 : Ref sig .tc := ⟨.hbm, 107, rfl⟩
abbrev main_cst_14 : Ref sig .tc := ⟨.hbm, 108, rfl⟩
abbrev main_v76 : Ref sig .tc := ⟨.hbm, 109, rfl⟩
abbrev main_v77 : Ref sig .tc := ⟨.hbm, 110, rfl⟩
abbrev main_cst_15 : Ref sig .tc := ⟨.hbm, 111, rfl⟩
abbrev main_v78 : Ref sig .tc := ⟨.hbm, 112, rfl⟩
abbrev main_v79 : Ref sig .tc := ⟨.hbm, 113, rfl⟩
abbrev main_cst_16 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_cst_17 : Ref sig .tc := ⟨.hbm, 126, rfl⟩
abbrev main_v91 : Ref sig .tc := ⟨.hbm, 127, rfl⟩
abbrev main_c_18 : Ref sig .tc := ⟨.hbm, 128, rfl⟩
abbrev main_v92 : Ref sig .tc := ⟨.hbm, 129, rfl⟩
abbrev main_v93 : Ref sig .tc := ⟨.hbm, 130, rfl⟩
abbrev main_c_19 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_cst_20 : Ref sig .tc := ⟨.hbm, 137, rfl⟩
abbrev main_v99 : Ref sig .tc := ⟨.hbm, 138, rfl⟩
abbrev main_c_21 : Ref sig .tc := ⟨.hbm, 139, rfl⟩
abbrev main_v100 : Ref sig .tc := ⟨.hbm, 140, rfl⟩
abbrev main_v101 : Ref sig .tc := ⟨.hbm, 141, rfl⟩
abbrev main_c_22 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg6_1 : Ref sig .tc := ⟨.vmem, 24, rfl⟩
abbrev cc1_stg7_0 : Ref sig .tc := ⟨.vmem, 25, rfl⟩
abbrev cc1_stg7_1 : Ref sig .tc := ⟨.vmem, 26, rfl⟩
abbrev cc2_stg0_0 : Ref sig .tc := ⟨.vmem, 27, rfl⟩
abbrev cc2_stg0_1 : Ref sig .tc := ⟨.vmem, 28, rfl⟩
abbrev cc2_stg1_0 : Ref sig .tc := ⟨.vmem, 29, rfl⟩
abbrev cc2_stg1_1 : Ref sig .tc := ⟨.vmem, 30, rfl⟩
abbrev cc2_stg2_0 : Ref sig .tc := ⟨.vmem, 31, rfl⟩
abbrev cc2_stg2_1 : Ref sig .tc := ⟨.vmem, 32, rfl⟩
abbrev cc2_stg3_0 : Ref sig .tc := ⟨.vmem, 33, rfl⟩
abbrev cc2_stg3_1 : Ref sig .tc := ⟨.vmem, 34, rfl⟩
abbrev cc2_stg4_0 : Ref sig .tc := ⟨.vmem, 35, rfl⟩
abbrev cc2_stg4_1 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem6_1 : DmaSem sig := 24
abbrev cc1_sem7_0 : DmaSem sig := 25
abbrev cc1_sem7_1 : DmaSem sig := 26
abbrev cc2_sem0_0 : DmaSem sig := 27
abbrev cc2_sem0_1 : DmaSem sig := 28
abbrev cc2_sem1_0 : DmaSem sig := 29
abbrev cc2_sem1_1 : DmaSem sig := 30
abbrev cc2_sem2_0 : DmaSem sig := 31
abbrev cc2_sem2_1 : DmaSem sig := 32
abbrev cc2_sem3_0 : DmaSem sig := 33
abbrev cc2_sem3_1 : DmaSem sig := 34
abbrev cc2_sem4_0 : DmaSem sig := 35
abbrev cc2_sem4_1 : DmaSem sig := 36

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S5000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S5000x4 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S96x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S4000x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S256x1_S128x1_0_0 : S256x1.Slices ![0, 0] S128x1
  slices_S256x1_S128x1_128_0 : S256x1.Slices ![128, 0] S128x1
  shapeCasts_S128x1_S1x128 : S128x1.ShapeCasts S1x128
  slices_S128x128_S96x128_0_0 : S128x128.Slices ![0, 0] S96x128
  slices_S128x128_S32x128_96_0 : S128x128.Slices ![96, 0] S32x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  concatenates_S5000x1_S5000x1_S5000x1_S5000x1_S5000x4_d1 : Shape.Concatenates [S5000x1, S5000x1, S5000x1, S5000x1] S5000x4 1
  inb_S5000x4_S5000x4_0_0 : ∀ a, (![0, 0] : Fin 2 → Nat) a + S5000x4.size a ≤ S5000x4.size a
  h_S5000x4 : 0 < S5000x4.numel
  slices_S50000x4_S50000x1_0_0 : S50000x4.Slices ![0, 0] S50000x1
  slices_S50000x4_S50000x1_0_1 : S50000x4.Slices ![0, 1] S50000x1
  slices_S50000x4_S50000x1_0_2 : S50000x4.Slices ![0, 2] S50000x1
  slices_S50000x4_S50000x1_0_3 : S50000x4.Slices ![0, 3] S50000x1
  bcast_S_S800000 : S_.BroadcastsInDim S800000 (![] : Fin 0 → Fin S800000.rank)
  bcast_S800000_S800000x1_0 : S800000.BroadcastsInDim S800000x1 (![0] : Fin 1 → Fin S800000x1.rank)
  inb_S4000x96_S4000x96_0_0 : ∀ a, (![0, 0] : Fin 2 → Nat) a + S4000x96.size a ≤ S4000x96.size a
  h_S4000x96 : 0 < S4000x96.numel
  shapeCasts_S4000x96_S4000x96 : S4000x96.ShapeCasts S4000x96
  inb_S4000x32_S4000x32_0_0 : ∀ a, (![0, 0] : Fin 2 → Nat) a + S4000x32.size a ≤ S4000x32.size a
  h_S4000x32 : 0 < S4000x32.numel
  inb_S96x128_S96x128_0_0 : ∀ a, (![0, 0] : Fin 2 → Nat) a + S96x128.size a ≤ S96x128.size a
  h_S96x128 : 0 < S96x128.numel
  shapeCasts_S96x128_S96x128 : S96x128.ShapeCasts S96x128
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S4000x128_S4000x128_0_0 : ∀ a, (![0, 0] : Fin 2 → Nat) a + S4000x128.size a ≤ S4000x128.size a
  h_S4000x128 : 0 < S4000x128.numel
  broadcasts_S1x128_S4000x128 : S1x128.Broadcasts S4000x128
  reduces_S4000x128_S4000 : S4000x128.Reduces [1] S4000
  shapeCasts_S4000_S4000x1 : S4000.ShapeCasts S4000x1
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  bcast_S_S400000 : S_.BroadcastsInDim S400000 (![] : Fin 0 → Fin S400000.rank)
  bcast_S400000_S400000x1_0 : S400000.BroadcastsInDim S400000x1 (![0] : Fin 1 → Fin S400000x1.rank)
  bcast_S_S400000x1 : S_.BroadcastsInDim S400000x1 (![] : Fin 0 → Fin S400000x1.rank)
  reducesTo_S50000x1_S_d0_1 : S50000x1.ReducesTo [0, 1] S_
  h_S_ : 0 < S_.numel
  reducesTo_S800000x1_S_d0_1 : S800000x1.ReducesTo [0, 1] S_
  reducesTo_S400000x1_S_d0_1 : S400000x1.ReducesTo [0, 1] S_
  bcast_S_S50000x1 : S_.BroadcastsInDim S50000x1 (![] : Fin 0 → Fin S50000x1.rank)
  bcast_S_S800000x1 : S_.BroadcastsInDim S800000x1 (![] : Fin 0 → Fin S800000x1.rank)
  bcast_S800000x1_S800000x128_0_1 : S800000x1.BroadcastsInDim S800000x128 (![0, 1] : Fin 2 → Fin S800000x128.rank)
  bcast_S400000x1_S400000x128_0_1 : S400000x1.BroadcastsInDim S400000x128 (![0, 1] : Fin 2 → Fin S400000x128.rank)
  bcast_S_S50000x128 : S_.BroadcastsInDim S50000x128 (![] : Fin 0 → Fin S50000x128.rank)
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  shapeCasts_S5000x128_S5000x128 : S5000x128.ShapeCasts S5000x128
  broadcasts_S5000x1_S5000x128 : S5000x1.Broadcasts S5000x128
  dot_S5000x128_S128x128_S5000x128_1_0_0_1_n_n_wf : DotDims.WF S5000x128 S128x128 S5000x128 [1] [0] [0] [1] [] []
  gather_S100000x96_S800000x1_S800000x96_1_0_n_n_0_1_196_wf : GatherDims.WF S100000x96 S800000x1 S800000x96 [1] [0] [] [0] [] 1 ![1, 96]
  gather_S50000x1_S800000x1_S800000x1_1_0_n_n_0_1_11_wf : GatherDims.WF S50000x1 S800000x1 S800000x1 [1] [0] [] [0] [] 1 ![1, 1]
  dot_S4000x96_S96x128_S4000x128_1_0_0_1_n_n_wf : DotDims.WF S4000x96 S96x128 S4000x128 [1] [0] [0] [1] [] []
  dot_S4000x32_S32x128_S4000x128_1_0_0_1_n_n_wf : DotDims.WF S4000x32 S32x128 S4000x128 [1] [0] [0] [1] [] []
  gather_S50000x128_S400000x1_S400000x128_1_0_n_n_0_1_1128_wf : GatherDims.WF S50000x128 S400000x1 S400000x128 [1] [0] [] [0] [] 1 ![1, 128]
  gather_S50000x1_S400000x1_S400000x1_1_0_n_n_0_1_11_wf : GatherDims.WF S50000x1 S400000x1 S400000x1 [1] [0] [] [0] [] 1 ![1, 1]
  scatter_S50000x128_S800000x1_S800000x128_1_0_0_1_wf : ScatterDims.WF S50000x128 S800000x1 S800000x128 [1] [0] [0] 1
  scatter_S50000x128_S400000x1_S400000x128_1_0_0_1_wf : ScatterDims.WF S50000x128 S400000x1 S400000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S50000x128.size a
  hwx0_7 : ∀ i : grid0.Coords, EltTy.bits .f32 = 32 ∨ (Rect.block (s := S50000x128) S5000x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x128.size a ≤ S50000x128.size a
  hwx0_8 : ∀ i : grid0.Coords, EltTy.bits .f32 = 32 ∨ (Rect.block (s := S50000x128) S5000x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x4.size a ≤ S50000x4.size a
  hwx0_9 : ∀ i : grid0.Coords, EltTy.bits .f32 = 32 ∨ (Rect.block (s := S50000x4) S5000x4.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x96.size a ≤ S800000x96.size a
  hwx1_0 : ∀ i : grid1.Coords, EltTy.bits .f32 = 32 ∨ (Rect.block (s := S800000x96) S4000x96.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x32.size a ≤ S800000x32.size a
  hwx1_1 : ∀ i : grid1.Coords, EltTy.bits .f32 = 32 ∨ (Rect.block (s := S800000x32) S4000x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S800000x1.size a
  hwx1_2 : ∀ i : grid1.Coords, EltTy.bits .f32 = 32 ∨ (Rect.block (s := S800000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S96x128.size a ≤ S96x128.size a
  hwx1_3 : ∀ i : grid1.Coords, EltTy.bits .f32 = 32 ∨ (Rect.block (s := S96x128) S96x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x128.size a ≤ S32x128.size a
  hwx1_4 : ∀ i : grid1.Coords, EltTy.bits .f32 = 32 ∨ (Rect.block (s := S32x128) S32x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x128.size a ≤ S800000x128.size a
  hwx1_6 : ∀ i : grid1.Coords, EltTy.bits .f32 = 32 ∨ (Rect.block (s := S800000x128) S4000x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4000x1.size a ≤ S800000x1.size a
  hwx1_7 : ∀ i : grid1.Coords, EltTy.bits .f32 = 32 ∨ (Rect.block (s := S800000x1) S4000x1.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S50000x128.size a
  hwx2_4 : ∀ i : grid2.Coords, EltTy.bits .f32 = 32 ∨ (Rect.block (s := S50000x128) S5000x128.size (cc2_transform_4 i) (hinb2_4 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x96_S800000x1_S800000x96_1_0_n_n_0_1_196 : GatherDims S100000x96 S800000x1 S800000x96 where
  offsetDims := [1]
  collapsedSliceDims := [0]
  operandBatchingDims := []
  startIndicesBatchingDims := []
  startIndexMap := [0]
  indexVectorDim := 1
  sliceSizes := ![1, 96]
  wf := gather_S100000x96_S800000x1_S800000x96_1_0_n_n_0_1_196_wf
def gather_S50000x1_S800000x1_S800000x1_1_0_n_n_0_1_11 : GatherDims S50000x1 S800000x1 S800000x1 where
  offsetDims := [1]
  collapsedSliceDims := [0]
  operandBatchingDims := []
  startIndicesBatchingDims := []
  startIndexMap := [0]
  indexVectorDim := 1
  sliceSizes := ![1, 1]
  wf := gather_S50000x1_S800000x1_S800000x1_1_0_n_n_0_1_11_wf
def dot_S4000x96_S96x128_S4000x128_1_0_0_1_n_n : DotDims S4000x96 S96x128 S4000x128 where
  lhsContracting := [1]
  rhsContracting := [0]
  lhsNonContracting := [0]
  rhsNonContracting := [1]
  lhsBatch := []
  rhsBatch := []
  wf := dot_S4000x96_S96x128_S4000x128_1_0_0_1_n_n_wf
def dot_S4000x32_S32x128_S4000x128_1_0_0_1_n_n : DotDims S4000x32 S32x128 S4000x128 where
  lhsContracting := [1]
  rhsContracting := [0]
  lhsNonContracting := [0]
  rhsNonContracting := [1]
  lhsBatch := []
  rhsBatch := []
  wf := dot_S4000x32_S32x128_S4000x128_1_0_0_1_n_n_wf
def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def gather_S50000x1_S400000x1_S400000x1_1_0_n_n_0_1_11 : GatherDims S50000x1 S400000x1 S400000x1 where
  offsetDims := [1]
  collapsedSliceDims := [0]
  operandBatchingDims := []
  startIndicesBatchingDims := []
  startIndexMap := [0]
  indexVectorDim := 1
  sliceSizes := ![1, 1]
  wf := gather_S50000x1_S400000x1_S400000x1_1_0_n_n_0_1_11_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg7) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg8) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v14_0) S5000x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v14_1) S5000x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v14_2) S5000x4.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v25) S4000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S4000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v12) S96x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13) S32x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v7) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v33_0) S4000x128.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v33_1) S4000x1.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v14_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v82) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v98) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v106) S5000x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v107) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S50000x128 : Shape := ⟨2, ![50000, 128]⟩
abbrev S100000x96 : Shape := ⟨2, ![100000, 96]⟩
abbrev S800000x32 : Shape := ⟨2, ![800000, 32]⟩
abbrev S800000 : Shape := ⟨1, ![800000]⟩
abbrev S400000 : Shape := ⟨1, ![400000]⟩
abbrev S128x128 : Shape := ⟨2, ![128, 128]⟩
abbrev S256x1 : Shape := ⟨2, ![256, 1]⟩
abbrev S50000x256 : Shape := ⟨2, ![50000, 256]⟩
abbrev S50000x1 : Shape := ⟨2, ![50000, 1]⟩
abbrev S_ : Shape := ⟨0, ![]⟩
abbrev S800000x1 : Shape := ⟨2, ![800000, 1]⟩
abbrev S800000x96 : Shape := ⟨2, ![800000, 96]⟩
abbrev S800000x128 : Shape := ⟨2, ![800000, 128]⟩
abbrev S800000x256 : Shape := ⟨2, ![800000, 256]⟩
abbrev S400000x1 : Shape := ⟨2, ![400000, 1]⟩
abbrev S400000x128 : Shape := ⟨2, ![400000, 128]⟩
abbrev S400000x256 : Shape := ⟨2, ![400000, 256]⟩
abbrev S1250000x1 : Shape := ⟨2, ![1250000, 1]⟩
abbrev S1 : Shape := ⟨1, ![1]⟩
abbrev S1x1 : Shape := ⟨2, ![1, 1]⟩

abbrev nBuf : Space → Nat
  | .hbm => 146
  | .vmem => 0
  | .smem => 0
  | _ => 0

abbrev hbmTy0_0 (i : Nat) : BufTy := match i % 128 with
  | 0 => ⟨S50000x128, .f32⟩
  | 1 => ⟨S100000x96, .f32⟩
  | 2 => ⟨S800000x32, .f32⟩
  | 3 => ⟨S800000, .i32⟩
  | 4 => ⟨S800000, .i32⟩
  | 5 => ⟨S400000, .i32⟩
  | 6 => ⟨S400000, .i32⟩
  | 7 => ⟨S128x128, .f32⟩
  | 8 => ⟨S128x128, .f32⟩
  | 9 => ⟨S128x128, .f32⟩
  | 10 => ⟨S256x1, .f32⟩
  | 11 => ⟨S256x1, .f32⟩
  | 12 => ⟨S256x1, .f32⟩
  | 13 => ⟨S50000x128, .f32⟩
  | 14 => ⟨S50000x256, .f32⟩
  | 15 => ⟨S50000x1, .f32⟩
  | 16 => ⟨S_, .f32⟩
  | 17 => ⟨S_, .f32⟩
  | 18 => ⟨S50000x1, .f32⟩
  | 19 => ⟨S50000x1, .i1⟩
  | 20 => ⟨S_, .f32⟩
  | 21 => ⟨S50000x1, .f32⟩
  | 22 => ⟨S50000x1, .f32⟩
  | 23 => ⟨S50000x1, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000x96, .f32⟩
  | 33 => ⟨S800000x128, .f32⟩
  | 34 => ⟨S800000x128, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000x128, .f32⟩
  | 44 => ⟨S800000x256, .f32⟩
  | 45 => ⟨S800000x1, .f32⟩
  | 46 => ⟨S_, .f32⟩
  | 47 => ⟨S_, .f32⟩
  | 48 => ⟨S800000x1, .f32⟩
  | 49 => ⟨S800000x1, .i1⟩
  | 50 => ⟨S_, .f32⟩
  | 51 => ⟨S800000x1, .f32⟩
  | 52 => ⟨S800000x1, .f32⟩
  | 53 => ⟨S800000x1, .f32⟩
  | 54 => ⟨S_, .i32⟩
  | 55 => ⟨S400000, .i32⟩
  | 56 => ⟨S400000, .i1⟩
  | 57 => ⟨S_, .i32⟩
  | 58 => ⟨S400000, .i32⟩
  | 59 => ⟨S400000, .i32⟩
  | 60 => ⟨S400000, .i32⟩
  | 61 => ⟨S400000x1, .i32⟩
  | 62 => ⟨S400000x128, .f32⟩
  | 63 => ⟨S400000x128, .f32⟩
  | 64 => ⟨S_, .i32⟩
  | 65 => ⟨S400000, .i32⟩
  | 66 => ⟨S400000, .i1⟩
  | 67 => ⟨S_, .i32⟩
  | 68 => ⟨S400000, .i32⟩
  | 69 => ⟨S400000, .i32⟩
  | 70 => ⟨S400000, .i32⟩
  | 71 => ⟨S400000x1, .i32⟩
  | 72 => ⟨S400000x128, .f32⟩
  | 73 => ⟨S400000x256, .f32⟩
  | 74 => ⟨S400000x1, .f32⟩
  | 75 => ⟨S_, .f32⟩
  | 76 => ⟨S_, .f32⟩
  | 77 => ⟨S400000x1, .f32⟩
  | 78 => ⟨S400000x1, .i1⟩
  | 79 => ⟨S_, .f32⟩
  | 80 => ⟨S400000x1, .f32⟩
  | 81 => ⟨S400000x1, .f32⟩
  | 82 => ⟨S400000x1, .f32⟩
  | 83 => ⟨S1250000x1, .f32⟩
  | 84 => ⟨S_, .f32⟩
  | 85 => ⟨S1, .f32⟩
  | 86 => ⟨S_, .f32⟩
  | 87 => ⟨S1, .f32⟩
  | 88 => ⟨S1, .f32⟩
  | 89 => ⟨S1x1, .f32⟩
  | 90 => ⟨S1250000x1, .f32⟩
  | 91 => ⟨S1250000x1, .f32⟩
  | 92 => ⟨S1250000x1, .f32⟩
  | 93 => ⟨S_, .f32⟩
  | 94 => ⟨S1, .f32⟩
  | 95 => ⟨S1x1, .f32⟩
  | 96 => ⟨S1250000x1, .f32⟩
  | 97 => ⟨S1250000x1, .f32⟩
  | 98 => ⟨S50000x1, .f32⟩
  | 99 => ⟨S800000x1, .f32⟩
  | 100 => ⟨S400000x1, .f32⟩
  | 101 => ⟨S_, .f32⟩
  | 102 => ⟨S50000x128, .f32⟩
  | 103 => ⟨S800000x128, .f32⟩
  | 104 => ⟨S800000x128, .f32⟩
  | 105 => ⟨S_, .i32⟩
  | 106 => ⟨S800000, .i32⟩
  | 107 => ⟨S800000, .i1⟩
  | 108 => ⟨S_, .i32⟩
  | 109 => ⟨S800000, .i32⟩
  | 110 => ⟨S800000, .i32⟩
  | 111 => ⟨S800000, .i32⟩
  | 112 => ⟨S800000x1, .i32⟩
  | 113 => ⟨S50000x128, .f32⟩
  | 114 => ⟨S_, .f32⟩
  | 115 => ⟨S50000x128, .f32⟩
  | 116 => ⟨S400000x128, .f32⟩
  | 117 => ⟨S400000x128, .f32⟩
  | 118 => ⟨S_, .i32⟩
  | 119 => ⟨S400000, .i32⟩
  | 120 => ⟨S400000, .i1⟩
  | 121 => ⟨S_, .i32⟩
  | 122 => ⟨S400000, .i32⟩
  | 123 => ⟨S400000, .i32⟩
  | 124 => ⟨S400000, .i32⟩
  | 125 => ⟨S400000x1, .i32⟩
  | 126 => ⟨S50000x128, .f32⟩
  | 127 => ⟨S50000x128, .f32⟩
  | _ => ⟨S50000x128, .f32⟩

abbrev hbmTy0_1 (i : Nat) : BufTy := match i % 128 with
  | 0 => ⟨S50000x128, .f32⟩
  | 1 => ⟨S50000x128, .f32⟩
  | 2 => ⟨S50000x128, .f32⟩
  | 3 => ⟨S_, .f32⟩
  | 4 => ⟨S50000x128, .f32⟩
  | 5 => ⟨S50000x128, .i1⟩
  | 6 => ⟨S_, .f32⟩
  | 7 => ⟨S50000x128, .f32⟩
  | 8 => ⟨S50000x128, .i1⟩
  | 9 => ⟨S_, .f32⟩
  | 10 => ⟨S_, .f32⟩
  | 11 => ⟨S50000x128, .f32⟩
  | 12 => ⟨S50000x128, .f32⟩
  | 13 => ⟨S50000x128, .f32⟩
  | 14 => ⟨S_, .f32⟩
  | 15 => ⟨S50000x128, .f32⟩
  | 16 => ⟨S50000x128, .f32⟩
  | 17 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v3 : Ref sig .tc := ⟨.hbm, 23, rfl⟩
abbrev main_c : Ref sig .tc := ⟨.hbm, 24, rfl⟩
abbrev main_v4 : Ref sig .tc := ⟨.hbm, 25, rfl⟩
abbrev main_v5 : Ref sig .tc := ⟨.hbm, 26, rfl⟩
abbrev main_c_0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_c_1 : Ref sig .tc := ⟨.hbm, 35, rfl⟩
abbrev main_v13 : Ref sig .tc := ⟨.hbm, 36, rfl⟩
abbrev main_v14 : Ref sig .tc := ⟨.hbm, 37, rfl⟩
abbrev main_c_2 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_3 : Ref sig .tc := ⟨.hbm, 46, rfl⟩
abbrev main_call1_cst : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_v22 : Ref sig .tc := ⟨.hbm, 53, rfl⟩
abbrev main_c_4 : Ref sig .tc := ⟨.hbm, 54, rfl⟩
abbrev main_v23 : Ref sig .tc := ⟨.hbm, 55, rfl⟩
abbrev main_v24 : Ref sig .tc := ⟨.hbm, 56, rfl⟩
abbrev main_c_5 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_c_6 : Ref sig .tc := ⟨.hbm, 64, rfl⟩
abbrev main_v31 : Ref sig .tc := ⟨.hbm, 65, rfl⟩
abbrev main_v32 : Ref sig .tc := ⟨.hbm, 66, rfl⟩
abbrev main_c_7 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_cst_8 : Ref sig .tc := ⟨.hbm, 75, rfl⟩
abbrev main_call2_cst : Ref sig .tc := ⟨.hbm, 76, rfl⟩
abbrev main_call2_v0 : Ref sig .tc := ⟨.hbm, 77, rfl⟩
abbrev main_call2_v1 : Ref sig .tc := ⟨.hbm, 78, rfl⟩
abbrev main_call2_v2 : Ref sig .tc := ⟨.hbm, 79, rfl⟩
abbrev main_call2_v3 : Ref sig .tc := ⟨.hbm, 80, rfl⟩
abbrev main_call2_v4 : Ref sig .tc := ⟨.hbm, 81, rfl⟩
abbrev main_v40 : Ref sig .tc := ⟨.hbm, 82, rfl⟩
abbrev main_v41 : Ref sig .tc := ⟨.hbm, 83, rfl⟩
abbrev main_cst_9 : Ref sig .tc := ⟨.hbm, 84, rfl⟩
abbrev main_v42 : Ref sig .tc := ⟨.hbm, 85, rfl⟩
abbrev main_cst_10 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_cst_11 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_cst_12 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_c_13 : Ref sig .tc := ⟨.hbm, 105, rfl⟩
abbrev main_v59 : Ref sig .tc := ⟨.hbm, 106, rfl⟩
abbrev main_v60 : Ref sig .tc := ⟨.hbm, 107, rfl⟩
abbrev main_c_14 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_cst_15 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_c_16 : Ref sig .tc := ⟨.hbm, 118, rfl⟩
abbrev main_v69 : Ref sig .tc := ⟨.hbm, 119, rfl⟩
abbrev main_v70 : Ref sig .tc := ⟨.hbm, 120, rfl⟩
abbrev main_c_17 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_call3_cst : Ref sig .tc := ⟨.hbm, 131, rfl⟩
abbrev main_call3_v0 : Ref sig .tc := ⟨.hbm, 132, rfl⟩
abbrev main_call3_v1 : Ref sig .tc := ⟨.hbm, 133, rfl⟩
abbrev main_call3_cst_0 : Ref sig .tc := ⟨.hbm, 134, rfl⟩
abbrev main_call3_v2 : Ref sig .tc := ⟨.hbm, 135, rfl⟩
abbrev main_call3_v3 : Ref sig .tc := ⟨.hbm, 136, rfl⟩
abbrev main_call3_cst_1 : Ref sig .tc := ⟨.hbm, 137, rfl⟩
abbrev main_call3_call0_v0 : Ref sig .tc := ⟨.hbm, 138, rfl⟩
abbrev main_call3_call0_v1 : Ref sig .tc := ⟨.hbm, 139, rfl⟩
abbrev main_call3_v4 : Ref sig .tc := ⟨.hbm, 140, rfl⟩
abbrev main_call3_v5 : Ref sig .tc := ⟨.hbm, 141, rfl⟩
abbrev main_call3_cst_2 : Ref sig .tc := ⟨.hbm, 142, rfl⟩
abbrev main_call3_v6 : Ref sig .tc := ⟨.hbm, 143, rfl⟩
abbrev main_call3_v7 : Ref sig .tc := ⟨.hbm, 144, rfl⟩
abbrev main_v80 : Ref sig .tc := ⟨.hbm, 145, rfl⟩

abbrev nD : Nat := 1
abbrev τ : Topo := Topo.v7x

variable {F : FTy → Type} [FloatOps F]

class Facts₀ : Prop where
  concatenates_S50000x128_S50000x128_S50000x256_d1 : Shape.Concatenates [S50000x128, S50000x128] S50000x256 1
  bcast_S_S50000x1 : S_.BroadcastsInDim S50000x1 (![] : Fin 0 → Fin S50000x1.rank)
  bcast_S_S800000 : S_.BroadcastsInDim S800000 (![] : Fin 0 → Fin S800000.rank)
  bcast_S800000_S800000x1_0 : S800000.BroadcastsInDim S800000x1 (![0] : Fin 1 → Fin S800000x1.rank)
  concatenates_S800000x96_S800000x32_S800000x128_d1 : Shape.Concatenates [S800000x96, S800000x32] S800000x128 1
  concatenates_S800000x128_S800000x128_S800000x256_d1 : Shape.Concatenates [S800000x128, S800000x128] S800000x256 1
  bcast_S_S800000x1 : S_.BroadcastsInDim S800000x1 (![] : Fin 0 → Fin S800000x1.rank)
  bcast_S_S400000 : S_.BroadcastsInDim S400000 (![] : Fin 0 → Fin S400000.rank)
  bcast_S400000_S400000x1_0 : S400000.BroadcastsInDim S400000x1 (![0] : Fin 1 → Fin S400000x1.rank)
  concatenates_S400000x128_S400000x128_S400000x256_d1 : Shape.Concatenates [S400000x128, S400000x128] S400000x256 1
  bcast_S_S400000x1 : S_.BroadcastsInDim S400000x1 (![] : Fin 0 → Fin S400000x1.rank)
  concatenates_S50000x1_S800000x1_S400000x1_S1250000x1_d0 : Shape.Concatenates [S50000x1, S800000x1, S400000x1] S1250000x1 0
  reducesTo_S1250000x1_S1_d0 : S1250000x1.ReducesTo [0] S1
  h_S_ : 0 < S_.numel
  bcast_S_S1 : S_.BroadcastsInDim S1 (![] : Fin 0 → Fin S1.rank)
  bcast_S1_S1x1_1 : S1.BroadcastsInDim S1x1 (![1] : Fin 1 → Fin S1x1.rank)
  bcast_S1x1_S1250000x1_0_1 : S1x1.BroadcastsInDim S1250000x1 (![0, 1] : Fin 2 → Fin S1250000x1.rank)
  slices_S1250000x1_S50000x1_0_0 : S1250000x1.Slices ![0, 0] S50000x1
  slices_S1250000x1_S800000x1_50000_0 : S1250000x1.Slices ![50000, 0] S800000x1
  slices_S1250000x1_S400000x1_850000_0 : S1250000x1.Slices ![850000, 0] S400000x1
  bcast_S_S50000x128 : S_.BroadcastsInDim S50000x128 (![] : Fin 0 → Fin S50000x128.rank)
  bcast_S800000x1_S800000x128_0_1 : S800000x1.BroadcastsInDim S800000x128 (![0, 1] : Fin 2 → Fin S800000x128.rank)
  bcast_S400000x1_S400000x128_0_1 : S400000x1.BroadcastsInDim S400000x128 (![0, 1] : Fin 2 → Fin S400000x128.rank)
  bcast_S50000x1_S50000x128_0_1 : S50000x1.BroadcastsInDim S50000x128 (![0, 1] : Fin 2 → Fin S50000x128.rank)
  dot_S50000x128_S128x128_S50000x128_1_0_0_1_n_n_wf : DotDims.WF S50000x128 S128x128 S50000x128 [1] [0] [0] [1] [] []
  dot_S50000x256_S256x1_S50000x1_1_0_0_1_n_n_wf : DotDims.WF S50000x256 S256x1 S50000x1 [1] [0] [0] [1] [] []
  gather_S100000x96_S800000x1_S800000x96_1_0_n_n_0_1_196_wf : GatherDims.WF S100000x96 S800000x1 S800000x96 [1] [0] [] [0] [] 1 ![1, 96]
  dot_S800000x128_S128x128_S800000x128_1_0_0_1_n_n_wf : DotDims.WF S800000x128 S128x128 S800000x128 [1] [0] [0] [1] [] []
  gather_S50000x128_S800000x1_S800000x128_1_0_n_n_0_1_1128_wf : GatherDims.WF S50000x128 S800000x1 S800000x128 [1] [0] [] [0] [] 1 ![1, 128]
  dot_S800000x256_S256x1_S800000x1_1_0_0_1_n_n_wf : DotDims.WF S800000x256 S256x1 S800000x1 [1] [0] [0] [1] [] []
  gather_S50000x128_S400000x1_S400000x128_1_0_n_n_0_1_1128_wf : GatherDims.WF S50000x128 S400000x1 S400000x128 [1] [0] [] [0] [] 1 ![1, 128]
  dot_S400000x128_S128x128_S400000x128_1_0_0_1_n_n_wf : DotDims.WF S400000x128 S128x128 S400000x128 [1] [0] [0] [1] [] []
  dot_S400000x256_S256x1_S400000x1_1_0_0_1_n_n_wf : DotDims.WF S400000x256 S256x1 S400000x1 [1] [0] [0] [1] [] []
  scatter_S50000x128_S800000x1_S800000x128_1_0_0_1_wf : ScatterDims.WF S50000x128 S800000x1 S800000x128 [1] [0] [0] 1
  scatter_S50000x128_S400000x1_S400000x128_1_0_0_1_wf : ScatterDims.WF S50000x128 S400000x1 S400000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x256_S256x1_S50000x1_1_0_0_1_n_n : DotDims S50000x256 S256x1 S50000x1 where
  lhsContracting := [1]
  rhsContracting := [0]
  lhsNonContracting := [0]
  rhsNonContracting := [1]
  lhsBatch := []
  rhsBatch := []
  wf := dot_S50000x256_S256x1_S50000x1_1_0_0_1_n_n_wf
def gather_S100000x96_S800000x1_S800000x96_1_0_n_n_0_1_196 : GatherDims S100000x96 S800000x1 S800000x96 where
  offsetDims := [1]
  collapsedSliceDims := [0]
  operandBatchingDims := []
  startIndicesBatchingDims := []
  startIndexMap := [0]
  indexVectorDim := 1
  sliceSizes := ![1, 96]
  wf := gather_S100000x96_S800000x1_S800000x96_1_0_n_n_0_1_196_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x256_S256x1_S800000x1_1_0_0_1_n_n : DotDims S800000x256 S256x1 S800000x1 where
  lhsContracting := [1]
  rhsContracting := [0]
  lhsNonContracting := [0]
  rhsNonContracting := [1]
  lhsBatch := []
  rhsBatch := []
  wf := dot_S800000x256_S256x1_S800000x1_1_0_0_1_n_n_wf
def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def dot_S400000x128_S128x128_S400000x128_1_0_0_1_n_n : DotDims S400000x128 S128x128 S400000x128 where
  lhsContracting := [1]
  rhsContracting := [0]
  lhsNonContracting := [0]
  rhsNonContracting := [1]
  lhsBatch := []
  rhsBatch := []
  wf := dot_S400000x128_S128x128_S400000x128_1_0_0_1_n_n_wf
def dot_S400000x256_S256x1_S400000x1_1_0_0_1_n_n : DotDims S400000x256 S256x1 S400000x1 where
  lhsContracting := [1]
  rhsContracting := [0]
  lhsNonContracting := [0]
  rhsNonContracting := [1]
  lhsBatch := []
  rhsBatch := []
  wf := dot_S400000x256_S256x1_S400000x1_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf

class Facts : Prop extends Facts₀ where

variable [Facts]
-- ==== Proof.RefRun.lean ====
/-
  The reference program's run: @main of the reference as ONE list of its host operations — the four
  outlined activation functions (three leaky-relu, one elu) and the selects they call written inline at their call sites, over the
  buffers each call names —, and what the list leaves in memory: every weakly fair execution terminates with each buffer at the
  fold of the operations' results over the launch contents, the thirteen argument arrays unchanged.
-/
import proofs.«139946_j74208444940406_2_alg».proof.Defs
import proofs.«139946_j74208444940406_2_alg».proof.Proof.Gen.ReferenceIdeal
import proofs.«139946_j74208444940406_2_alg».proof.Proof.Gen.Pre_finite_inputs
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 133 operations in order, the calls unfolded: each leaky-relu is seven (the zero and its broadcast, the comparison with
    it, the slope converted and broadcast, the product with the slope, the select of the called function), the elu fifteen. -/
abbrev ops : List (HloOp τ sig (Elt F)) :=
  [ StableHlo.binary main_arg0 main_arg7 main_v0 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v0 main_v0 main_v1 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    StableHlo.binary main_v1 main_arg10 main_v2 ((fun l r => Host.dotGeneral dot_S50000x256_S256x1_S50000x1_1_0_0_1_n_n none l r) : (⟨S50000x256, .f32⟩ : BufTy).Contents (Elt F) → (⟨S256x1, .f32⟩ : BufTy).Contents (Elt F) → (⟨S50000x1, .f32⟩ : BufTy).Contents (Elt F)),
    StableHlo.nullary main_cst (constant S_ .f32 0x3E4CCCCD#32),
    StableHlo.TRef.nullary main_call0.cst (constant S_ .f32 0x00000000#32),
    StableHlo.TRef.unary main_call0.cst main_call0.v0 (broadcastInDim S50000x1 ![] bcast_S_S50000x1),
    StableHlo.TRef.binary (.of main_v2 : StableHlo.TRef sig ⟨S50000x1, .f32⟩) main_call0.v0 main_call0.v1 (cmpf .oge),
    StableHlo.TRef.unary (.of main_cst : StableHlo.TRef sig ⟨S_, .f32⟩) main_call0.v2 id,
    StableHlo.TRef.unary main_call0.v2 main_call0.v3 (broadcastInDim S50000x1 ![] bcast_S_S50000x1),
    StableHlo.TRef.binary main_call0.v3 (.of main_v2 : StableHlo.TRef sig ⟨S50000x1, .f32⟩) main_call0.v4 mulf,
    StableHlo.TRef.ternary main_call0.v1 (.of main_v2 : StableHlo.TRef sig ⟨S50000x1, .f32⟩) main_call0.v4 main_call0.call0.v0 select,
    StableHlo.nullary main_c (constantI S_ 32 0#32),
    StableHlo.unary main_c main_v4 (broadcastInDim S800000 ![] bcast_S_S800000 : (⟨S_, .i32⟩ : BufTy).Contents (Elt F) → (⟨S800000, .i32⟩ : BufTy).Contents (Elt F)),
    StableHlo.binary main_arg3 main_v4 main_v5 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 100000#32),
    StableHlo.unary main_c_0 main_v6 (broadcastInDim S800000 ![] bcast_S_S800000 : (⟨S_, .i32⟩ : BufTy).Contents (Elt F) → (⟨S800000, .i32⟩ : BufTy).Contents (Elt F)),
    StableHlo.binary main_arg3 main_v6 main_v7 (addi : (⟨S800000, .i32⟩ : BufTy).Contents (Elt F) → (⟨S800000, .i32⟩ : BufTy).Contents (Elt F) → (⟨S800000, .i32⟩ : BufTy).Contents (Elt F)),
    StableHlo.ternary main_v5 main_v7 main_arg3 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v8 main_v9 (broadcastInDim S800000x1 ![0] bcast_S800000_S800000x1_0 : (⟨S800000, .i32⟩ : BufTy).Contents (Elt F) → (⟨S800000x1, .i32⟩ : BufTy).Contents (Elt F)),
    StableHlo.binary main_arg1 main_v9 main_v10 ((fun x i => Host.gather gather_S100000x96_S800000x1_S800000x96_1_0_n_n_0_1_196 x i) : (⟨S100000x96, .f32⟩ : BufTy).Contents (Elt F) → (⟨S800000x1, .i32⟩ : BufTy).Contents (Elt F) → (⟨S800000x96, .f32⟩ : BufTy).Contents (Elt F)),
    StableHlo.binary main_v10 main_arg2 main_v11 ((fun a b => concatenate S800000x128 1 [⟨S800000x96, a⟩, ⟨S800000x32, b⟩] concatenates_S800000x96_S800000x32_S800000x128_d1) : (⟨S800000x96, .f32⟩ : BufTy).Contents (Elt F) → (⟨S800000x32, .f32⟩ : BufTy).Contents (Elt F) → (⟨S800000x128, .f32⟩ : BufTy).Contents (Elt F)),
    StableHlo.binary main_v11 main_arg9 main_v12 ((fun l r => Host.dotGeneral dot_S800000x128_S128x128_S800000x128_1_0_0_1_n_n none l r) : (⟨S800000x128, .f32⟩ : BufTy).Contents (Elt F) → (⟨S128x128, .f32⟩ : BufTy).Contents (Elt F) → (⟨S800000x128, .f32⟩ : BufTy).Contents (Elt F)),
    StableHlo.nullary main_c_1 (constantI S_ 32 0#32),
    StableHlo.unary main_c_1 main_v13 (broadcastInDim S800000 ![] bcast_S_S800000 : (⟨S_, .i32⟩ : BufTy).Contents (Elt F) → (⟨S800000, .i32⟩ : BufTy).Contents (Elt F)),
    StableHlo.binary main_arg4 main_v13 main_v14 (cmpi .slt : (⟨S800000, .i32⟩ : BufTy).Contents (Elt F) → (⟨S800000, .i32⟩ : BufTy).Contents (Elt F) → (⟨S800000, .i1⟩ : BufTy).Contents (Elt F)),
    StableHlo.nullary main_c_2 (constantI S_ 32 50000#32),
    StableHlo.unary main_c_2 main_v15 (broadcastInDim S800000 ![] bcast_S_S800000 : (⟨S_, .i32⟩ : BufTy).Contents (Elt F) → (⟨S800000, .i32⟩ : BufTy).Contents (Elt F)),
    StableHlo.binary main_arg4 main_v15 main_v16 (addi : (⟨S800000, .i32⟩ : BufTy).Contents (Elt F) → (⟨S800000, .i32⟩ : BufTy).Contents (Elt F) → (⟨S800000, .i32⟩ : BufTy).Contents (Elt F)),
    StableHlo.ternary main_v14 main_v16 main_arg4 main_v17 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v17 main_v18 (broadcastInDim S800000x1 ![0] bcast_S800000_S800000x1_0 : (⟨S800000, .i32⟩ : BufTy).Contents (Elt F) → (⟨S800000x1, .i32⟩ : BufTy).Contents (Elt F)),
    StableHlo.binary main_v0 main_v18 main_v19 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.binary main_v19 main_v12 main_v20 ((fun a b => concatenate S800000x256 1 [⟨S800000x128, a⟩, ⟨S800000x128, b⟩] concatenates_S800000x128_S800000x128_S800000x256_d1) : (⟨S800000x128, .f32⟩ : BufTy).Contents (Elt F) → (⟨S800000x128, .f32⟩ : BufTy).Contents (Elt F) → (⟨S800000x256, .f32⟩ : BufTy).Contents (Elt F)),
    StableHlo.binary main_v20 main_arg11 main_v21 ((fun l r => Host.dotGeneral dot_S800000x256_S256x1_S800000x1_1_0_0_1_n_n none l r) : (⟨S800000x256, .f32⟩ : BufTy).Contents (Elt F) → (⟨S256x1, .f32⟩ : BufTy).Contents (Elt F) → (⟨S800000x1, .f32⟩ : BufTy).Contents (Elt F)),
    StableHlo.nullary main_cst_3 (constant S_ .f32 0x3E4CCCCD#32),
    StableHlo.TRef.nullary main_call1.cst (constant S_ .f32 0x00000000#32),
    StableHlo.TRef.unary main_call1.cst main_call1.v0 (broadcastInDim S800000x1 ![] bcast_S_S800000x1),
    StableHlo.TRef.binary (.of main_v21 : StableHlo.TRef sig ⟨S800000x1, .f32⟩) main_call1.v0 main_call1.v1 (cmpf .oge),
    StableHlo.TRef.unary (.of main_cst_3 : StableHlo.TRef sig ⟨S_, .f32⟩) main_call1.v2 id,
    StableHlo.TRef.unary main_call1.v2 main_call1.v3 (broadcastInDim S800000x1 ![] bcast_S_S800000x1),
    StableHlo.TRef.binary main_call1.v3 (.of main_v21 : StableHlo.TRef sig ⟨S800000x1, .f32⟩) main_call1.v4 mulf,
    StableHlo.TRef.ternary main_call1.v1 (.of main_v21 : StableHlo.TRef sig ⟨S800000x1, .f32⟩) main_call1.v4 main_call1.call0.v0 select,
    StableHlo.nullary main_c_4 (constantI S_ 32 0#32),
    StableHlo.unary main_c_4 main_v23 (broadcastInDim S400000 ![] bcast_S_S400000 : (⟨S_, .i32⟩ : BufTy).Contents (Elt F) → (⟨S400000, .i32⟩ : BufTy).Contents (Elt F)),
    StableHlo.binary main_arg5 main_v23 main_v24 (cmpi .slt : (⟨S400000, .i32⟩ : BufTy).Contents (Elt F) → (⟨S400000, .i32⟩ : BufTy).Contents (Elt F) → (⟨S400000, .i1⟩ : BufTy).Contents (Elt F)),
    StableHlo.nullary main_c_5 (constantI S_ 32 50000#32),
    StableHlo.unary main_c_5 main_v25 (broadcastInDim S400000 ![] bcast_S_S400000 : (⟨S_, .i32⟩ : BufTy).Contents (Elt F) → (⟨S400000, .i32⟩ : BufTy).Contents (Elt F)),
    StableHlo.binary main_arg5 main_v25 main_v26 (addi : (⟨S400000, .i32⟩ : BufTy).Contents (Elt F) → (⟨S400000, .i32⟩ : BufTy).Contents (Elt F) → (⟨S400000, .i32⟩ : BufTy).Contents (Elt F)),
    StableHlo.ternary main_v24 main_v26 main_arg5 main_v27 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v27 main_v28 (broadcastInDim S400000x1 ![0] bcast_S400000_S400000x1_0 : (⟨S400000, .i32⟩ : BufTy).Contents (Elt F) → (⟨S400000x1, .i32⟩ : BufTy).Contents (Elt F)),
    StableHlo.binary main_arg0 main_v28 main_v29 ((fun x i => Host.gather gather_S50000x128_S400000x1_S400000x128_1_0_n_n_0_1_1128 x i) : (⟨S50000x128, .f32⟩ : BufTy).Contents (Elt F) → (⟨S400000x1, .i32⟩ : BufTy).Contents (Elt F) → (⟨S400000x128, .f32⟩ : BufTy).Contents (Elt F)),
    StableHlo.binary main_v29 main_arg8 main_v30 ((fun l r => Host.dotGeneral dot_S400000x128_S128x128_S400000x128_1_0_0_1_n_n none l r) : (⟨S400000x128, .f32⟩ : BufTy).Contents (Elt F) → (⟨S128x128, .f32⟩ : BufTy).Contents (Elt F) → (⟨S400000x128, .f32⟩ : BufTy).Contents (Elt F)),
    StableHlo.nullary main_c_6 (constantI S_ 32 0#32),
    StableHlo.unary main_c_6 main_v31 (broadcastInDim S400000 ![] bcast_S_S400000 : (⟨S_, .i32⟩ : BufTy).Contents (Elt F) → (⟨S400000, .i32⟩ : BufTy).Contents (Elt F)),
    StableHlo.binary main_arg6 main_v31 main_v32 (cmpi .slt : (⟨S400000, .i32⟩ : BufTy).Contents (Elt F) → (⟨S400000, .i32⟩ : BufTy).Contents (Elt F) → (⟨S400000, .i1⟩ : BufTy).Contents (Elt F)),
    StableHlo.nullary main_c_7 (constantI S_ 32 50000#32),
    StableHlo.unary main_c_7 main_v33 (broadcastInDim S400000 ![] bcast_S_S400000 : (⟨S_, .i32⟩ : BufTy).Contents (Elt F) → (⟨S400000, .i32⟩ : BufTy).Contents (Elt F)),
    StableHlo.binary main_arg6 main_v33 main_v34 (addi : (⟨S400000, .i32⟩ : BufTy).Contents (Elt F) → (⟨S400000, .i32⟩ : BufTy).Contents (Elt F) → (⟨S400000, .i32⟩ : BufTy).Contents (Elt F)),
    StableHlo.ternary main_v32 main_v34 main_arg6 main_v35 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v35 main_v36 (broadcastInDim S400000x1 ![0] bcast_S400000_S400000x1_0 : (⟨S400000, .i32⟩ : BufTy).Contents (Elt F) → (⟨S400000x1, .i32⟩ : BufTy).Contents (Elt F)),
    StableHlo.binary main_v0 main_v36 main_v37 ((fun x i => Host.gather gather_S50000x128_S400000x1_S400000x128_1_0_n_n_0_1_1128 x i) : (⟨S50000x128, .f32⟩ : BufTy).Contents (Elt F) → (⟨S400000x1, .i32⟩ : BufTy).Contents (Elt F) → (⟨S400000x128, .f32⟩ : BufTy).Contents (Elt F)),
    StableHlo.binary main_v37 main_v30 main_v38 ((fun a b => concatenate S400000x256 1 [⟨S400000x128, a⟩, ⟨S400000x128, b⟩] concatenates_S400000x128_S400000x128_S400000x256_d1) : (⟨S400000x128, .f32⟩ : BufTy).Contents (Elt F) → (⟨S400000x128, .f32⟩ : BufTy).Contents (Elt F) → (⟨S400000x256, .f32⟩ : BufTy).Contents (Elt F)),
    StableHlo.binary main_v38 main_arg12 main_v39 ((fun l r => Host.dotGeneral dot_S400000x256_S256x1_S400000x1_1_0_0_1_n_n none l r) : (⟨S400000x256, .f32⟩ : BufTy).Contents (Elt F) → (⟨S256x1, .f32⟩ : BufTy).Contents (Elt F) → (⟨S400000x1, .f32⟩ : BufTy).Contents (Elt F)),
    StableHlo.nullary main_cst_8 (constant S_ .f32 0x3E4CCCCD#32),
    StableHlo.TRef.nullary main_call2.cst (constant S_ .f32 0x00000000#32),
    StableHlo.TRef.unary main_call2.cst main_call2.v0 (broadcastInDim S400000x1 ![] bcast_S_S400000x1),
    StableHlo.TRef.binary (.of main_v39 : StableHlo.TRef sig ⟨S400000x1, .f32⟩) main_call2.v0 main_call2.v1 (cmpf .oge),
    StableHlo.TRef.unary (.of main_cst_8 : StableHlo.TRef sig ⟨S_, .f32⟩) main_call2.v2 id,
    StableHlo.TRef.unary main_call2.v2 main_call2.v3 (broadcastInDim S400000x1 ![] bcast_S_S400000x1),
    StableHlo.TRef.binary main_call2.v3 (.of main_v39 : StableHlo.TRef sig ⟨S400000x1, .f32⟩) main_call2.v4 mulf,
    StableHlo.TRef.ternary main_call2.v1 (.of main_v39 : StableHlo.TRef sig ⟨S400000x1, .f32⟩) main_call2.v4 main_call2.call0.v0 select,
    StableHlo.nary ![main_v3, main_v22, main_v40] main_v41 (fun u => concatenate S1250000x1 0 [⟨S50000x1, u 0⟩, ⟨S800000x1, u 1⟩, ⟨S400000x1, u 2⟩] concatenates_S50000x1_S800000x1_S400000x1_S1250000x1_d0),
    StableHlo.nullary main_cst_9 (constant S_ .f32 0xFF800000#32),
    StableHlo.binary main_v41 main_cst_9 main_v42 ((fun x v => Host.reduce FloatOps.maximumf x v reducesTo_S1250000x1_S1_d0 h_S_) : (⟨S1250000x1, .f32⟩ : BufTy).Contents (Elt F) → (⟨S_, .f32⟩ : BufTy).Contents (Elt F) → (⟨S1, .f32⟩ : BufTy).Contents (Elt F)),
    StableHlo.nullary main_cst_10 (constant S_ .f32 0xFF800000#32),
    StableHlo.unary main_cst_10 main_v43 (broadcastInDim S1 ![] bcast_S_S1 : (⟨S_, .f32⟩ : BufTy).Contents (Elt F) → (⟨S1, .f32⟩ : BufTy).Contents (Elt F)),
    StableHlo.binary main_v43 main_v42 main_v44 (maximumf : (⟨S1, .f32⟩ : BufTy).Contents (Elt F) → (⟨S1, .f32⟩ : BufTy).Contents (Elt F) → (⟨S1, .f32⟩ : BufTy).Contents (Elt F)),
    StableHlo.unary main_v44 main_v45 (broadcastInDim S1x1 ![1] bcast_S1_S1x1_1 : (⟨S1, .f32⟩ : BufTy).Contents (Elt F) → (⟨S1x1, .f32⟩ : BufTy).Contents (Elt F)),
    StableHlo.unary main_v45 main_v46 (broadcastInDim S1250000x1 ![0, 1] bcast_S1x1_S1250000x1_0_1 : (⟨S1x1, .f32⟩ : BufTy).Contents (Elt F) → (⟨S1250000x1, .f32⟩ : BufTy).Contents (Elt F)),
    StableHlo.binary main_v41 main_v46 main_v47 (subf : (⟨S1250000x1, .f32⟩ : BufTy).Contents (Elt F) → (⟨S1250000x1, .f32⟩ : BufTy).Contents (Elt F) → (⟨S1250000x1, .f32⟩ : BufTy).Contents (Elt F)),
    StableHlo.unary main_v47 main_v48 (Host.exp : (⟨S1250000x1, .f32⟩ : BufTy).Contents (Elt F) → (⟨S1250000x1, .f32⟩ : BufTy).Contents (Elt F)),
    StableHlo.nullary main_cst_11 (constant S_ .f32 0x00000000#32),
    StableHlo.binary main_v48 main_cst_11 main_v49 ((fun x v => Host.reduceAdd x v reducesTo_S1250000x1_S1_d0 h_S_) : (⟨S1250000x1, .f32⟩ : BufTy).Contents (Elt F) → (⟨S_, .f32⟩ : BufTy).Contents (Elt F) → (⟨S1, .f32⟩ : BufTy).Contents (Elt F)),
    StableHlo.unary main_v49 main_v50 (broadcastInDim S1x1 ![1] bcast_S1_S1x1_1 : (⟨S1, .f32⟩ : BufTy).Contents (Elt F) → (⟨S1x1, .f32⟩ : BufTy).Contents (Elt F)),
    StableHlo.unary main_v50 main_v51 (broadcastInDim S1250000x1 ![0, 1] bcast_S1x1_S1250000x1_0_1 : (⟨S1x1, .f32⟩ : BufTy).Contents (Elt F) → (⟨S1250000x1, .f32⟩ : BufTy).Contents (Elt F)),
    StableHlo.binary main_v48 main_v51 main_v52 (Host.divf : (⟨S1250000x1, .f32⟩ : BufTy).Contents (Elt F) → (⟨S1250000x1, .f32⟩ : BufTy).Contents (Elt F) → (⟨S1250000x1, .f32⟩ : BufTy).Contents (Elt F)),
    StableHlo.unary main_v52 main_v53 ((extractStridedSlice S50000x1 ![0, 0] · slices_S1250000x1_S50000x1_0_0) : (⟨S1250000x1, .f32⟩ : BufTy).Contents (Elt F) → (⟨S50000x1, .f32⟩ : BufTy).Contents (Elt F)),
    StableHlo.unary main_v52 main_v54 ((extractStridedSlice S800000x1 ![50000, 0] · slices_S1250000x1_S800000x1_50000_0) : (⟨S1250000x1, .f32⟩ : BufTy).Contents (Elt F) → (⟨S800000x1, .f32⟩ : BufTy).Contents (Elt F)),
    StableHlo.unary main_v52 main_v55 ((extractStridedSlice S400000x1 ![850000, 0] · slices_S1250000x1_S400000x1_850000_0) : (⟨S1250000x1, .f32⟩ : BufTy).Contents (Elt F) → (⟨S400000x1, .f32⟩ : BufTy).Contents (Elt F)),
    StableHlo.nullary main_cst_12 (constant S_ .f32 0x00000000#32),
    StableHlo.unary main_cst_12 main_v56 (broadcastInDim S50000x128 ![] bcast_S_S50000x128 : (⟨S_, .f32⟩ : BufTy).Contents (Elt F) → (⟨S50000x128, .f32⟩ : BufTy).Contents (Elt F)),
    StableHlo.unary main_v54 main_v57 (broadcastInDim S800000x128 ![0, 1] bcast_S800000x1_S800000x128_0_1 : (⟨S800000x1, .f32⟩ : BufTy).Contents (Elt F) → (⟨S800000x128, .f32⟩ : BufTy).Contents (Elt F)),
    StableHlo.binary main_v57 main_v12 main_v58 (mulf : (⟨S800000x128, .f32⟩ : BufTy).Contents (Elt F) → (⟨S800000x128, .f32⟩ : BufTy).Contents (Elt F) → (⟨S800000x128, .f32⟩ : BufTy).Contents (Elt F)),
    StableHlo.nullary main_c_13 (constantI S_ 32 0#32),
    StableHlo.unary main_c_13 main_v59 (broadcastInDim S800000 ![] bcast_S_S800000 : (⟨S_, .i32⟩ : BufTy).Contents (Elt F) → (⟨S800000, .i32⟩ : BufTy).Contents (Elt F)),
    StableHlo.binary main_arg4 main_v59 main_v60 (cmpi .slt : (⟨S800000, .i32⟩ : BufTy).Contents (Elt F) → (⟨S800000, .i32⟩ : BufTy).Contents (Elt F) → (⟨S800000, .i1⟩ : BufTy).Contents (Elt F)),
    StableHlo.nullary main_c_14 (constantI S_ 32 50000#32),
    StableHlo.unary main_c_14 main_v61 (broadcastInDim S800000 ![] bcast_S_S800000 : (⟨S_, .i32⟩ : BufTy).Contents (Elt F) → (⟨S800000, .i32⟩ : BufTy).Contents (Elt F)),
    StableHlo.binary main_arg4 main_v61 main_v62 (addi : (⟨S800000, .i32⟩ : BufTy).Contents (Elt F) → (⟨S800000, .i32⟩ : BufTy).Contents (Elt F) → (⟨S800000, .i32⟩ : BufTy).Contents (Elt F)),
    StableHlo.ternary main_v60 main_v62 main_arg4 main_v63 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v63 main_v64 (broadcastInDim S800000x1 ![0] bcast_S800000_S800000x1_0 : (⟨S800000, .i32⟩ : BufTy).Contents (Elt F) → (⟨S800000x1, .i32⟩ : BufTy).Contents (Elt F)),
    StableHlo.ternary main_v56 main_v64 main_v58 main_v65 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_15 (constant S_ .f32 0x00000000#32),
    StableHlo.unary main_cst_15 main_v66 (broadcastInDim S50000x128 ![] bcast_S_S50000x128 : (⟨S_, .f32⟩ : BufTy).Contents (Elt F) → (⟨S50000x128, .f32⟩ : BufTy).Contents (Elt F)),
    StableHlo.unary main_v55 main_v67 (broadcastInDim S400000x128 ![0, 1] bcast_S400000x1_S400000x128_0_1 : (⟨S400000x1, .f32⟩ : BufTy).Contents (Elt F) → (⟨S400000x128, .f32⟩ : BufTy).Contents (Elt F)),
    StableHlo.binary main_v67 main_v30 main_v68 (mulf : (⟨S400000x128, .f32⟩ : BufTy).Contents (Elt F) → (⟨S400000x128, .f32⟩ : BufTy).Contents (Elt F) → (⟨S400000x128, .f32⟩ : BufTy).Contents (Elt F)),
    StableHlo.nullary main_c_16 (constantI S_ 32 0#32),
    StableHlo.unary main_c_16 main_v69 (broadcastInDim S400000 ![] bcast_S_S400000 : (⟨S_, .i32⟩ : BufTy).Contents (Elt F) → (⟨S400000, .i32⟩ : BufTy).Contents (Elt F)),
    StableHlo.binary main_arg6 main_v69 main_v70 (cmpi .slt : (⟨S400000, .i32⟩ : BufTy).Contents (Elt F) → (⟨S400000, .i32⟩ : BufTy).Contents (Elt F) → (⟨S400000, .i1⟩ : BufTy).Contents (Elt F)),
    StableHlo.nullary main_c_17 (constantI S_ 32 50000#32),
    StableHlo.unary main_c_17 main_v71 (broadcastInDim S400000 ![] bcast_S_S400000 : (⟨S_, .i32⟩ : BufTy).Contents (Elt F) → (⟨S400000, .i32⟩ : BufTy).Contents (Elt F)),
    StableHlo.binary main_arg6 main_v71 main_v72 (addi : (⟨S400000, .i32⟩ : BufTy).Contents (Elt F) → (⟨S400000, .i32⟩ : BufTy).Contents (Elt F) → (⟨S400000, .i32⟩ : BufTy).Contents (Elt F)),
    StableHlo.ternary main_v70 main_v72 main_arg6 main_v73 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v73 main_v74 (broadcastInDim S400000x1 ![0] bcast_S400000_S400000x1_0 : (⟨S400000, .i32⟩ : BufTy).Contents (Elt F) → (⟨S400000x1, .i32⟩ : BufTy).Contents (Elt F)),
    StableHlo.ternary main_v66 main_v74 main_v68 main_v75 ((fun x i u => Host.scatterAdd scatter_S50000x128_S400000x1_S400000x128_1_0_0_1 x i u) : (⟨S50000x128, .f32⟩ : BufTy).Contents (Elt F) → (⟨S400000x1, .i32⟩ : BufTy).Contents (Elt F) → (⟨S400000x128, .f32⟩ : BufTy).Contents (Elt F) → (⟨S50000x128, .f32⟩ : BufTy).Contents (Elt F)),
    StableHlo.unary main_v53 main_v76 (broadcastInDim S50000x128 ![0, 1] bcast_S50000x1_S50000x128_0_1 : (⟨S50000x1, .f32⟩ : BufTy).Contents (Elt F) → (⟨S50000x128, .f32⟩ : BufTy).Contents (Elt F)),
    StableHlo.binary main_v76 main_v0 main_v77 (mulf : (⟨S50000x128, .f32⟩ : BufTy).Contents (Elt F) → (⟨S50000x128, .f32⟩ : BufTy).Contents (Elt F) → (⟨S50000x128, .f32⟩ : BufTy).Contents (Elt F)),
    StableHlo.binary main_v77 main_v65 main_v78 (addf : (⟨S50000x128, .f32⟩ : BufTy).Contents (Elt F) → (⟨S50000x128, .f32⟩ : BufTy).Contents (Elt F) → (⟨S50000x128, .f32⟩ : BufTy).Contents (Elt F)),
    StableHlo.binary main_v78 main_v75 main_v79 (addf : (⟨S50000x128, .f32⟩ : BufTy).Contents (Elt F) → (⟨S50000x128, .f32⟩ : BufTy).Contents (Elt F) → (⟨S50000x128, .f32⟩ : BufTy).Contents (Elt F)),
    StableHlo.TRef.nullary main_call3.cst (constant S_ .f32 0x00000000#32),
    StableHlo.TRef.unary main_call3.cst main_call3.v0 (broadcastInDim S50000x128 ![] bcast_S_S50000x128),
    StableHlo.TRef.binary (.of main_v79 : StableHlo.TRef sig ⟨S50000x128, .f32⟩) main_call3.v0 main_call3.v1 (cmpf .ogt),
    StableHlo.TRef.nullary main_call3.cst_0 (constant S_ .f32 0x00000000#32),
    StableHlo.TRef.unary main_call3.cst_0 main_call3.v2 (broadcastInDim S50000x128 ![] bcast_S_S50000x128),
    StableHlo.TRef.binary (.of main_v79 : StableHlo.TRef sig ⟨S50000x128, .f32⟩) main_call3.v2 main_call3.v3 (cmpf .ogt),
    StableHlo.TRef.nullary main_call3.cst_1 (constant S_ .f32 0x00000000#32),
    StableHlo.TRef.unary main_call3.cst_1 main_call3.call0.v0 id,
    StableHlo.TRef.unary main_call3.call0.v0 main_call3.call0.v1 (broadcastInDim S50000x128 ![] bcast_S_S50000x128),
    StableHlo.TRef.ternary main_call3.v3 main_call3.call0.v1 (.of main_v79 : StableHlo.TRef sig ⟨S50000x128, .f32⟩) main_call3.call0.v2 select,
    StableHlo.TRef.unary main_call3.call0.v2 main_call3.v5 Host.expm1,
    StableHlo.TRef.nullary main_call3.cst_2 (constant S_ .f32 0x3F800000#32),
    StableHlo.TRef.unary main_call3.cst_2 main_call3.v6 (broadcastInDim S50000x128 ![] bcast_S_S50000x128),
    StableHlo.TRef.binary main_call3.v6 main_call3.v5 main_call3.v7 mulf,
    StableHlo.TRef.ternary main_call3.v1 (.of main_v79 : StableHlo.TRef sig ⟨S50000x128, .f32⟩) main_call3.v7 main_call3.call1.v0 select ]

set_option maxRecDepth 8192 in
set_option maxHeartbeats 4000000 in
/-- @main is that straight line: the two windows and the functions' definitions unfolded at their calls, both sides are one chain
    of steps once sequencing is reassociated. -/
theorem main_eq (c : Dev nD) : main (F := F) c = seq ops := by
  simp only [main, main_part0, main_part1, fn_leaky_relu.body, fn_leaky_relu_0.body, fn_leaky_relu_2.body, fn_elu.body, fn_where.body, fn_where_1.body, fn_where_3.body, fn_where_4.body, fn_where_5.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., binary_bufs_sub .., binary_bufs_sub .., nullary_bufs_sub .., nullary_bufs_sub .., unary_bufs_sub ..,
    binary_bufs_sub .., unary_bufs_sub .., unary_bufs_sub .., binary_bufs_sub .., ternary_bufs_sub .., nullary_bufs_sub ..,
    unary_bufs_sub .., binary_bufs_sub .., nullary_bufs_sub .., unary_bufs_sub .., binary_bufs_sub .., ternary_bufs_sub ..,
    unary_bufs_sub .., binary_bufs_sub .., binary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., binary_bufs_sub .., nullary_bufs_sub .., nullary_bufs_sub .., unary_bufs_sub ..,
    binary_bufs_sub .., unary_bufs_sub .., unary_bufs_sub .., binary_bufs_sub .., ternary_bufs_sub .., nullary_bufs_sub ..,
    unary_bufs_sub .., binary_bufs_sub .., nullary_bufs_sub .., unary_bufs_sub .., binary_bufs_sub .., ternary_bufs_sub ..,
    unary_bufs_sub .., binary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., binary_bufs_sub .., nullary_bufs_sub .., nullary_bufs_sub .., unary_bufs_sub .., binary_bufs_sub ..,
    unary_bufs_sub .., unary_bufs_sub .., binary_bufs_sub .., ternary_bufs_sub .., nary_bufs_sub .., nullary_bufs_sub ..,
    binary_bufs_sub .., nullary_bufs_sub .., unary_bufs_sub .., binary_bufs_sub .., unary_bufs_sub .., unary_bufs_sub ..,
    binary_bufs_sub .., unary_bufs_sub .., nullary_bufs_sub .., binary_bufs_sub .., unary_bufs_sub .., unary_bufs_sub ..,
    binary_bufs_sub .., unary_bufs_sub .., unary_bufs_sub .., unary_bufs_sub .., nullary_bufs_sub .., unary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., ternary_bufs_sub .., nullary_bufs_sub ..,
    unary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., ternary_bufs_sub ..,
    unary_bufs_sub .., binary_bufs_sub .., binary_bufs_sub .., binary_bufs_sub .., nullary_bufs_sub .., unary_bufs_sub ..,
    binary_bufs_sub .., nullary_bufs_sub .., unary_bufs_sub .., binary_bufs_sub .., nullary_bufs_sub .., unary_bufs_sub ..,
    unary_bufs_sub .., ternary_bufs_sub .., unary_bufs_sub .., nullary_bufs_sub .., unary_bufs_sub .., binary_bufs_sub ..,
    ternary_bufs_sub ..⟩

/-- From any memory with zero counters, every weakly fair execution of @main terminates, and every buffer of every device ends
    at the fold of the operations' results over the launch contents. -/
theorem run_all (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

/-! No operation of the line writes an argument array: each keeps its launch contents. -/
theorem after_arg0 (V : Valuation τ sig (Elt F)) :
    after ops V (Proc.devRef .tc main_arg0) = V (Proc.devRef .tc main_arg0) := by after_results_simp
theorem after_arg1 (V : Valuation τ sig (Elt F)) :
    after ops V (Proc.devRef .tc main_arg1) = V (Proc.devRef .tc main_arg1) := by after_results_simp
theorem after_arg2 (V : Valuation τ sig (Elt F)) :
    after ops V (Proc.devRef .tc main_arg2) = V (Proc.devRef .tc main_arg2) := by after_results_simp
theorem after_arg3 (V : Valuation τ sig (Elt F)) :
    after ops V (Proc.devRef .tc main_arg3) = V (Proc.devRef .tc main_arg3) := by after_results_simp
theorem after_arg4 (V : Valuation τ sig (Elt F)) :
    after ops V (Proc.devRef .tc main_arg4) = V (Proc.devRef .tc main_arg4) := by after_results_simp
theorem after_arg5 (V : Valuation τ sig (Elt F)) :
    after ops V (Proc.devRef .tc main_arg5) = V (Proc.devRef .tc main_arg5) := by after_results_simp
theorem after_arg6 (V : Valuation τ sig (Elt F)) :
    after ops V (Proc.devRef .tc main_arg6) = V (Proc.devRef .tc main_arg6) := by after_results_simp
theorem after_arg7 (V : Valuation τ sig (Elt F)) :
    after ops V (Proc.devRef .tc main_arg7) = V (Proc.devRef .tc main_arg7) := by after_results_simp
theorem after_arg8 (V : Valuation τ sig (Elt F)) :
    after ops V (Proc.devRef .tc main_arg8) = V (Proc.devRef .tc main_arg8) := by after_results_simp
theorem after_arg9 (V : Valuation τ sig (Elt F)) :
    after ops V (Proc.devRef .tc main_arg9) = V (Proc.devRef .tc main_arg9) := by after_results_simp
theorem after_arg10 (V : Valuation τ sig (Elt F)) :
    after ops V (Proc.devRef .tc main_arg10) = V (Proc.devRef .tc main_arg10) := by after_results_simp
theorem after_arg11 (V : Valuation τ sig (Elt F)) :
    after ops V (Proc.devRef .tc main_arg11) = V (Proc.devRef .tc main_arg11) := by after_results_simp
theorem after_arg12 (V : Valuation τ sig (Elt F)) :
    after ops V (Proc.devRef .tc main_arg12) = V (Proc.devRef .tc main_arg12) := by after_results_simp

/-- The run with the result left as the fold at its buffer, and the thirteen argument arrays unchanged. -/
theorem run_after (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v80) = after ops (launchContents m c) (Proc.devRef .tc main_v80)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨h c main_v80,
      (h c main_arg0).trans (after_arg0 _),
      (h c main_arg1).trans (after_arg1 _),
      (h c main_arg2).trans (after_arg2 _),
      (h c main_arg3).trans (after_arg3 _),
      (h c main_arg4).trans (after_arg4 _),
      (h c main_arg5).trans (after_arg5 _),
      (h c main_arg6).trans (after_arg6 _),
      (h c main_arg7).trans (after_arg7 _),
      (h c main_arg8).trans (after_arg8 _),
      (h c main_arg9).trans (after_arg9 _),
      (h c main_arg10).trans (after_arg10 _),
      (h c main_arg11).trans (after_arg11 _),
      (h c main_arg12).trans (after_arg12 _)⟩)
    (run_all m ρ)

/-- The reference runs, faults nowhere, and leaves its argument arrays unchanged. -/
theorem frame : Cert.frame_ReferenceIdeal := fun m ρ _ =>
  (θ_run (defs (F := Ideal)) _ _).mono (fun _ h c => (h c).2) (run_after (F := Ideal) m ρ)

end Cert.ReferenceIdeal.RefRun

end
-- ==== Proof.RefValueDefs.lean ====
/-
  What the reference computes, as pure functions at the ideal instance (floats extended reals): one definition per stage of the
  program — a value read more than once, or the head of a block —, each over explicit arrays, and `value`, their composition in
  program order over the thirteen argument arrays. The wrapping of row numbers and the leaky relu are definitions of their own.
-/
import proofs.«139946_j74208444940406_2_alg».proof.ReferenceIdeal
import Idealize.ShloMosaic.PureOps.Ideal

noncomputable section

namespace Cert.ReferenceIdeal.RefRun

open Cert.ReferenceIdeal Idealize.ShloMosaic

variable [Facts]
open Facts₀ Facts

/-- A column of row numbers out of `i`: a negative entry wrapped once by `n` (the array's row count), then each entry its own row. -/
def wrap8 (n : BitVec 32) (i : IVec S800000 32) : IVec S800000x1 32 :=
  broadcastInDim S800000x1 ![0] bcast_S800000_S800000x1_0 (select (cmpi .slt i (broadcastInDim S800000 ![] bcast_S_S800000 (constantI S_ 32 0#32))) (addi i (broadcastInDim S800000 ![] bcast_S_S800000 (constantI S_ 32 n))) i)

/-- The same for the 400000 same-type edges. -/
def wrap4 (n : BitVec 32) (i : IVec S400000 32) : IVec S400000x1 32 :=
  broadcastInDim S400000x1 ![0] bcast_S400000_S400000x1_0 (select (cmpi .slt i (broadcastInDim S400000 ![] bcast_S_S400000 (constantI S_ 32 0#32))) (addi i (broadcastInDim S400000 ![] bcast_S_S400000 (constantI S_ 32 n))) i)

/-- Leaky relu at slope 0.2 on a tensor of any shape: `x` where `x ≥ 0`, else `0.2 * x`. -/
def lrelu {s : Shape} (h : S_.BroadcastsInDim s (![] : Fin 0 → Fin s.rank)) (x : FVec Ideal s .f32) : FVec Ideal s .f32 :=
  select (cmpf .oge x (broadcastInDim s ![] h (constant (F := Ideal) S_ .f32 0x00000000#32))) x (mulf (broadcastInDim s ![] h (constant (F := Ideal) S_ .f32 0x3E4CCCCD#32)) x)

/-- `resources @ W_self`. -/
def selfRes (a0 : FVec Ideal S50000x128 .f32) (a7 : FVec Ideal S128x128 .f32) : FVec Ideal S50000x128 .f32 :=
  Host.dotGeneral (F := Ideal) dot_S50000x128_S128x128_S50000x128_1_0_0_1_n_n none a0 a7

/-- The per-node score: `[self_res, self_res] @ a_self`. -/
def selfScore (vSelfRes : FVec Ideal S50000x128 .f32) (a10 : FVec Ideal S256x1 .f32) : FVec Ideal S50000x1 .f32 :=
  Host.dotGeneral (F := Ideal) dot_S50000x256_S256x1_S50000x1_1_0_0_1_n_n none (concatenate S50000x256 1 [⟨S50000x128, vSelfRes⟩, ⟨S50000x128, vSelfRes⟩] concatenates_S50000x128_S50000x128_S50000x256_d1) a10

/-- Leaky relu of the per-node score. -/
def selfAtt (vSelfRes : FVec Ideal S50000x128 .f32) (a10 : FVec Ideal S256x1 .f32) : FVec Ideal S50000x1 .f32 :=
  lrelu bcast_S_S50000x1 (selfScore vSelfRes a10)

/-- `operations[need_src]`, the row numbers `i` already wrapped. -/
def opFeat (a1 : FVec Ideal S100000x96 .f32) (i : IVec S800000x1 32) : FVec Ideal S800000x96 .f32 :=
  Host.gather gather_S100000x96_S800000x1_S800000x96_1_0_n_n_0_1_196 a1 i

/-- `[operations[need_src], need_edge_attr] @ W_op`. -/
def opsEdge (vOpFeat : FVec Ideal S800000x96 .f32) (a2 : FVec Ideal S800000x32 .f32) (a9 : FVec Ideal S128x128 .f32) : FVec Ideal S800000x128 .f32 :=
  Host.dotGeneral (F := Ideal) dot_S800000x128_S128x128_S800000x128_1_0_0_1_n_n none (concatenate S800000x128 1 [⟨S800000x96, vOpFeat⟩, ⟨S800000x32, a2⟩] concatenates_S800000x96_S800000x32_S800000x128_d1) a9

/-- `self_res[need_dst]`, the row numbers `i` already wrapped. -/
def resEdge (vSelfRes : FVec Ideal S50000x128 .f32) (i : IVec S800000x1 32) : FVec Ideal S800000x128 .f32 :=
  Host.gather gather_S50000x128_S800000x1_S800000x128_1_0_n_n_0_1_1128 vSelfRes i

/-- The per-need-edge score: `[res_edge, ops_edge] @ a_op`. -/
def opScore (vResEdge : FVec Ideal S800000x128 .f32) (vOpsEdge : FVec Ideal S800000x128 .f32) (a11 : FVec Ideal S256x1 .f32) : FVec Ideal S800000x1 .f32 :=
  Host.dotGeneral (F := Ideal) dot_S800000x256_S256x1_S800000x1_1_0_0_1_n_n none (concatenate S800000x256 1 [⟨S800000x128, vResEdge⟩, ⟨S800000x128, vOpsEdge⟩] concatenates_S800000x128_S800000x128_S800000x256_d1) a11

/-- Leaky relu of the per-need-edge score. -/
def opAtt (vResEdge : FVec Ideal S800000x128 .f32) (vOpsEdge : FVec Ideal S800000x128 .f32) (a11 : FVec Ideal S256x1 .f32) : FVec Ideal S800000x1 .f32 :=
  lrelu bcast_S_S800000x1 (opScore vResEdge vOpsEdge a11)

/-- `resources[same_src] @ W_res`, the row numbers `i` already wrapped. -/
def res1 (a0 : FVec Ideal S50000x128 .f32) (i : IVec S400000x1 32) (a8 : FVec Ideal S128x128 .f32) : FVec Ideal S400000x128 .f32 :=
  Host.dotGeneral (F := Ideal) dot_S400000x128_S128x128_S400000x128_1_0_0_1_n_n none (Host.gather gather_S50000x128_S400000x1_S400000x128_1_0_n_n_0_1_1128 a0 i) a8

/-- `self_res[same_dst]`, the row numbers `i` already wrapped. -/
def res2 (vSelfRes : FVec Ideal S50000x128 .f32) (i : IVec S400000x1 32) : FVec Ideal S400000x128 .f32 :=
  Host.gather gather_S50000x128_S400000x1_S400000x128_1_0_n_n_0_1_1128 vSelfRes i

/-- The per-same-edge score: `[res2, res1] @ a_res`. -/
def resScore (vRes2 : FVec Ideal S400000x128 .f32) (vRes1 : FVec Ideal S400000x128 .f32) (a12 : FVec Ideal S256x1 .f32) : FVec Ideal S400000x1 .f32 :=
  Host.dotGeneral (F := Ideal) dot_S400000x256_S256x1_S400000x1_1_0_0_1_n_n none (concatenate S400000x256 1 [⟨S400000x128, vRes2⟩, ⟨S400000x128, vRes1⟩] concatenates_S400000x128_S400000x128_S400000x256_d1) a12

/-- Leaky relu of the per-same-edge score. -/
def resAtt (vRes2 : FVec Ideal S400000x128 .f32) (vRes1 : FVec Ideal S400000x128 .f32) (a12 : FVec Ideal S256x1 .f32) : FVec Ideal S400000x1 .f32 :=
  lrelu bcast_S_S400000x1 (resScore vRes2 vRes1 a12)

/-- All logits in one column: nodes, then need edges, then same edges. -/
def logits (vSelfAtt : FVec Ideal S50000x1 .f32) (vOpAtt : FVec Ideal S800000x1 .f32) (vResAtt : FVec Ideal S400000x1 .f32) : FVec Ideal S1250000x1 .f32 :=
  concatenate S1250000x1 0 [⟨S50000x1, vSelfAtt⟩, ⟨S800000x1, vOpAtt⟩, ⟨S400000x1, vResAtt⟩] concatenates_S50000x1_S800000x1_S400000x1_S1250000x1_d0

/-- The maximum of all logits (and of negative infinity). -/
def mx (vLogits : FVec Ideal S1250000x1 .f32) : FVec Ideal S1 .f32 :=
  maximumf (broadcastInDim S1 ![] bcast_S_S1 (constant (F := Ideal) S_ .f32 0xFF800000#32)) (Host.reduce FloatOps.maximumf vLogits (constant (F := Ideal) S_ .f32 0xFF800000#32) reducesTo_S1250000x1_S1_d0 h_S_)

/-- `exp (logits - max)`. -/
def ex (vLogits : FVec Ideal S1250000x1 .f32) (vMx : FVec Ideal S1 .f32) : FVec Ideal S1250000x1 .f32 :=
  Host.exp (F := Ideal) (subf vLogits (broadcastInDim S1250000x1 ![0, 1] bcast_S1x1_S1250000x1_0_1 (broadcastInDim S1x1 ![1] bcast_S1_S1x1_1 vMx)))

/-- The sum of all the exponentials. -/
def den (vEx : FVec Ideal S1250000x1 .f32) : FVec Ideal S1 .f32 :=
  Host.reduceAdd (F := Ideal) vEx (constant (F := Ideal) S_ .f32 0x00000000#32) reducesTo_S1250000x1_S1_d0 h_S_

/-- The softmax over all logits jointly: each exponential over their sum. -/
def norm (vEx : FVec Ideal S1250000x1 .f32) (vDen : FVec Ideal S1 .f32) : FVec Ideal S1250000x1 .f32 :=
  Host.divf (F := Ideal) vEx (broadcastInDim S1250000x1 ![0, 1] bcast_S1x1_S1250000x1_0_1 (broadcastInDim S1x1 ![1] bcast_S1_S1x1_1 vDen))

/-- The need edges' weighted features summed into their destination nodes: rows 50000 … 849999 of the softmax times `ops_edge`, scatter-added at the wrapped `need_dst` rows `i` into zeros. -/
def sumOps (i : IVec S800000x1 32) (vNorm : FVec Ideal S1250000x1 .f32) (vOpsEdge : FVec Ideal S800000x128 .f32) : FVec Ideal S50000x128 .f32 :=
  Host.scatterAdd (F := Ideal) scatter_S50000x128_S800000x1_S800000x128_1_0_0_1 (broadcastInDim S50000x128 ![] bcast_S_S50000x128 (constant (F := Ideal) S_ .f32 0x00000000#32)) i (mulf (broadcastInDim S800000x128 ![0, 1] bcast_S800000x1_S800000x128_0_1 (extractStridedSlice S800000x1 ![50000, 0] vNorm slices_S1250000x1_S800000x1_50000_0)) vOpsEdge)

/-- The same edges' weighted features summed into their destination nodes: rows 850000 … 1249999 of the softmax times `res1`, scatter-added at the wrapped `same_dst` rows `i` into zeros. -/
def sumRes (i : IVec S400000x1 32) (vNorm : FVec Ideal S1250000x1 .f32) (vRes1 : FVec Ideal S400000x128 .f32) : FVec Ideal S50000x128 .f32 :=
  Host.scatterAdd (F := Ideal) scatter_S50000x128_S400000x1_S400000x128_1_0_0_1 (broadcastInDim S50000x128 ![] bcast_S_S50000x128 (constant (F := Ideal) S_ .f32 0x00000000#32)) i (mulf (broadcastInDim S400000x128 ![0, 1] bcast_S400000x1_S400000x128_0_1 (extractStridedSlice S400000x1 ![850000, 0] vNorm slices_S1250000x1_S400000x1_850000_0)) vRes1)

/-- `norm_self * self_res + sum_ops + sum_res`: rows 0 … 49999 of the softmax weigh the node's own features. -/
def pre (vNorm : FVec Ideal S1250000x1 .f32) (vSelfRes : FVec Ideal S50000x128 .f32) (vSumOps : FVec Ideal S50000x128 .f32) (vSumRes : FVec Ideal S50000x128 .f32) : FVec Ideal S50000x128 .f32 :=
  addf (addf (mulf (broadcastInDim S50000x128 ![0, 1] bcast_S50000x1_S50000x128_0_1 (extractStridedSlice S50000x1 ![0, 0] vNorm slices_S1250000x1_S50000x1_0_0)) vSelfRes) vSumOps) vSumRes

/-- `elu`: `x` where `x > 0`, else `1 * expm1 (x where x ≤ 0, 0 where x > 0)`. -/
def elu (vPre : FVec Ideal S50000x128 .f32) : FVec Ideal S50000x128 .f32 :=
  select (cmpf .ogt vPre (broadcastInDim S50000x128 ![] bcast_S_S50000x128 (constant (F := Ideal) S_ .f32 0x00000000#32))) vPre (mulf (broadcastInDim S50000x128 ![] bcast_S_S50000x128 (constant (F := Ideal) S_ .f32 0x3F800000#32)) (Host.expm1 (F := Ideal) (select (cmpf .ogt vPre (broadcastInDim S50000x128 ![] bcast_S_S50000x128 (constant (F := Ideal) S_ .f32 0x00000000#32))) (broadcastInDim S50000x128 ![] bcast_S_S50000x128 (constant (F := Ideal) S_ .f32 0x00000000#32)) vPre)))

/-- All logits, of the argument arrays. -/
def logitsOf (a0 : FVec Ideal S50000x128 .f32) (a1 : FVec Ideal S100000x96 .f32) (a2 : FVec Ideal S800000x32 .f32) (a3 : IVec S800000 32) (a4 : IVec S800000 32) (a5 : IVec S400000 32) (a6 : IVec S400000 32) (a7 : FVec Ideal S128x128 .f32) (a8 : FVec Ideal S128x128 .f32) (a9 : FVec Ideal S128x128 .f32) (a10 : FVec Ideal S256x1 .f32) (a11 : FVec Ideal S256x1 .f32) (a12 : FVec Ideal S256x1 .f32) : FVec Ideal S1250000x1 .f32 :=
  logits (selfAtt (selfRes a0 a7) a10) (opAtt (resEdge (selfRes a0 a7) (wrap8 50000#32 a4)) (opsEdge (opFeat a1 (wrap8 100000#32 a3)) a2 a9) a11) (resAtt (res2 (selfRes a0 a7) (wrap4 50000#32 a6)) (res1 a0 (wrap4 50000#32 a5) a8) a12)

/-- The exponentials `exp (logits - max)`, of the argument arrays. -/
def exOf (a0 : FVec Ideal S50000x128 .f32) (a1 : FVec Ideal S100000x96 .f32) (a2 : FVec Ideal S800000x32 .f32) (a3 : IVec S800000 32) (a4 : IVec S800000 32) (a5 : IVec S400000 32) (a6 : IVec S400000 32) (a7 : FVec Ideal S128x128 .f32) (a8 : FVec Ideal S128x128 .f32) (a9 : FVec Ideal S128x128 .f32) (a10 : FVec Ideal S256x1 .f32) (a11 : FVec Ideal S256x1 .f32) (a12 : FVec Ideal S256x1 .f32) : FVec Ideal S1250000x1 .f32 :=
  ex (logitsOf a0 a1 a2 a3 a4 a5 a6 a7 a8 a9 a10 a11 a12) (mx (logitsOf a0 a1 a2 a3 a4 a5 a6 a7 a8 a9 a10 a11 a12))

/-- The joint softmax, of the argument arrays. -/
def normOf (a0 : FVec Ideal S50000x128 .f32) (a1 : FVec Ideal S100000x96 .f32) (a2 : FVec Ideal S800000x32 .f32) (a3 : IVec S800000 32) (a4 : IVec S800000 32) (a5 : IVec S400000 32) (a6 : IVec S400000 32) (a7 : FVec Ideal S128x128 .f32) (a8 : FVec Ideal S128x128 .f32) (a9 : FVec Ideal S128x128 .f32) (a10 : FVec Ideal S256x1 .f32) (a11 : FVec Ideal S256x1 .f32) (a12 : FVec Ideal S256x1 .f32) : FVec Ideal S1250000x1 .f32 :=
  norm (exOf a0 a1 a2 a3 a4 a5 a6 a7 a8 a9 a10 a11 a12) (den (exOf a0 a1 a2 a3 a4 a5 a6 a7 a8 a9 a10 a11 a12))

/-- The reference's result as a function of its thirteen argument arrays (resources, operations, need_edge_attr, need_src, need_dst,
    same_src, same_dst, W_self, W_res, W_op, a_self, a_op, a_res, in that order). -/
def value (a0 : FVec Ideal S50000x128 .f32) (a1 : FVec Ideal S100000x96 .f32) (a2 : FVec Ideal S800000x32 .f32) (a3 : IVec S800000 32) (a4 : IVec S800000 32) (a5 : IVec S400000 32) (a6 : IVec S400000 32) (a7 : FVec Ideal S128x128 .f32) (a8 : FVec Ideal S128x128 .f32) (a9 : FVec Ideal S128x128 .f32) (a10 : FVec Ideal S256x1 .f32) (a11 : FVec Ideal S256x1 .f32) (a12 : FVec Ideal S256x1 .f32) : FVec Ideal S50000x128 .f32 :=
  elu (pre (normOf a0 a1 a2 a3 a4 a5 a6 a7 a8 a9 a10 a11 a12) (selfRes a0 a7) (sumOps (wrap8 50000#32 a4) (normOf a0 a1 a2 a3 a4 a5 a6 a7 a8 a9 a10 a11 a12) (opsEdge (opFeat a1 (wrap8 100000#32 a3)) a2 a9)) (sumRes (wrap4 50000#32 a6) (normOf a0 a1 a2 a3 a4 a5 a6 a7 a8 a9 a10 a11 a12) (res1 a0 (wrap4 50000#32 a5) a8)))

end Cert.ReferenceIdeal.RefRun

end
-- ==== Proof.RefRunValue.lean ====
/-
  The reference's run read back at the ideal instance: the fold of its operations at the result buffer is `value` (the composition of
  the stage functions) of the argument arrays' launch contents — every operation's result rewritten at its own buffer to its function's
  value and at any other buffer to what was there, the stage functions unfolded against it —, and the run restated with it.
-/
import proofs.«139946_j74208444940406_2_alg».proof.Proof.RefRun
import proofs.«139946_j74208444940406_2_alg».proof.Proof.RefValueDefs
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- A two-operand concatenation with the operands as arguments of their own (the list form hides them under the shape fact). -/
def concat2 {α : Type} (t : Shape) (a : Fin t.rank) {s₁ s₂ : Shape} (x : s₁.Idx → α) (y : s₂.Idx → α)
    (h : Shape.Concatenates [s₁, s₂] t a) : t.Idx → α :=
  concatenate t a [⟨s₁, x⟩, ⟨s₂, y⟩] h

/-- A three-operand concatenation with the operands as arguments of their own. -/
def concat3 {α : Type} (t : Shape) (a : Fin t.rank) {s₁ s₂ s₃ : Shape} (x : s₁.Idx → α) (y : s₂.Idx → α) (z : s₃.Idx → α)
    (h : Shape.Concatenates [s₁, s₂, s₃] t a) : t.Idx → α :=
  concatenate t a [⟨s₁, x⟩, ⟨s₂, y⟩, ⟨s₃, z⟩] h

theorem concat2_fold {α : Type} (t : Shape) (a : Fin t.rank) {s₁ s₂ : Shape} (x : s₁.Idx → α) (y : s₂.Idx → α)
    (h : Shape.Concatenates [s₁, s₂] t a) : concatenate t a [⟨s₁, x⟩, ⟨s₂, y⟩] h = concat2 t a x y h := rfl

theorem concat3_fold {α : Type} (t : Shape) (a : Fin t.rank) {s₁ s₂ s₃ : Shape} (x : s₁.Idx → α) (y : s₂.Idx → α) (z : s₃.Idx → α)
    (h : Shape.Concatenates [s₁, s₂, s₃] t a) : concatenate t a [⟨s₁, x⟩, ⟨s₂, y⟩, ⟨s₃, z⟩] h = concat3 t a x y z h := rfl

/-- The three-operand concatenation's result with each operand's contents read at its own buffer. -/
theorem logits_result (W : Valuation τ sig (Elt F)) :
    (nary (τ := τ) ![main_v3, main_v22, main_v40] main_v41 (fun u => concatenate S1250000x1 0 [⟨S50000x1, u 0⟩, ⟨S800000x1, u 1⟩, ⟨S400000x1, u 2⟩] concatenates_S50000x1_S800000x1_S400000x1_S1250000x1_d0)).result W (no_index (Proc.devRef .tc main_v41))
      = concatenate S1250000x1 0 [⟨S50000x1, W (Proc.devRef .tc main_v3)⟩, ⟨S800000x1, W (Proc.devRef .tc main_v22)⟩, ⟨S400000x1, W (Proc.devRef .tc main_v40)⟩] concatenates_S50000x1_S800000x1_S400000x1_S1250000x1_d0 :=
  nary_result _ _ _ _ _ W

set_option maxRecDepth 65536 in
set_option maxHeartbeats 8000000 in
/-- The fold of the operations at the result buffer is `value` of the launch contents of the argument arrays. -/
theorem after_v80 (V : Valuation τ sig (Elt Ideal)) :
    after (ops (F := Ideal)) V (Proc.devRef .tc main_v80) = value (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  simp (disch := decide) only [after_cons, after_nil,
    nullary_result', unary_result', binary_result', ternary_result', logits_result,
    nullary_result_ne', unary_result_ne', binary_result_ne', ternary_result_ne', nary_result_ne',
    concat2_fold, concat3_fold, TRef.toBuf, TRef.ofBuf, cast_eq, id_eq,
    wrap8, wrap4, lrelu, selfRes, selfScore, selfAtt, opFeat, opsEdge, resEdge, opScore, opAtt, res1, res2, resScore, resAtt, logits, mx, ex, den, norm, sumOps, sumRes, pre, elu, logitsOf, exOf, normOf, value]

/-- At the ideal instance, from any memory with zero counters: every weakly fair execution of the reference terminates with its
    result at `value` of the argument arrays' launch contents, and the argument arrays unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v80) = value (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c).1.trans (after_v80 _), (h c).2⟩) (run_after (F := Ideal) m ρ)

end Cert.ReferenceIdeal.RefRun

end
-- ==== Proof.Region0Spec.lean ====
/-
  The node transform, as functions of whole tables of extended reals, index by index.

  A table with `n` rows and 128 columns times a 128 × 128 matrix is, at `(p, q)`, the sum over `k` of
  `X (p, k) · W (k, q)` (`rowsMul`). A row of such a table dotted with a one-row table is the sum over `d` of
  `Y (p, d) · r (0, d)` (`rowDot`). The four scores of a row are: the leaky rectifier of the row of `X · Ws`
  dotted with `r3`; that row dotted with `r4`; with `r5`; and the row of `X · Wr` dotted with `r6` (`scoreAt`,
  `scores`). The leaky rectifier keeps a value that is at least zero and multiplies any other by the slope, which
  stays the 32-bit pattern it is written as (`lrelu`).

  Every entry of these tables depends on ONE row of `X` only, so the tables of a block of rows are the blocks of
  the tables of all the rows (`rowsMul_rows`, `scores_rows`): what lets a row-blocked computation be read as one
  whole-table function.
-/
import Idealize.ShloMosaic.PureOps.Ideal
import Idealize.ShloMosaic.Lib.ValueIdx

noncomputable section

open scoped BigOperators

namespace Cert.KernelIdeal.Region0

open Idealize.ShloMosaic Idealize.ShloMosaic.ValueIdx

/-- A table of extended reals with `n` rows and `m` columns. -/
abbrev Tab (n m : Nat) : Type := (⟨2, ![n, m]⟩ : Shape).Idx → EReal

/-- Rows times a square matrix: entry `(p, q)` is `∑ k, X (p, k) · W (k, q)`. -/
def rowsMul {n : Nat} (X : Tab n 128) (W : Tab 128 128) : Tab n 128 :=
  fun i => ∑ k : Fin 128, X (ix2 (i 0) k) * W (ix2 k (i 1))

theorem rowsMul_apply {n : Nat} (X : Tab n 128) (W : Tab 128 128) (p : Fin n) (q : Fin 128) :
    rowsMul X W (ix2 p q) = ∑ k : Fin 128, X (ix2 p k) * W (ix2 k q) := rfl

/-- Row `p` of a table dotted with a one-row table: `∑ d, Y (p, d) · r (0, d)`. -/
def rowDot {n : Nat} (Y : Tab n 128) (r : Tab 1 128) (p : Fin n) : EReal :=
  ∑ d : Fin 128, Y (ix2 p d) * r (ix2 (0 : Fin 1) d)

/-- The leaky rectifier as the comparison and the choice it is computed by: `z` where `0 ≤ z` (the zero written
    as its 32-bit pattern), the slope times `z` elsewhere; the slope is the pattern `0x3E4CCCCD`, never evaluated. -/
def lrelu (z : EReal) : EReal :=
  Scalar.select (Ideal.cmp .oge z (Ideal.ofBits .f32 0x00000000#32)) z (Ideal.ofBits .f32 0x3E4CCCCD#32 * z)

/-- The same as an `if`: the zero pattern is the extended real `0`. -/
theorem lrelu_eq (z : EReal) : lrelu z = if 0 ≤ z then z else Ideal.ofBits .f32 0x3E4CCCCD#32 * z := by
  have h0 : Ideal.ofBits .f32 0x00000000#32 = 0 := by simp [Ideal.ofBits, Ideal.ieee]
  unfold lrelu Scalar.select Ideal.cmp
  rw [h0]
  by_cases h : (0 : EReal) ≤ z <;> simp [h]

/-- The four scores of row `p`. -/
def scoreAt {n : Nat} (X : Tab n 128) (Ws Wr : Tab 128 128) (r3 r4 r5 r6 : Tab 1 128) (p : Fin n) : Fin 4 → EReal
  | 0 => lrelu (rowDot (rowsMul X Ws) r3 p)
  | 1 => rowDot (rowsMul X Ws) r4 p
  | 2 => rowDot (rowsMul X Ws) r5 p
  | 3 => rowDot (rowsMul X Wr) r6 p

/-- The table of scores: row `p`, column `j` is score `j` of row `p`. -/
def scores {n : Nat} (X : Tab n 128) (Ws Wr : Tab 128 128) (r3 r4 r5 r6 : Tab 1 128) : Tab n 4 :=
  fun i => scoreAt X Ws Wr r3 r4 r5 r6 (i 0) (i 1)

theorem scores_apply {n : Nat} (X : Tab n 128) (Ws Wr : Tab 128 128) (r3 r4 r5 r6 : Tab 1 128) (p : Fin n) (j : Fin 4) :
    scores X Ws Wr r3 r4 r5 r6 (ix2 p j) = scoreAt X Ws Wr r3 r4 r5 r6 p j := rfl

/-! ## A block of rows -/

/-- The product of a block of rows is the block of the product: where `x` holds the rows `e p` of `X`. -/
theorem rowsMul_rows {n N : Nat} (X : Tab N 128) (W : Tab 128 128) (x : Tab n 128) (e : Fin n → Fin N)
    (h : ∀ p k, x (ix2 p k) = X (ix2 (e p) k)) (p : Fin n) (q : Fin 128) :
    rowsMul x W (ix2 p q) = rowsMul X W (ix2 (e p) q) := by
  rw [rowsMul_apply, rowsMul_apply]
  exact Finset.sum_congr rfl fun k _ => by rw [h p k]

theorem rowDot_rows {n N : Nat} (Y : Tab N 128) (r : Tab 1 128) (y : Tab n 128) (e : Fin n → Fin N)
    (h : ∀ p d, y (ix2 p d) = Y (ix2 (e p) d)) (p : Fin n) : rowDot y r p = rowDot Y r (e p) := by
  unfold rowDot
  exact Finset.sum_congr rfl fun d _ => by rw [h p d]

/-- The scores of a block of rows are the block of the scores. -/
theorem scores_rows {n N : Nat} (X : Tab N 128) (Ws Wr : Tab 128 128) (r3 r4 r5 r6 : Tab 1 128) (x : Tab n 128)
    (e : Fin n → Fin N) (h : ∀ p k, x (ix2 p k) = X (ix2 (e p) k)) (p : Fin n) (j : Fin 4) :
    scores x Ws Wr r3 r4 r5 r6 (ix2 p j) = scores X Ws Wr r3 r4 r5 r6 (ix2 (e p) j) := by
  rw [scores_apply, scores_apply]
  have hs : ∀ p d, rowsMul x Ws (ix2 p d) = rowsMul X Ws (ix2 (e p) d) := rowsMul_rows X Ws x e h
  have hr : ∀ p d, rowsMul x Wr (ix2 p d) = rowsMul X Wr (ix2 (e p) d) := rowsMul_rows X Wr x e h
  match j with
  | 0 => exact congrArg lrelu (rowDot_rows _ r3 _ e hs p)
  | 1 => exact rowDot_rows _ r4 _ e hs p
  | 2 => exact rowDot_rows _ r5 _ e hs p
  | 3 => exact rowDot_rows _ r6 _ e hr p

/-! ## The node transform's three result tables, over all 50000 rows -/

/-- The self projection: `X · Ws`. -/
def G0_7 (X : Tab 50000 128) (Ws : Tab 128 128) : Tab 50000 128 := rowsMul X Ws

/-- The neighbour projection: `X · Wr`. -/
def G0_8 (X : Tab 50000 128) (Wr : Tab 128 128) : Tab 50000 128 := rowsMul X Wr

/-- The four scores of every row. -/
def G0_9 (X : Tab 50000 128) (Ws Wr : Tab 128 128) (r3 r4 r5 r6 : Tab 1 128) : Tab 50000 4 :=
  scores X Ws Wr r3 r4 r5 r6

theorem G0_7_apply (X : Tab 50000 128) (Ws : Tab 128 128) (p : Fin 50000) (q : Fin 128) :
    G0_7 X Ws (ix2 p q) = ∑ k : Fin 128, X (ix2 p k) * Ws (ix2 k q) := rfl

theorem G0_8_apply (X : Tab 50000 128) (Wr : Tab 128 128) (p : Fin 50000) (q : Fin 128) :
    G0_8 X Wr (ix2 p q) = ∑ k : Fin 128, X (ix2 p k) * Wr (ix2 k q) := rfl

theorem G0_9_apply_0 (X : Tab 50000 128) (Ws Wr : Tab 128 128) (r3 r4 r5 r6 : Tab 1 128) (p : Fin 50000) :
    G0_9 X Ws Wr r3 r4 r5 r6 (ix2 p (0 : Fin 4)) = lrelu (∑ d : Fin 128, G0_7 X Ws (ix2 p d) * r3 (ix2 (0 : Fin 1) d)) := rfl

theorem G0_9_apply_1 (X : Tab 50000 128) (Ws Wr : Tab 128 128) (r3 r4 r5 r6 : Tab 1 128) (p : Fin 50000) :
    G0_9 X Ws Wr r3 r4 r5 r6 (ix2 p (1 : Fin 4)) = ∑ d : Fin 128, G0_7 X Ws (ix2 p d) * r4 (ix2 (0 : Fin 1) d) := rfl

theorem G0_9_apply_2 (X : Tab 50000 128) (Ws Wr : Tab 128 128) (r3 r4 r5 r6 : Tab 1 128) (p : Fin 50000) :
    G0_9 X Ws Wr r3 r4 r5 r6 (ix2 p (2 : Fin 4)) = ∑ d : Fin 128, G0_7 X Ws (ix2 p d) * r5 (ix2 (0 : Fin 1) d) := rfl

theorem G0_9_apply_3 (X : Tab 50000 128) (Ws Wr : Tab 128 128) (r3 r4 r5 r6 : Tab 1 128) (p : Fin 50000) :
    G0_9 X Ws Wr r3 r4 r5 r6 (ix2 p (3 : Fin 4)) = ∑ d : Fin 128, G0_8 X Wr (ix2 p d) * r6 (ix2 (0 : Fin 1) d) := rfl

end Cert.KernelIdeal.Region0

end
-- ==== Proof.Region0Ops.lean ====
/-
  The layout and reduction steps of a row-blocked body, read at an index given by its coordinates.

  • A vector of `n` entries recast as a column `[n, 1]` reads, at `(p, u)`, entry `p` (`shapeCast_a_a1_apply`).
  • The sum over the 128 lanes of an `[n, 128]` table, at row `p`, is `∑ k, src (p, k)` (`laneSum_apply`).
  • So the column of lane sums of a table multiplied entrywise by one row laid along every row is, at `(p, u)`,
    row `p` of the table dotted with that row (`rowSum_apply`).
  • The comparison with zero and the choice between a value and the slope times it, taken entrywise, is the
    leaky rectifier of each entry (`lrelu_apply`).
  • Four columns laid side by side read, at `(p, j)`, column `j` at `(p, 0)` (`concat4_apply`).
-/
import proofs.«139946_j74208444940406_2_alg».proof.Proof.Region0Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Region0

open Idealize.ShloMosaic Idealize.ShloMosaic.ValueIdx

/-- A vector of `n` entries recast as a column reads, at `(p, u)`, entry `p`: both positions are `p` in row-major order. -/
theorem shapeCast_a_a1_apply {α : Type} {n : ℕ} (x : (⟨1, ![n]⟩ : Shape).Idx → α)
    (h : (⟨1, ![n]⟩ : Shape).ShapeCasts ⟨2, ![n, 1]⟩) (p : Fin n) (u : Fin 1) :
    shapeCast ⟨2, ![n, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The sum over the lanes of an `[n, 128]` table at row `p`: the reduced index with lane `k` put back is `(p, k)`. -/
theorem laneSum_apply {n : ℕ} (src : FVec Ideal ⟨2, ![n, 128]⟩ .f32)
    (h : (⟨2, ![n, 128]⟩ : Shape).Reduces [1] ⟨1, ![n]⟩) (hφ : FKind.Formats .f32)
    (hacc : (0x00000000#32 : BitVec 32) = FKind.add.neutral .f32 hφ) (p : Fin n) :
    multiReduction .add [1] ⟨1, ![n]⟩ src 0x00000000#32 h hφ hacc (ix1 p) = ∑ k : Fin 128, src (ix2 p k) :=
  (Ideal.multiReduction_add_single src 0x00000000#32 h hφ hacc (ix1 p)).trans
    (Finset.sum_congr rfl fun k _ => congrArg src (funext fun a => Fin.ext (by
      match a with
      | ⟨0, _⟩ => rfl
      | ⟨1, _⟩ => rfl)))

/-- The column of lane sums of `Y` times one row `r` laid along every row: at `(p, u)`, row `p` of `Y` dotted with `r`. -/
theorem rowSum_apply {n : ℕ} (Y : FVec Ideal ⟨2, ![n, 128]⟩ .f32) (r : FVec Ideal ⟨2, ![1, 128]⟩ .f32)
    (hc1 : (⟨2, ![1, 128]⟩ : Shape).ShapeCasts ⟨2, ![1, 128]⟩)
    (hb : (⟨2, ![1, 128]⟩ : Shape).Broadcasts ⟨2, ![n, 128]⟩)
    (hr : (⟨2, ![n, 128]⟩ : Shape).Reduces [1] ⟨1, ![n]⟩) (hφ : FKind.Formats .f32)
    (hacc : (0x00000000#32 : BitVec 32) = FKind.add.neutral .f32 hφ)
    (hc2 : (⟨1, ![n]⟩ : Shape).ShapeCasts ⟨2, ![n, 1]⟩) (p : Fin n) (u : Fin 1) :
    shapeCast ⟨2, ![n, 1]⟩ (multiReduction .add [1] ⟨1, ![n]⟩
        (mulf Y (broadcastTo ⟨2, ![n, 128]⟩ (shapeCast ⟨2, ![1, 128]⟩ r hc1) hb)) 0x00000000#32 hr hφ hacc) hc2 (ix2 p u)
      = rowDot Y r p := by
  refine (shapeCast_a_a1_apply _ hc2 p u).trans ?_
  refine (laneSum_apply _ hr hφ hacc p).trans ?_
  unfold rowDot
  refine Finset.sum_congr rfl fun d _ => ?_
  rw [mulf_apply, broadcastTo_1b_ab_apply, shapeCast_self]

/-- The entrywise comparison with zero and choice between a value and the slope times it is the leaky rectifier. -/
theorem lrelu_apply {s : Shape} (z : FVec Ideal s .f32) (i : s.Idx) :
    select (cmpf .oge z (broadcast s (Scalar.ofBits (F := Ideal) .f32 0x00000000#32))) z
        (mulf (broadcast s (Scalar.ofBits (F := Ideal) .f32 0x3E4CCCCD#32)) z) i = lrelu (z i) := rfl

/-- Four columns side by side: piece `k` covers column `k` alone. -/
theorem concat4_apply {α : Type} {n : ℕ} (c0 c1 c2 c3 : (⟨2, ![n, 1]⟩ : Shape).Idx → α)
    (h : Shape.Concatenates [(⟨2, ![n, 1]⟩ : Shape), ⟨2, ![n, 1]⟩, ⟨2, ![n, 1]⟩, ⟨2, ![n, 1]⟩] ⟨2, ![n, 4]⟩ 1)
    (p : Fin n) (k : ℕ) (hk : k < 4) (ck : (⟨2, ![n, 1]⟩ : Shape).Idx → α)
    (hxk : ([⟨⟨2, ![n, 1]⟩, c0⟩, ⟨⟨2, ![n, 1]⟩, c1⟩, ⟨⟨2, ![n, 1]⟩, c2⟩, ⟨⟨2, ![n, 1]⟩, c3⟩] :
        List ((s : Shape) × (s.Idx → α)))[k] = ⟨⟨2, ![n, 1]⟩, ck⟩) :
    concatenate ⟨2, ![n, 4]⟩ 1 [⟨⟨2, ![n, 1]⟩, c0⟩, ⟨⟨2, ![n, 1]⟩, c1⟩, ⟨⟨2, ![n, 1]⟩, c2⟩, ⟨⟨2, ![n, 1]⟩, c3⟩] h
        (ix2 p (⟨k, hk⟩ : Fin 4)) = ck (ix2 p (0 : Fin 1)) := by
  refine concatenate_apply_piece (t := ⟨2, ![n, 4]⟩) (1 : Fin 2)
    [⟨⟨2, ![n, 1]⟩, c0⟩, ⟨⟨2, ![n, 1]⟩, c1⟩, ⟨⟨2, ![n, 1]⟩, c2⟩, ⟨⟨2, ![n, 1]⟩, c3⟩] h (ix2 p (⟨k, hk⟩ : Fin 4)) k hk
    ⟨2, ![n, 1]⟩ ck hxk rfl k ?_ (ix2 p (0 : Fin 1)) ?_ ?_
  · interval_cases k <;> rfl
  · intro b hb
    match b with
    | ⟨0, _⟩ => rfl
    | ⟨1, _⟩ => exact absurd rfl hb
  · show k + 0 = k
    rfl

end Cert.KernelIdeal.Region0

end
-- ==== Proof.Region0Pay.lean ====
/-
  The node body's arithmetic, read at the extended reals over a block of 5000 rows.

  The body computes, from a block `x0` of 5000 rows and the two 128 × 128 matrices `x1`, `x2`: the two products
  `x0 · x1` and `x0 · x2` (each a matrix product accumulated into zero: at the extended reals the plain sum over the
  contraction index, the changes of float format being the identity) and, from the four one-row tables `x3 … x6`,
  the four score columns — lane sums of a product times a row laid along every row, the first passed through the
  leaky rectifier — laid side by side. Read entry by entry these are `rowsMul` and `scores` of the block.
-/
import proofs.«139946_j74208444940406_2_alg».proof.Proof.Gen.KernelIdeal.Skeleton
import proofs.«139946_j74208444940406_2_alg».proof.Proof.Region0Ops

noncomputable section

open scoped BigOperators

namespace Cert.KernelIdeal.Region0

open Cert.KernelIdeal Cert.KernelIdeal.Gen Idealize.ShloMosaic Idealize.ShloMosaic.ValueIdx

/-! ## The matrix product's operand indices -/

/-- The product's dimension numbers: rows × contraction times contraction × columns. -/
abbrev nodeDot := dot_S5000x128_S128x128_S5000x128_1_0_0_1_n_n

theorem nodeDot_lhs0 (i : S5000x128.Idx) (q : nodeDot.contr.Idx) : (nodeDot.lhsIdx i q 0).val = (i 0).val := by
  unfold DotDims.lhsIdx
  rw [dif_neg (show ¬(0 : Fin S5000x128.rank) ∈ nodeDot.lhsBatch by decide),
    dif_pos (show (0 : Fin S5000x128.rank) ∈ nodeDot.lhsNonContracting by decide)]
  rfl

theorem nodeDot_lhs1 (i : S5000x128.Idx) (q : nodeDot.contr.Idx) : (nodeDot.lhsIdx i q 1).val = (q ⟨0, by decide⟩).val :=
  nodeDot.lhsIdx_val_of_single rfl i q

theorem nodeDot_rhs0 (i : S5000x128.Idx) (q : nodeDot.contr.Idx) : (nodeDot.rhsIdx i q 0).val = (q ⟨0, by decide⟩).val :=
  nodeDot.rhsIdx_val_of_single rfl i q

theorem nodeDot_rhs1 (i : S5000x128.Idx) (q : nodeDot.contr.Idx) : (nodeDot.rhsIdx i q 1).val = (i 1).val := by
  unfold DotDims.rhsIdx
  rw [dif_neg (show ¬(1 : Fin S128x128.rank) ∈ nodeDot.rhsBatch by decide),
    dif_pos (show (1 : Fin S128x128.rank) ∈ nodeDot.rhsNonContracting by decide)]
  rfl

/-! ## The two products -/

/-- The first product at `(p, q)`: the sum over the contraction index, re-indexed by its one coordinate. -/
theorem pay3_apply (x0 : Vec Ideal S5000x128 .f32) (x1 : Vec Ideal S128x128 .f32) (p : Fin 5000) (q : Fin 128) :
    k0_pay3 x0 x1 (ix2 p q) = ∑ k : Fin 128, x0 (ix2 p k) * x1 (ix2 k q) := by
  unfold k0_pay3 k0_pay2
  dsimp only
  simp only [matmul]
  rw [Ideal.matmul_constant_zero_apply, ← Equiv.sum_comp (contrEquiv1 nodeDot 128 rfl rfl).symm]
  refine Finset.sum_congr rfl fun k _ => ?_
  have hk := contrEquiv1_symm_val nodeDot 128 rfl rfl k
  have el : nodeDot.lhsIdx (ix2 p q) ((contrEquiv1 nodeDot 128 rfl rfl).symm k) = ix2 p k := funext fun a => Fin.ext (by
    match a with
    | ⟨0, _⟩ => exact nodeDot_lhs0 _ _
    | ⟨1, _⟩ => exact (nodeDot_lhs1 _ _).trans hk)
  have er : nodeDot.rhsIdx (ix2 p q) ((contrEquiv1 nodeDot 128 rfl rfl).symm k) = ix2 k q := funext fun a => Fin.ext (by
    match a with
    | ⟨0, _⟩ => exact (nodeDot_rhs0 _ _).trans hk
    | ⟨1, _⟩ => exact nodeDot_rhs1 _ _)
  rw [el, er]
  rfl

/-- The first product is `rowsMul` of the block. -/
theorem pay3_eq (x0 : Vec Ideal S5000x128 .f32) (x1 : Vec Ideal S128x128 .f32) : k0_pay3 x0 x1 = rowsMul x0 x1 := by
  funext j
  obtain ⟨p, q, rfl⟩ : ∃ (p : Fin 5000) (q : Fin 128), j = ix2 p q := ⟨j 0, j 1, eq_ix2 j⟩
  exact pay3_apply x0 x1 p q

/-- The second product is the same term at the second matrix. -/
theorem pay4_eq (x0 : Vec Ideal S5000x128 .f32) (x2 : Vec Ideal S128x128 .f32) : k0_pay4 x0 x2 = rowsMul x0 x2 :=
  (show k0_pay4 x0 x2 = k0_pay3 x0 x2 from rfl).trans (pay3_eq x0 x2)

/-! ## The score columns -/

/-- The first column: the leaky rectifier of each row of the first product dotted with `x3`. -/
theorem pay6_apply (x0 : Vec Ideal S5000x128 .f32) (x1 : Vec Ideal S128x128 .f32) (x3 : Vec Ideal S1x128 .f32)
    (p : Fin 5000) (u : Fin 1) : k0_pay6 x0 x1 x3 (ix2 p u) = lrelu (rowDot (k0_pay3 x0 x1) x3 p) := by
  unfold k0_pay6
  dsimp only
  refine (lrelu_apply _ _).trans (congrArg lrelu ?_)
  exact rowSum_apply (k0_pay3 x0 x1) x3 _ _ _ _ _ _ p u

/-- The second column: each row of the first product dotted with `x4`. -/
theorem pay7_apply (x0 : Vec Ideal S5000x128 .f32) (x1 : Vec Ideal S128x128 .f32) (x4 : Vec Ideal S1x128 .f32)
    (p : Fin 5000) (u : Fin 1) : k0_pay7 x0 x1 x4 (ix2 p u) = rowDot (k0_pay3 x0 x1) x4 p := by
  unfold k0_pay7
  dsimp only
  exact rowSum_apply (k0_pay3 x0 x1) x4 _ _ _ _ _ _ p u

/-- The four columns side by side are the block's scores. -/
theorem scores_body_apply (x0 : Vec Ideal S5000x128 .f32) (x1 x2 : Vec Ideal S128x128 .f32)
    (x3 x4 x5 x6 : Vec Ideal S1x128 .f32) (p : Fin 5000) (j : Fin 4) :
    k0_pay1 (k0_pay4 x0 x2) (k0_pay5 x6) (k0_pay6 x0 x1 x3) (k0_pay7 x0 x1 x4) (k0_pay8 x0 x1 x5) (ix2 p j)
      = scores x0 x1 x2 x3 x4 x5 x6 (ix2 p j) := by
  rw [scores_apply]
  unfold k0_pay1 k0_pay5 k0_pay8
  dsimp only
  match j with
  | ⟨0, h0⟩ =>
    refine (concat4_apply _ _ _ _ _ p 0 h0 _ rfl).trans ?_
    refine (pay6_apply x0 x1 x3 p 0).trans ?_
    rw [pay3_eq]
    rfl
  | ⟨1, h1⟩ =>
    refine (concat4_apply _ _ _ _ _ p 1 h1 _ rfl).trans ?_
    refine (pay7_apply x0 x1 x4 p 0).trans ?_
    rw [pay3_eq]
    rfl
  | ⟨2, h2⟩ =>
    refine (concat4_apply _ _ _ _ _ p 2 h2 _ rfl).trans ?_
    refine (rowSum_apply (k0_pay3 x0 x1) x5 _ _ _ _ _ _ p 0).trans ?_
    rw [pay3_eq]
    rfl
  | ⟨3, h3⟩ =>
    refine (concat4_apply _ _ _ _ _ p 3 h3 _ rfl).trans ?_
    refine (rowSum_apply (k0_pay4 x0 x2) x6 _ _ _ _ _ _ p 0).trans ?_
    rw [pay4_eq]
    rfl

/-- The stored score block is `scores` of the block. -/
theorem scores_body_eq (x0 : Vec Ideal S5000x128 .f32) (x1 x2 : Vec Ideal S128x128 .f32)
    (x3 x4 x5 x6 : Vec Ideal S1x128 .f32) :
    k0_pay1 (k0_pay4 x0 x2) (k0_pay5 x6) (k0_pay6 x0 x1 x3) (k0_pay7 x0 x1 x4) (k0_pay8 x0 x1 x5)
      = scores x0 x1 x2 x3 x4 x5 x6 := by
  funext i
  obtain ⟨p, j, rfl⟩ : ∃ (p : Fin 5000) (j : Fin 4), i = ix2 p j := ⟨i 0, i 1, eq_ix2 i⟩
  exact scores_body_apply x0 x1 x2 x3 x4 x5 x6 p j

end Cert.KernelIdeal.Region0

end
-- ==== Proof.Region0Blocks.lean ====
/-
  The node region's blocks, read off the tables the region finds.

  The grid has ten points. At point `t` the row-blocked windows (the input rows and the three outputs) sit at block
  index `(t, 0)` and every other window at `(0, 0)` (`idx_facts`, decided over the ten points). A block's element
  sits in its table at block index × block size + its own coordinate, so row `p` of the input block at point `t` is
  row `5000 t + p` of the input table (`rowOf`, `iblk0_0_apply`) and the six parameter windows hold their whole
  tables at every point (`iblk0_1_eq` … `iblk0_6_eq`). What the body leaves in each output window's buffer is its one
  whole-buffer store, whose value is `rowsMul` / `scores` of the input blocks (`out7_eq`, `out8_eq`, `out9_eq`).
-/
import proofs.«139946_j74208444940406_2_alg».proof.Proof.Gen.KernelIdeal.Frame
import proofs.«139946_j74208444940406_2_alg».proof.Proof.Region0Pay
import Idealize.ShloMosaic.Lib.Pipeline.Value
import Idealize.ShloMosaic.Lib.Tactic

noncomputable section

open scoped BigOperators
open Idealize.ShloMosaic Idealize.ShloMosaic.TcCoe Idealize.SL.Sem
open Idealize.ShloMosaic.Pipeline (Dat)

namespace Cert.KernelIdeal.Region0

open Cert.KernelIdeal Cert.KernelIdeal.Gen Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The index maps over the ten grid points: the rows' window and the three outputs move one block of rows per
    point; the matrices and the one-row tables stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

/-- Row `p` of point `t`'s block of rows is row `5000 t + p` of the table. -/
def rowOf (t : Fin cfg0.N) (p : Fin 5000) : Fin 50000 :=
  ⟨t.val * 5000 + p.val, by have h : t.val < 10 := lt_of_lt_of_eq t.isLt N_0; omega⟩

theorem rowOf_val (t : Fin cfg0.N) (p : Fin 5000) : (rowOf t p).val = t.val * 5000 + p.val := rfl

/-! ## The input blocks -/

/-- The rows' block at point `t`, entry `(p, k)`, is the table's entry `(5000 t + p, k)`. -/
theorem iblk0_0_apply (c : Dev nD) (t : Fin cfg0.N) (p : Fin 5000) (k : Fin 128) :
    (iblk0 V c 0 t : Vec Ideal S5000x128 .f32) (ix2 p k)
      = (V c (Pipeline.arrRef spec0 0) : Tab 50000 128) (ix2 (rowOf t p) k) := by
  obtain ⟨e0, e1, -⟩ := idx_facts t
  unfold iblk0
  rw [View.read_apply]
  show V c main_arg0 _ = V c main_arg0 _
  refine congrArg (V c main_arg0) (funext fun a => Fin.ext ?_)
  match a with
  | ⟨0, _⟩ => show win0_0.index t (0 : Fin 2) * 5000 + 1 * p.val = t.val * 5000 + p.val; rw [e0]; omega
  | ⟨1, _⟩ => show win0_0.index t (1 : Fin 2) * 128 + 1 * k.val = k.val; rw [e1]; omega

/-- Window 1's block at every point is its whole table: its index map is constantly `(0, 0)`. -/
theorem iblk0_1_eq (c : Dev nD) (t : Fin cfg0.N) :
    (iblk0 V c 1 t : Vec Ideal S128x128 .f32) = (V c (Pipeline.arrRef spec0 1) : Tab 128 128) := by
  obtain ⟨-, -, e0, e1, -⟩ := idx_facts t
  funext j
  unfold iblk0
  rw [View.read_apply]
  show V c main_arg7 _ = V c main_arg7 j
  refine congrArg (V c main_arg7) (funext fun a => Fin.ext ?_)
  match a with
  | ⟨0, _⟩ => show win0_1.index t (0 : Fin 2) * 128 + 1 * (j 0).val = (j 0).val; rw [e0]; omega
  | ⟨1, _⟩ => show win0_1.index t (1 : Fin 2) * 128 + 1 * (j 1).val = (j 1).val; rw [e1]; omega

/-- Window 2's block at every point is its whole table: its index map is constantly `(0, 0)`. -/
theorem iblk0_2_eq (c : Dev nD) (t : Fin cfg0.N) :
    (iblk0 V c 2 t : Vec Ideal S128x128 .f32) = (V c (Pipeline.arrRef spec0 2) : Tab 128 128) := by
  obtain ⟨-, -, -, -, e0, e1, -⟩ := idx_facts t
  funext j
  unfold iblk0
  rw [View.read_apply]
  show V c main_arg8 _ = V c main_arg8 j
  refine congrArg (V c main_arg8) (funext fun a => Fin.ext ?_)
  match a with
  | ⟨0, _⟩ => show win0_2.index t (0 : Fin 2) * 128 + 1 * (j 0).val = (j 0).val; rw [e0]; omega
  | ⟨1, _⟩ => show win0_2.index t (1 : Fin 2) * 128 + 1 * (j 1).val = (j 1).val; rw [e1]; omega

/-- Window 3's block at every point is its whole table: its index map is constantly `(0, 0)`. -/
theorem iblk0_3_eq (c : Dev nD) (t : Fin cfg0.N) :
    (iblk0 V c 3 t : Vec Ideal S1x128 .f32) = (V c (Pipeline.arrRef spec0 3) : Tab 1 128) := by
  obtain ⟨-, -, -, -, -, -, e0, e1, -⟩ := idx_facts t
  funext j
  unfold iblk0
  rw [View.read_apply]
  show V c main_v3 _ = V c main_v3 j
  refine congrArg (V c main_v3) (funext fun a => Fin.ext ?_)
  match a with
  | ⟨0, _⟩ => show win0_3.index t (0 : Fin 2) * 1 + 1 * (j 0).val = (j 0).val; rw [e0]; omega
  | ⟨1, _⟩ => show win0_3.index t (1 : Fin 2) * 128 + 1 * (j 1).val = (j 1).val; rw [e1]; omega

/-- Window 4's block at every point is its whole table: its index map is constantly `(0, 0)`. -/
theorem iblk0_4_eq (c : Dev nD) (t : Fin cfg0.N) :
    (iblk0 V c 4 t : Vec Ideal S1x128 .f32) = (V c (Pipeline.arrRef spec0 4) : Tab 1 128) := by
  obtain ⟨-, -, -, -, -, -, -, -, e0, e1, -⟩ := idx_facts t
  funext j
  unfold iblk0
  rw [View.read_apply]
  show V c main_v5 _ = V c main_v5 j
  refine congrArg (V c main_v5) (funext fun a => Fin.ext ?_)
  match a with
  | ⟨0, _⟩ => show win0_4.index t (0 : Fin 2) * 1 + 1 * (j 0).val = (j 0).val; rw [e0]; omega
  | ⟨1, _⟩ => show win0_4.index t (1 : Fin 2) * 128 + 1 * (j 1).val = (j 1).val; rw [e1]; omega

/-- Window 5's block at every point is its whole table: its index map is constantly `(0, 0)`. -/
theorem iblk0_5_eq (c : Dev nD) (t : Fin cfg0.N) :
    (iblk0 V c 5 t : Vec Ideal S1x128 .f32) = (V c (Pipeline.arrRef spec0 5) : Tab 1 128) := by
  obtain ⟨-, -, -, -, -, -, -, -, -, -, e0, e1, -⟩ := idx_facts t
  funext j
  unfold iblk0
  rw [View.read_apply]
  show V c main_v9 _ = V c main_v9 j
  refine congrArg (V c main_v9) (funext fun a => Fin.ext ?_)
  match a with
  | ⟨0, _⟩ => show win0_5.index t (0 : Fin 2) * 1 + 1 * (j 0).val = (j 0).val; rw [e0]; omega
  | ⟨1, _⟩ => show win0_5.index t (1 : Fin 2) * 128 + 1 * (j 1).val = (j 1).val; rw [e1]; omega

/-- Window 6's block at every point is its whole table: its index map is constantly `(0, 0)`. -/
theorem iblk0_6_eq (c : Dev nD) (t : Fin cfg0.N) :
    (iblk0 V c 6 t : Vec Ideal S1x128 .f32) = (V c (Pipeline.arrRef spec0 6) : Tab 1 128) := by
  obtain ⟨-, -, -, -, -, -, -, -, -, -, -, -, e0, e1, -⟩ := idx_facts t
  funext j
  unfold iblk0
  rw [View.read_apply]
  show V c main_v11 _ = V c main_v11 j
  refine congrArg (V c main_v11) (funext fun a => Fin.ext ?_)
  match a with
  | ⟨0, _⟩ => show win0_6.index t (0 : Fin 2) * 1 + 1 * (j 0).val = (j 0).val; rw [e0]; omega
  | ⟨1, _⟩ => show win0_6.index t (1 : Fin 2) * 128 + 1 * (j 1).val = (j 1).val; rw [e1]; omega

/-! ## What the body leaves in the output windows' buffers -/

/-- The first output's buffer after the body: the block's rows times the first matrix. -/
theorem out7_eq (x0 : Vec Ideal S5000x128 .f32) (x1 x2 : Vec Ideal S128x128 .f32) (x3 x4 x5 x6 : Vec Ideal S1x128 .f32) :
    out0_7 x0 x1 x2 x3 x4 x5 x6 = rowsMul x0 x1 := by
  unfold out0_7
  rw [View.canon_unit_zero hz]
  simp only [View.ld_unit_zero (S := S5000x128) hz, View.ld_unit_zero (S := S128x128) hz]
  exact pay3_eq x0 x1

/-- The second output's buffer after the body: the block's rows times the second matrix. -/
theorem out8_eq (x0 : Vec Ideal S5000x128 .f32) (x1 x2 : Vec Ideal S128x128 .f32) (x3 x4 x5 x6 : Vec Ideal S1x128 .f32) :
    out0_8 x0 x1 x2 x3 x4 x5 x6 = rowsMul x0 x2 := by
  unfold out0_8
  rw [View.canon_unit_zero hz]
  simp only [View.ld_unit_zero (S := S5000x128) hz, View.ld_unit_zero (S := S128x128) hz]
  exact pay4_eq x0 x2

/-- The third output's buffer after the body: the block's scores. -/
theorem out9_eq (x0 : Vec Ideal S5000x128 .f32) (x1 x2 : Vec Ideal S128x128 .f32) (x3 x4 x5 x6 : Vec Ideal S1x128 .f32) :
    out0_9 x0 x1 x2 x3 x4 x5 x6 = scores x0 x1 x2 x3 x4 x5 x6 := by
  unfold out0_9
  rw [View.canon_unit_zero hz]
  simp only [View.ld_unit_zero (S := S5000x128) hz, View.ld_unit_zero (S := S128x128) hz, View.ld_unit_zero (S := S1x128) hz]
  exact scores_body_eq x0 x1 x2 x3 x4 x5 x6

end Cert.KernelIdeal.Region0

end
-- ==== Proof.Region0Final.lean ====
/-
  The node region's three result tables, as whole-table functions of the tables the region finds.

  Each output window writes back, at grid point `t`, the block of 5000 rows the body left in its buffer. That block
  is `rowsMul` (or `scores`) of the input rows' block at `t` and the whole parameter tables; since every entry of
  those functions depends on one row of the input only, it is block `t` of the same function of the whole input
  table (`flushed7_eq`, `flushed8_eq`, `flushed9_eq`). The ten blocks cover the 50000 rows — row `r` lies in the
  block of point `r / 5000` (`cover7` …) — so the table after the region is that function (`final0_7`, `final0_8`,
  `final0_9`).
-/
import proofs.«139946_j74208444940406_2_alg».proof.Proof.Region0Blocks

noncomputable section

open scoped BigOperators
open Idealize.ShloMosaic Idealize.ShloMosaic.TcCoe Idealize.SL.Sem
open Idealize.ShloMosaic.Pipeline (Dat)

namespace Cert.KernelIdeal.Region0

open Cert.KernelIdeal Cert.KernelIdeal.Gen Idealize.ShloMosaic.ValueIdx

variable (V : (c : Dev nD) → (b : Ref sig .tc) → Buf (Elt Ideal) ((c : Thread nD τ).loc b))

/-! ## Output window 7 -/

/-- Entry `(p, q)` of point `t`'s block of output window 7 is entry `(5000 t + p, q)` of its table. -/
theorem emb7 (t : Fin cfg0.N) (p : Fin 5000) (q : Fin 128) :
    ((cfg0.win 7).blk t).view.emb (ix2 p q) = (ix2 (rowOf t p) q : S50000x128.Idx) := by
  obtain ⟨-, -, -, -, -, -, -, -, -, -, -, -, -, -, e0, e1, -⟩ := idx_facts t
  refine funext fun a => Fin.ext ?_
  match a with
  | ⟨0, _⟩ => show win0_7.index t (0 : Fin 2) * 5000 + 1 * p.val = t.val * 5000 + p.val; rw [e0]; omega
  | ⟨1, _⟩ => show win0_7.index t (1 : Fin 2) * 128 + 1 * q.val = q.val; rw [e1]; omega

/-- What point `t` writes back to output window 7's table is block `t` of `G0_7` of the tables the region finds. -/
theorem flushed7_eq (c : Dev nD) (t : Fin cfg0.N) :
    (dat0 V c).flushed 7 t = ((cfg0.win 7).blk t).view.read (Elt Ideal) (G0_7 (V c (Pipeline.arrRef spec0 0)) (V c (Pipeline.arrRef spec0 1))) := by
  show (cfg0.win 7).cut (grid0.coords t) ((dat0 V c).after 7 t) = _
  rw [after0_7, out7_eq (iblk0 V c 0 t) (iblk0 V c 1 t) (iblk0 V c 2 t) (iblk0 V c 3 t) (iblk0 V c 4 t) (iblk0 V c 5 t) (iblk0 V c 6 t)]
  funext j
  obtain ⟨p, q, rfl⟩ : ∃ (p : Fin 5000) (q : Fin 128), j = ix2 p q := ⟨j 0, j 1, eq_ix2 j⟩
  rw [View.read_apply, emb7]
  rw [iblk0_1_eq V c t]
  exact rowsMul_rows _ _ _ (rowOf t) (iblk0_0_apply V c t) p q

/-- An index of the table is in point `t`'s block iff each coordinate is in the block's range on its axis. -/
theorem mem_blk7 (t : Fin cfg0.N) (i : S50000x128.Idx) :
    i ∈ ((cfg0.win 7).blk t).view.set ↔ ∀ a : Fin 2, win0_7.index t a * S5000x128.size a ≤ (i a).val ∧ (i a).val < win0_7.index t a * S5000x128.size a + S5000x128.size a := by
  show i ∈ ((View.whole main_v14_0).slice (win0_7.rect t)).set ↔ _
  rw [View.set_slice_whole, Rect.mem_set_unit]
  exact Iff.rfl

/-- Every row of the table is in some point's block: row `r` in the block of point `r / 5000`. -/
theorem cover7 (i : S50000x128.Idx) :
    ∃ t : Fin cfg0.N, (cfg0.win 7).flush t = true ∧ i ∈ ((cfg0.win 7).blk t).view.set := by
  have h0 : (i 0).val < 50000 := (i 0).isLt
  have h1 : (i 1).val < 128 := (i 1).isLt
  have hN : grid0.N = 10 := N_0
  have ht : (i 0).val / 5000 < cfg0.N := by show (i 0).val / 5000 < grid0.N; omega
  obtain ⟨-, -, -, -, -, -, -, -, -, -, -, -, -, -, e0, e1, -⟩ := idx_facts ⟨(i 0).val / 5000, ht⟩
  refine ⟨⟨(i 0).val / 5000, ht⟩, flush0_7 _, ?_⟩
  rw [mem_blk7]
  intro a
  match a with
  | ⟨0, _⟩ =>
    show win0_7.index ⟨(i 0).val / 5000, ht⟩ (0 : Fin 2) * 5000 ≤ (i 0).val
      ∧ (i 0).val < win0_7.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win0_7.index ⟨(i 0).val / 5000, ht⟩ (1 : Fin 2) * 128 ≤ (i 1).val
      ∧ (i 1).val < win0_7.index ⟨(i 0).val / 5000, ht⟩ (1 : Fin 2) * 128 + 128
    rw [e1]
    omega

/-- THE TABLE after the region: `G0_7` of the tables the region finds. -/
theorem final0_7 (c : Dev nD) :
    (dat0 (F := Ideal) V c).arrAt 7 cfg0.N = G0_7 (V c (Pipeline.arrRef spec0 0)) (V c (Pipeline.arrRef spec0 1)) :=
  (dat0 V c).arrAt_eq_of_cover 7 (G0_7 (V c (Pipeline.arrRef spec0 0)) (V c (Pipeline.arrRef spec0 1))) (fun t _ => flushed7_eq V c t) cover7

/-! ## Output window 8 -/

/-- Entry `(p, q)` of point `t`'s block of output window 8 is entry `(5000 t + p, q)` of its table. -/
theorem emb8 (t : Fin cfg0.N) (p : Fin 5000) (q : Fin 128) :
    ((cfg0.win 8).blk t).view.emb (ix2 p q) = (ix2 (rowOf t p) q : S50000x128.Idx) := by
  obtain ⟨-, -, -, -, -, -, -, -, -, -, -, -, -, -, -, -, e0, e1, -⟩ := idx_facts t
  refine funext fun a => Fin.ext ?_
  match a with
  | ⟨0, _⟩ => show win0_8.index t (0 : Fin 2) * 5000 + 1 * p.val = t.val * 5000 + p.val; rw [e0]; omega
  | ⟨1, _⟩ => show win0_8.index t (1 : Fin 2) * 128 + 1 * q.val = q.val; rw [e1]; omega

/-- What point `t` writes back to output window 8's table is block `t` of `G0_8` of the tables the region finds. -/
theorem flushed8_eq (c : Dev nD) (t : Fin cfg0.N) :
    (dat0 V c).flushed 8 t = ((cfg0.win 8).blk t).view.read (Elt Ideal) (G0_8 (V c (Pipeline.arrRef spec0 0)) (V c (Pipeline.arrRef spec0 2))) := by
  show (cfg0.win 8).cut (grid0.coords t) ((dat0 V c).after 8 t) = _
  rw [after0_8, out8_eq (iblk0 V c 0 t) (iblk0 V c 1 t) (iblk0 V c 2 t) (iblk0 V c 3 t) (iblk0 V c 4 t) (iblk0 V c 5 t) (iblk0 V c 6 t)]
  funext j
  obtain ⟨p, q, rfl⟩ : ∃ (p : Fin 5000) (q : Fin 128), j = ix2 p q := ⟨j 0, j 1, eq_ix2 j⟩
  rw [View.read_apply, emb8]
  rw [iblk0_2_eq V c t]
  exact rowsMul_rows _ _ _ (rowOf t) (iblk0_0_apply V c t) p q

/-- An index of the table is in point `t`'s block iff each coordinate is in the block's range on its axis. -/
theorem mem_blk8 (t : Fin cfg0.N) (i : S50000x128.Idx) :
    i ∈ ((cfg0.win 8).blk t).view.set ↔ ∀ a : Fin 2, win0_8.index t a * S5000x128.size a ≤ (i a).val ∧ (i a).val < win0_8.index t a * S5000x128.size a + S5000x128.size a := by
  show i ∈ ((View.whole main_v14_1).slice (win0_8.rect t)).set ↔ _
  rw [View.set_slice_whole, Rect.mem_set_unit]
  exact Iff.rfl

/-- Every row of the table is in some point's block: row `r` in the block of point `r / 5000`. -/
theorem cover8 (i : S50000x128.Idx) :
    ∃ t : Fin cfg0.N, (cfg0.win 8).flush t = true ∧ i ∈ ((cfg0.win 8).blk t).view.set := by
  have h0 : (i 0).val < 50000 := (i 0).isLt
  have h1 : (i 1).val < 128 := (i 1).isLt
  have hN : grid0.N = 10 := N_0
  have ht : (i 0).val / 5000 < cfg0.N := by show (i 0).val / 5000 < grid0.N; omega
  obtain ⟨-, -, -, -, -, -, -, -, -, -, -, -, -, -, -, -, e0, e1, -⟩ := idx_facts ⟨(i 0).val / 5000, ht⟩
  refine ⟨⟨(i 0).val / 5000, ht⟩, flush0_8 _, ?_⟩
  rw [mem_blk8]
  intro a
  match a with
  | ⟨0, _⟩ =>
    show win0_8.index ⟨(i 0).val / 5000, ht⟩ (0 : Fin 2) * 5000 ≤ (i 0).val
      ∧ (i 0).val < win0_8.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win0_8.index ⟨(i 0).val / 5000, ht⟩ (1 : Fin 2) * 128 ≤ (i 1).val
      ∧ (i 1).val < win0_8.index ⟨(i 0).val / 5000, ht⟩ (1 : Fin 2) * 128 + 128
    rw [e1]
    omega

/-- THE TABLE after the region: `G0_8` of the tables the region finds. -/
theorem final0_8 (c : Dev nD) :
    (dat0 (F := Ideal) V c).arrAt 8 cfg0.N = G0_8 (V c (Pipeline.arrRef spec0 0)) (V c (Pipeline.arrRef spec0 2)) :=
  (dat0 V c).arrAt_eq_of_cover 8 (G0_8 (V c (Pipeline.arrRef spec0 0)) (V c (Pipeline.arrRef spec0 2))) (fun t _ => flushed8_eq V c t) cover8

/-! ## Output window 9 -/

/-- Entry `(p, q)` of point `t`'s block of output window 9 is entry `(5000 t + p, q)` of its table. -/
theorem emb9 (t : Fin cfg0.N) (p : Fin 5000) (q : Fin 4) :
    ((cfg0.win 9).blk t).view.emb (ix2 p q) = (ix2 (rowOf t p) q : S50000x4.Idx) := by
  obtain ⟨-, -, -, -, -, -, -, -, -, -, -, -, -, -, -, -, -, -, e0, e1⟩ := idx_facts t
  refine funext fun a => Fin.ext ?_
  match a with
  | ⟨0, _⟩ => show win0_9.index t (0 : Fin 2) * 5000 + 1 * p.val = t.val * 5000 + p.val; rw [e0]; omega
  | ⟨1, _⟩ => show win0_9.index t (1 : Fin 2) * 4 + 1 * q.val = q.val; rw [e1]; omega

/-- What point `t` writes back to output window 9's table is block `t` of `G0_9` of the tables the region finds. -/
theorem flushed9_eq (c : Dev nD) (t : Fin cfg0.N) :
    (dat0 V c).flushed 9 t = ((cfg0.win 9).blk t).view.read (Elt Ideal) (G0_9 (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6))) := by
  show (cfg0.win 9).cut (grid0.coords t) ((dat0 V c).after 9 t) = _
  rw [after0_9, out9_eq (iblk0 V c 0 t) (iblk0 V c 1 t) (iblk0 V c 2 t) (iblk0 V c 3 t) (iblk0 V c 4 t) (iblk0 V c 5 t) (iblk0 V c 6 t)]
  funext j
  obtain ⟨p, q, rfl⟩ : ∃ (p : Fin 5000) (q : Fin 4), j = ix2 p q := ⟨j 0, j 1, eq_ix2 j⟩
  rw [View.read_apply, emb9]
  rw [iblk0_1_eq V c t, iblk0_2_eq V c t, iblk0_3_eq V c t, iblk0_4_eq V c t, iblk0_5_eq V c t, iblk0_6_eq V c t]
  exact scores_rows _ _ _ _ _ _ _ _ (rowOf t) (iblk0_0_apply V c t) p q

/-- An index of the table is in point `t`'s block iff each coordinate is in the block's range on its axis. -/
theorem mem_blk9 (t : Fin cfg0.N) (i : S50000x4.Idx) :
    i ∈ ((cfg0.win 9).blk t).view.set ↔ ∀ a : Fin 2, win0_9.index t a * S5000x4.size a ≤ (i a).val ∧ (i a).val < win0_9.index t a * S5000x4.size a + S5000x4.size a := by
  show i ∈ ((View.whole main_v14_2).slice (win0_9.rect t)).set ↔ _
  rw [View.set_slice_whole, Rect.mem_set_unit]
  exact Iff.rfl

/-- Every row of the table is in some point's block: row `r` in the block of point `r / 5000`. -/
theorem cover9 (i : S50000x4.Idx) :
    ∃ t : Fin cfg0.N, (cfg0.win 9).flush t = true ∧ i ∈ ((cfg0.win 9).blk t).view.set := by
  have h0 : (i 0).val < 50000 := (i 0).isLt
  have h1 : (i 1).val < 4 := (i 1).isLt
  have hN : grid0.N = 10 := N_0
  have ht : (i 0).val / 5000 < cfg0.N := by show (i 0).val / 5000 < grid0.N; omega
  obtain ⟨-, -, -, -, -, -, -, -, -, -, -, -, -, -, -, -, -, -, e0, e1⟩ := idx_facts ⟨(i 0).val / 5000, ht⟩
  refine ⟨⟨(i 0).val / 5000, ht⟩, flush0_9 _, ?_⟩
  rw [mem_blk9]
  intro a
  match a with
  | ⟨0, _⟩ =>
    show win0_9.index ⟨(i 0).val / 5000, ht⟩ (0 : Fin 2) * 5000 ≤ (i 0).val
      ∧ (i 0).val < win0_9.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win0_9.index ⟨(i 0).val / 5000, ht⟩ (1 : Fin 2) * 4 ≤ (i 1).val
      ∧ (i 1).val < win0_9.index ⟨(i 0).val / 5000, ht⟩ (1 : Fin 2) * 4 + 4
    rw [e1]
    omega

/-- THE TABLE after the region: `G0_9` of the tables the region finds. -/
theorem final0_9 (c : Dev nD) :
    (dat0 (F := Ideal) V c).arrAt 9 cfg0.N = G0_9 (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) :=
  (dat0 V c).arrAt_eq_of_cover 9 (G0_9 (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6))) (fun t _ => flushed9_eq V c t) cover9

end Cert.KernelIdeal.Region0

end
-- ==== Proof.Region1Blocks.lean ====
/- Where the need-edge stage's blocks sit in their arrays.

   The stage runs over 200 grid points; point `t` reads rows `4000 t … 4000 t + 3999` of the three edge-indexed
   inputs, the whole of the two weight matrices and of the attention row, and writes the same rows of the two outputs.
   Each block's element is read off its array at the block index times the block size plus the coordinate inside the
   block; the index maps are decided once over the grid; and the 200 row blocks tile the 800000 rows. -/
import proofs.«139946_j74208444940406_2_alg».proof.Proof.Gen.KernelIdeal.Frame
import Idealize.ShloMosaic.Lib.Pipeline.Value
import Idealize.ShloMosaic.Lib.ValueIdx

set_option maxRecDepth 16384

noncomputable section

namespace Cert.KernelIdeal.Region1

open Idealize.ShloMosaic Idealize.ShloMosaic.ValueIdx Cert.KernelIdeal Cert.KernelIdeal.Gen Idealize.ShloMosaic.TcCoe Idealize.SL.Sem
open Idealize.ShloMosaic.Pipeline (Dat)

variable (V : (c : Dev nD) → (b : Ref sig .tc) → Buf (Elt Ideal) ((c : Thread nD τ).loc b))

/-- The zero offsets of a whole-block access, as a function. -/
theorem hz : (![0, 0] : Fin 2 → Nat) = fun _ => 0 := funext fun a => by fin_cases a <;> rfl

/-- The printed index maps over the 200 grid points: the three row-blocked inputs and the two outputs move with
    the point along the rows and sit at column block 0; the two weight matrices and the attention row stay at
    block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0 :=
  (by decide +kernel : ∀ t : Fin grid1.N, _)

/-- A point's row offset stays inside the array. -/
theorem row_lt (t : Fin cfg1.N) (e : Fin 4000) : 4000 * t.val + e.val < 800000 := by
  have hN : cfg1.N = 200 := N_1
  have := t.isLt
  have := e.isLt
  omega

/-- The operation-feature block at point `t` is rows `4000 t … 4000 t + 3999` of its array. -/
theorem iblk0_apply (c : Dev nD) (t : Fin cfg1.N) (e : Fin 4000) (k : Fin 96) :
    iblk1 V c 0 t (ix2 e k)
      = (V c (Pipeline.arrRef spec1 0) : S800000x96.Idx → EReal) (ix2 (⟨4000 * t.val + e.val, row_lt t e⟩ : Fin 800000) k) := by
  obtain ⟨e0, e1, -⟩ := idx_facts t
  unfold iblk1
  rw [View.read_apply]
  refine congrArg (V c (Pipeline.arrRef spec1 0)) ?_
  funext a
  apply Fin.ext
  match a with
  | ⟨0, _⟩ => show win1_0.index t (0 : Fin 2) * 4000 + 1 * e.val = 4000 * t.val + e.val; omega
  | ⟨1, _⟩ => show win1_0.index t (1 : Fin 2) * 96 + 1 * k.val = k.val; omega

/-- The edge-attribute block at point `t` is the same rows of its array. -/
theorem iblk1_apply (c : Dev nD) (t : Fin cfg1.N) (e : Fin 4000) (k : Fin 32) :
    iblk1 V c 1 t (ix2 e k)
      = (V c (Pipeline.arrRef spec1 1) : S800000x32.Idx → EReal) (ix2 (⟨4000 * t.val + e.val, row_lt t e⟩ : Fin 800000) k) := by
  obtain ⟨-, -, e0, e1, -⟩ := idx_facts t
  unfold iblk1
  rw [View.read_apply]
  refine congrArg (V c (Pipeline.arrRef spec1 1)) ?_
  funext a
  apply Fin.ext
  match a with
  | ⟨0, _⟩ => show win1_1.index t (0 : Fin 2) * 4000 + 1 * e.val = 4000 * t.val + e.val; omega
  | ⟨1, _⟩ => show win1_1.index t (1 : Fin 2) * 32 + 1 * k.val = k.val; omega

/-- The gathered-score block at point `t` is the same rows of the one-column score array. -/
theorem iblk2_apply (c : Dev nD) (t : Fin cfg1.N) (e : Fin 4000) :
    iblk1 V c 2 t (ix2 e (0 : Fin 1))
      = (V c (Pipeline.arrRef spec1 2) : S800000x1.Idx → EReal) (ix2 (⟨4000 * t.val + e.val, row_lt t e⟩ : Fin 800000) (0 : Fin 1)) := by
  obtain ⟨-, -, -, -, e0, e1, -⟩ := idx_facts t
  unfold iblk1
  rw [View.read_apply]
  refine congrArg (V c (Pipeline.arrRef spec1 2)) ?_
  funext a
  apply Fin.ext
  match a with
  | ⟨0, _⟩ => show win1_2.index t (0 : Fin 2) * 4000 + 1 * e.val = 4000 * t.val + e.val; omega
  | ⟨1, _⟩ => show win1_2.index t (1 : Fin 2) * 1 + 1 * 0 = 0; omega

/-- The first weight matrix's block at every point is the whole matrix. -/
theorem iblk3_apply (c : Dev nD) (t : Fin cfg1.N) (k : Fin 96) (q : Fin 128) :
    iblk1 V c 3 t (ix2 k q) = (V c (Pipeline.arrRef spec1 3) : S96x128.Idx → EReal) (ix2 k q) := by
  obtain ⟨-, -, -, -, -, -, e0, e1, -⟩ := idx_facts t
  unfold iblk1
  rw [View.read_apply]
  refine congrArg (V c (Pipeline.arrRef spec1 3)) ?_
  funext a
  apply Fin.ext
  match a with
  | ⟨0, _⟩ => show win1_3.index t (0 : Fin 2) * 96 + 1 * k.val = k.val; omega
  | ⟨1, _⟩ => show win1_3.index t (1 : Fin 2) * 128 + 1 * q.val = q.val; omega

/-- The second weight matrix's block at every point is the whole matrix. -/
theorem iblk4_apply (c : Dev nD) (t : Fin cfg1.N) (k : Fin 32) (q : Fin 128) :
    iblk1 V c 4 t (ix2 k q) = (V c (Pipeline.arrRef spec1 4) : S32x128.Idx → EReal) (ix2 k q) := by
  obtain ⟨-, -, -, -, -, -, -, -, e0, e1, -⟩ := idx_facts t
  unfold iblk1
  rw [View.read_apply]
  refine congrArg (V c (Pipeline.arrRef spec1 4)) ?_
  funext a
  apply Fin.ext
  match a with
  | ⟨0, _⟩ => show win1_4.index t (0 : Fin 2) * 32 + 1 * k.val = k.val; omega
  | ⟨1, _⟩ => show win1_4.index t (1 : Fin 2) * 128 + 1 * q.val = q.val; omega

/-- The attention row's block at every point is the whole row. -/
theorem iblk5_apply (c : Dev nD) (t : Fin cfg1.N) (d : Fin 128) :
    iblk1 V c 5 t (ix2 (0 : Fin 1) d) = (V c (Pipeline.arrRef spec1 5) : S1x128.Idx → EReal) (ix2 (0 : Fin 1) d) := by
  obtain ⟨-, -, -, -, -, -, -, -, -, -, e0, e1, -⟩ := idx_facts t
  unfold iblk1
  rw [View.read_apply]
  refine congrArg (V c (Pipeline.arrRef spec1 5)) ?_
  funext a
  apply Fin.ext
  match a with
  | ⟨0, _⟩ => show win1_5.index t (0 : Fin 2) * 1 + 1 * 0 = 0; omega
  | ⟨1, _⟩ => show win1_5.index t (1 : Fin 2) * 128 + 1 * d.val = d.val; omega

/-- Element `(e, q)` of the feature output block at point `t` sits at row `4000 t + e`, lane `q` of its array. -/
theorem emb6 (t : Fin cfg1.N) (e : Fin 4000) (q : Fin 128) :
    ((cfg1.win 6).blk t).view.emb (ix2 e q) = (ix2 (⟨4000 * t.val + e.val, row_lt t e⟩ : Fin 800000) q : S800000x128.Idx) := by
  obtain ⟨-, -, -, -, -, -, -, -, -, -, -, -, e0, e1, -⟩ := idx_facts t
  funext a
  apply Fin.ext
  match a with
  | ⟨0, _⟩ => show win1_6.index t (0 : Fin 2) * 4000 + 1 * e.val = 4000 * t.val + e.val; omega
  | ⟨1, _⟩ => show win1_6.index t (1 : Fin 2) * 128 + 1 * q.val = q.val; omega

/-- Element `e` of the logit output block at point `t` sits at row `4000 t + e` of its one-column array. -/
theorem emb7 (t : Fin cfg1.N) (e : Fin 4000) :
    ((cfg1.win 7).blk t).view.emb (ix2 e (0 : Fin 1)) = (ix2 (⟨4000 * t.val + e.val, row_lt t e⟩ : Fin 800000) (0 : Fin 1) : S800000x1.Idx) := by
  obtain ⟨-, -, -, -, -, -, -, -, -, -, -, -, -, -, e0, e1⟩ := idx_facts t
  funext a
  apply Fin.ext
  match a with
  | ⟨0, _⟩ => show win1_7.index t (0 : Fin 2) * 4000 + 1 * e.val = 4000 * t.val + e.val; omega
  | ⟨1, _⟩ => show win1_7.index t (1 : Fin 2) * 1 + 1 * 0 = 0; omega

/-- An index of the feature output array is in point `t`'s block iff each coordinate is in the block's range. -/
theorem mem_blk6 (t : Fin cfg1.N) (i : S800000x128.Idx) :
    i ∈ ((cfg1.win 6).blk t).view.set ↔ ∀ a : Fin 2, win1_6.index t a * S4000x128.size a ≤ (i a).val
      ∧ (i a).val < win1_6.index t a * S4000x128.size a + S4000x128.size a := by
  show i ∈ ((View.whole main_v33_0).slice (win1_6.rect t)).set ↔ _
  rw [View.set_slice_whole, Rect.mem_set_unit]
  exact Iff.rfl

/-- An index of the logit output array is in point `t`'s block iff each coordinate is in the block's range. -/
theorem mem_blk7 (t : Fin cfg1.N) (i : S800000x1.Idx) :
    i ∈ ((cfg1.win 7).blk t).view.set ↔ ∀ a : Fin 2, win1_7.index t a * S4000x1.size a ≤ (i a).val
      ∧ (i a).val < win1_7.index t a * S4000x1.size a + S4000x1.size a := by
  show i ∈ ((View.whole main_v33_1).slice (win1_7.rect t)).set ↔ _
  rw [View.set_slice_whole, Rect.mem_set_unit]
  exact Iff.rfl

/-- Every row `r` of the feature output is in the block of point `r / 4000`: the 200 blocks tile the array. -/
theorem cover6 (i : S800000x128.Idx) :
    ∃ t : Fin cfg1.N, (cfg1.win 6).flush t = true ∧ i ∈ ((cfg1.win 6).blk t).view.set := by
  have hi0 : (i 0).val < 800000 := (i 0).isLt
  have hi1 : (i 1).val < 128 := (i 1).isLt
  have hN : cfg1.N = 200 := N_1
  obtain ⟨t, ht⟩ : ∃ t : Fin cfg1.N, t.val = (i 0).val / 4000 := ⟨⟨(i 0).val / 4000, by rw [hN]; omega⟩, rfl⟩
  obtain ⟨-, -, -, -, -, -, -, -, -, -, -, -, e0, e1, -⟩ := idx_facts t
  refine ⟨t, flush1_6 t, ?_⟩
  rw [mem_blk6]
  intro a
  match a with
  | ⟨0, _⟩ =>
    show win1_6.index t (0 : Fin 2) * 4000 ≤ (i 0).val ∧ (i 0).val < win1_6.index t (0 : Fin 2) * 4000 + 4000
    omega
  | ⟨1, _⟩ =>
    show win1_6.index t (1 : Fin 2) * 128 ≤ (i 1).val ∧ (i 1).val < win1_6.index t (1 : Fin 2) * 128 + 128
    omega

/-- Every row of the logit output is in the block of point `r / 4000` likewise. -/
theorem cover7 (i : S800000x1.Idx) :
    ∃ t : Fin cfg1.N, (cfg1.win 7).flush t = true ∧ i ∈ ((cfg1.win 7).blk t).view.set := by
  have hi0 : (i 0).val < 800000 := (i 0).isLt
  have hi1 : (i 1).val < 1 := (i 1).isLt
  have hN : cfg1.N = 200 := N_1
  obtain ⟨t, ht⟩ : ∃ t : Fin cfg1.N, t.val = (i 0).val / 4000 := ⟨⟨(i 0).val / 4000, by rw [hN]; omega⟩, rfl⟩
  obtain ⟨-, -, -, -, -, -, -, -, -, -, -, -, -, -, e0, e1⟩ := idx_facts t
  refine ⟨t, flush1_7 t, ?_⟩
  rw [mem_blk7]
  intro a
  match a with
  | ⟨0, _⟩ =>
    show win1_7.index t (0 : Fin 2) * 4000 ≤ (i 0).val ∧ (i 0).val < win1_7.index t (0 : Fin 2) * 4000 + 4000
    omega
  | ⟨1, _⟩ =>
    show win1_7.index t (1 : Fin 2) * 1 ≤ (i 1).val ∧ (i 1).val < win1_7.index t (1 : Fin 2) * 1 + 1
    omega

end Cert.KernelIdeal.Region1

end
-- ==== Proof.Region1Spec.lean ====
/- The need-edge stage as functions of its input arrays, index by index.

   For edge `e` the projected edge feature is the sum of two matrix products, one over the 96 operation features
   and one over the 32 edge attributes, each against its own weight matrix; the edge's attention logit is the leaky
   unit of the gathered destination score plus the dot product of that projected row with the attention vector.
   The leaky unit's slope is kept as the float word it is printed with. Nothing here mentions a program. -/
import Idealize.ShloMosaic.PureOps.Ideal
import Idealize.ShloMosaic.Lib.ValueIdx

noncomputable section

open scoped BigOperators

namespace Cert.KernelIdeal.Region1

open Idealize.ShloMosaic Idealize.ShloMosaic.ValueIdx

/-- The leaky rectified unit on the extended reals: the identity where `0 ≤ z`, the slope word times `z` elsewhere. -/
def lrelu (z : EReal) : EReal :=
  if 0 ≤ z then z else Ideal.ofBits .f32 0x3E4CCCCD#32 * z

/-- The projected edge features: row `e`, lane `q` is
    `∑ k < 96, f (e, k) * w₁ (k, q) + ∑ k < 32, g (e, k) * w₂ (k, q)`. -/
def G1_6 (f : (⟨2, ![800000, 96]⟩ : Shape).Idx → EReal) (g : (⟨2, ![800000, 32]⟩ : Shape).Idx → EReal)
    (w₁ : (⟨2, ![96, 128]⟩ : Shape).Idx → EReal) (w₂ : (⟨2, ![32, 128]⟩ : Shape).Idx → EReal) :
    (⟨2, ![800000, 128]⟩ : Shape).Idx → EReal :=
  fun i => (∑ k : Fin 96, f (ix2 (⟨(i 0).val, idx2_lt0 i⟩ : Fin 800000) k) * w₁ (ix2 k (⟨(i 1).val, idx2_lt1 i⟩ : Fin 128)))
    + (∑ k : Fin 32, g (ix2 (⟨(i 0).val, idx2_lt0 i⟩ : Fin 800000) k) * w₂ (ix2 k (⟨(i 1).val, idx2_lt1 i⟩ : Fin 128)))

/-- The same, read at explicit coordinates. -/
theorem G1_6_apply (f : (⟨2, ![800000, 96]⟩ : Shape).Idx → EReal) (g : (⟨2, ![800000, 32]⟩ : Shape).Idx → EReal)
    (w₁ : (⟨2, ![96, 128]⟩ : Shape).Idx → EReal) (w₂ : (⟨2, ![32, 128]⟩ : Shape).Idx → EReal) (e : Fin 800000) (q : Fin 128) :
    G1_6 f g w₁ w₂ (ix2 e q)
      = (∑ k : Fin 96, f (ix2 e k) * w₁ (ix2 k q)) + (∑ k : Fin 32, g (ix2 e k) * w₂ (ix2 k q)) := rfl

/-- The edge attention logits (one column): row `e` is the leaky unit of
    `s (e, 0) + ∑ d < 128, G1_6 (e, d) * a (0, d)`. -/
def G1_7 (f : (⟨2, ![800000, 96]⟩ : Shape).Idx → EReal) (g : (⟨2, ![800000, 32]⟩ : Shape).Idx → EReal)
    (s : (⟨2, ![800000, 1]⟩ : Shape).Idx → EReal)
    (w₁ : (⟨2, ![96, 128]⟩ : Shape).Idx → EReal) (w₂ : (⟨2, ![32, 128]⟩ : Shape).Idx → EReal)
    (a : (⟨2, ![1, 128]⟩ : Shape).Idx → EReal) : (⟨2, ![800000, 1]⟩ : Shape).Idx → EReal :=
  fun i => lrelu (s (ix2 (⟨(i 0).val, idx2_lt0 i⟩ : Fin 800000) (0 : Fin 1))
    + ∑ d : Fin 128, G1_6 f g w₁ w₂ (ix2 (⟨(i 0).val, idx2_lt0 i⟩ : Fin 800000) d) * a (ix2 (0 : Fin 1) d))

/-- The same, read at explicit coordinates. -/
theorem G1_7_apply (f : (⟨2, ![800000, 96]⟩ : Shape).Idx → EReal) (g : (⟨2, ![800000, 32]⟩ : Shape).Idx → EReal)
    (s : (⟨2, ![800000, 1]⟩ : Shape).Idx → EReal)
    (w₁ : (⟨2, ![96, 128]⟩ : Shape).Idx → EReal) (w₂ : (⟨2, ![32, 128]⟩ : Shape).Idx → EReal)
    (a : (⟨2, ![1, 128]⟩ : Shape).Idx → EReal) (e : Fin 800000) (z : Fin 1) :
    G1_7 f g s w₁ w₂ a (ix2 e z)
      = lrelu (s (ix2 e 0) + ∑ d : Fin 128, G1_6 f g w₁ w₂ (ix2 e d) * a (ix2 0 d)) := rfl

end Cert.KernelIdeal.Region1

end
-- ==== Proof.Region1Pay.lean ====
/- The need-edge stage's body at one element of a block.

   Two matrix products into zero accumulators are added; at the extended reals each is the plain sum of products over
   its contracted axis. The logit multiplies the projected block by the attention row broadcast over the rows, sums
   the lanes, adds the gathered score column and applies the leaky unit as a select on the comparison with zero. -/
import proofs.«139946_j74208444940406_2_alg».proof.Proof.Gen.KernelIdeal.Skeleton
import proofs.«139946_j74208444940406_2_alg».proof.Proof.Region1Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Region1

open Idealize.ShloMosaic Idealize.ShloMosaic.ValueIdx Cert.KernelIdeal Cert.KernelIdeal.Gen

/-- The dimension numbers of the product over the 96 operation features: rows by features times features by lanes. -/
abbrev D96 : DotDims S4000x96 S96x128 S4000x128 := dot_S4000x96_S96x128_S4000x128_1_0_0_1_n_n
/-- The dimension numbers of the product over the 32 edge attributes. -/
abbrev D32 : DotDims S4000x32 S32x128 S4000x128 := dot_S4000x32_S32x128_S4000x128_1_0_0_1_n_n

/-- The first matrix product into a zero accumulator, at row `e`, lane `q`: the sum over the 96 features of the row's
    entry times the weight's entry (the contraction index is its one coordinate). -/
theorem matmul96_apply {φ₁ φ₂ : FTy} (l : FVec Ideal S4000x96 φ₁) (r : FVec Ideal S96x128 φ₂) (e : Fin 4000) (q : Fin 128) :
    matmul D96 none l r (constant S4000x128 .f32 0x00000000#32) (ix2 e q) = ∑ k : Fin 96, l (ix2 e k) * r (ix2 k q) := by
  refine (Ideal.matmul_constant_zero_apply D96 none l r (ix2 e q)).trans ?_
  rw [← Equiv.sum_comp (contrEquiv1 D96 96 rfl rfl).symm]
  refine Finset.sum_congr rfl fun k _ => ?_
  have hl : D96.lhsIdx (ix2 e q) ((contrEquiv1 D96 96 rfl rfl).symm k) = ix2 e k := by
    funext a; apply Fin.ext
    match a with
    | ⟨0, _⟩ => rfl
    | ⟨1, _⟩ => rfl
  have hr : D96.rhsIdx (ix2 e q) ((contrEquiv1 D96 96 rfl rfl).symm k) = ix2 k q := by
    funext a; apply Fin.ext
    match a with
    | ⟨0, _⟩ => rfl
    | ⟨1, _⟩ => rfl
  rw [hl, hr]

/-- The second matrix product likewise, over the 32 edge attributes. -/
theorem matmul32_apply {φ₁ φ₂ : FTy} (l : FVec Ideal S4000x32 φ₁) (r : FVec Ideal S32x128 φ₂) (e : Fin 4000) (q : Fin 128) :
    matmul D32 none l r (constant S4000x128 .f32 0x00000000#32) (ix2 e q) = ∑ k : Fin 32, l (ix2 e k) * r (ix2 k q) := by
  refine (Ideal.matmul_constant_zero_apply D32 none l r (ix2 e q)).trans ?_
  rw [← Equiv.sum_comp (contrEquiv1 D32 32 rfl rfl).symm]
  refine Finset.sum_congr rfl fun k _ => ?_
  have hl : D32.lhsIdx (ix2 e q) ((contrEquiv1 D32 32 rfl rfl).symm k) = ix2 e k := by
    funext a; apply Fin.ext
    match a with
    | ⟨0, _⟩ => rfl
    | ⟨1, _⟩ => rfl
  have hr : D32.rhsIdx (ix2 e q) ((contrEquiv1 D32 32 rfl rfl).symm k) = ix2 k q := by
    funext a; apply Fin.ext
    match a with
    | ⟨0, _⟩ => rfl
    | ⟨1, _⟩ => rfl
  rw [hl, hr]

/-- The stored projected feature at row `e`, lane `q` of the block: the two sums added, first product first. The
    changes of float format on the way into the products are the identity on extended reals. -/
theorem pay1_apply (v0 : Vec Ideal S4000x96 .f32) (v3 : Vec Ideal S4000x32 .f32) (v5 : Vec Ideal S96x128 .f32)
    (v8 : Vec Ideal S32x128 .f32) (e : Fin 4000) (q : Fin 128) :
    k1_pay1 v0 v3 v5 v8 (ix2 e q)
      = (∑ k : Fin 96, v0 (ix2 e k) * v5 (ix2 k q)) + (∑ k : Fin 32, v3 (ix2 e k) * v8 (ix2 k q)) := by
  unfold k1_pay1
  simp only [shapeCast_self]
  rw [← matmul96_apply (φ₁ := .bf16) (φ₂ := .bf16) v0 v5 e q, ← matmul32_apply (φ₁ := .bf16) (φ₂ := .bf16) v3 v8 e q]
  rfl

/-- A vector `[a]` recast as the one-column array `[a, 1]` reads, at row `e`, the vector's entry `e`. -/
theorem shapeCast_a_a1_apply {α : Type} {a : ℕ} (x : (⟨1, ![a]⟩ : Shape).Idx → α)
    (h : (⟨1, ![a]⟩ : Shape).ShapeCasts ⟨2, ![a, 1]⟩) (e : Fin a) (z : Fin 1) :
    shapeCast ⟨2, ![a, 1]⟩ x h (ix2 e z) = x (ix1 e) := by
  refine shapeCast_apply x h (ix2 e z) (ix1 e) ?_
  rw [Shape.rowMajor_val_one, Shape.rowMajor_val_two]
  show e.val = e.val * 1 + z.val
  have := z.isLt
  omega

/-- A lane sum of a `[4000, 128]` block kept as a one-column array reads, at row `e`, the sum of the row's 128 entries. -/
theorem colsum_apply (src : FVec Ideal S4000x128 .f32) (e : Fin 4000) :
    shapeCast S4000x1 (multiReduction .add [1] S4000 src 0x00000000#32 reduces_S4000x128_S4000 (.inl rfl) rfl)
        shapeCasts_S4000_S4000x1 (ix2 e (0 : Fin 1))
      = ∑ d : Fin 128, src (ix2 e d) := by
  refine (shapeCast_a_a1_apply _ shapeCasts_S4000_S4000x1 e 0).trans ?_
  refine (Ideal.multiReduction_add_single src 0x00000000#32 reduces_S4000x128_S4000 (.inl rfl) rfl (ix1 e)).trans ?_
  refine Finset.sum_congr rfl fun d _ => congrArg src ?_
  funext a; apply Fin.ext
  match a with
  | ⟨0, _⟩ => rfl
  | ⟨1, _⟩ => rfl

/-- The select on `z ≥ 0` (the comparison against the zero word) between `z` and the slope word times `z` is `lrelu z`. -/
theorem select_eq_lrelu (z : EReal) :
    Scalar.select (FloatOps.cmpf (F := Ideal) (φ := .f32) .oge z (Ideal.ofBits .f32 0x00000000#32)) z
      (Ideal.ofBits .f32 0x3E4CCCCD#32 * z) = lrelu z := by
  rw [Ideal.ofBits_zero_f32]
  unfold lrelu Scalar.select
  show (if Ideal.cmp .oge z 0 = 1 then _ else _) = _
  unfold Ideal.cmp
  by_cases h : (0 : EReal) ≤ z
  · simp [h]
  · simp [h]

/-- The stored logit at row `e` of the block: the leaky unit of the gathered score of the row plus the dot product of
    the row's projected feature with the attention vector (one row, broadcast over the block's rows). -/
theorem pay2_apply (v0 : Vec Ideal S4000x96 .f32) (v3 : Vec Ideal S4000x32 .f32) (v5 : Vec Ideal S96x128 .f32)
    (v8 : Vec Ideal S32x128 .f32) (v15 : Vec Ideal S1x128 .f32) (v21 : Vec Ideal S4000x1 .f32) (e : Fin 4000) :
    k1_pay2 v0 v3 v5 v8 v15 v21 (ix2 e (0 : Fin 1))
      = lrelu (v21 (ix2 e 0) + ∑ d : Fin 128, k1_pay1 v0 v3 v5 v8 (ix2 e d) * v15 (ix2 0 d)) := by
  have hA := colsum_apply (mulf (k1_pay1 v0 v3 v5 v8) (broadcastTo S4000x128 v15 broadcasts_S1x128_S4000x128)) e
  have hB : (∑ d : Fin 128, mulf (k1_pay1 v0 v3 v5 v8) (broadcastTo S4000x128 v15 broadcasts_S1x128_S4000x128) (ix2 e d))
      = ∑ d : Fin 128, k1_pay1 v0 v3 v5 v8 (ix2 e d) * v15 (ix2 0 d) :=
    Finset.sum_congr rfl fun d _ => by
      show k1_pay1 v0 v3 v5 v8 (ix2 e d) * broadcastTo S4000x128 v15 broadcasts_S1x128_S4000x128 (ix2 e d) = _
      rw [broadcastTo_1b_ab_apply]
  unfold k1_pay2
  simp only [shapeCast_self]
  rw [← select_eq_lrelu, ← hB, ← hA]
  rfl

end Cert.KernelIdeal.Region1

end
-- ==== Proof.Region1Final.lean ====
/- From blocks to the arrays, for the need-edge stage.

   What point `t` writes to each output is block `t` of one whole-array function of the inputs — the projected
   features `G1_6`, the logits `G1_7` — because the body at row `e` of the block reads each edge-indexed input at
   the same row and the weights whole. The row blocks tile both outputs, so each output array is that function. -/
import proofs.«139946_j74208444940406_2_alg».proof.Proof.Region1Blocks
import proofs.«139946_j74208444940406_2_alg».proof.Proof.Region1Pay

set_option maxRecDepth 16384

noncomputable section

open scoped BigOperators

namespace Cert.KernelIdeal.Region1

open Idealize.ShloMosaic Idealize.ShloMosaic.ValueIdx Cert.KernelIdeal Cert.KernelIdeal.Gen Idealize.ShloMosaic.TcCoe Idealize.SL.Sem
open Idealize.ShloMosaic.Pipeline (Dat)

variable (V : (c : Dev nD) → (b : Ref sig .tc) → Buf (Elt Ideal) ((c : Thread nD τ).loc b))

/-- The projected feature the body computes from the blocks at point `t`, at row `e`, lane `q`, is `G1_6` of the
    arrays at row `4000 t + e`: each row block is read at row `e`, each weight matrix whole. -/
theorem pay1_blocks (c : Dev nD) (t : Fin cfg1.N) (e : Fin 4000) (q : Fin 128) :
    k1_pay1 (iblk1 V c 0 t) (iblk1 V c 1 t) (iblk1 V c 3 t) (iblk1 V c 4 t) (ix2 e q)
      = G1_6 (V c (Pipeline.arrRef spec1 0)) (V c (Pipeline.arrRef spec1 1)) (V c (Pipeline.arrRef spec1 3))
          (V c (Pipeline.arrRef spec1 4)) (ix2 (⟨4000 * t.val + e.val, row_lt t e⟩ : Fin 800000) q) := by
  rw [G1_6_apply]
  refine (pay1_apply (iblk1 V c 0 t) (iblk1 V c 1 t) (iblk1 V c 3 t) (iblk1 V c 4 t) e q).trans ?_
  refine congrArg₂ (· + ·) (Finset.sum_congr rfl fun k _ => ?_) (Finset.sum_congr rfl fun k _ => ?_)
  · rw [iblk0_apply V c t e k, iblk3_apply V c t k q]
  · rw [iblk1_apply V c t e k, iblk4_apply V c t k q]

/-- What point `t` writes back to the feature output is block `t` of `G1_6` of the input arrays as the stage finds them. -/
theorem flushed6_eq (c : Dev nD) (t : Fin cfg1.N) :
    (dat1 (F := Ideal) V c).flushed 6 t = ((cfg1.win 6).blk t).view.read (Elt Ideal)
      (G1_6 (V c (Pipeline.arrRef spec1 0)) (V c (Pipeline.arrRef spec1 1)) (V c (Pipeline.arrRef spec1 3))
        (V c (Pipeline.arrRef spec1 4))) := by
  show (cfg1.win 6).cut (grid1.coords t) ((dat1 V c).after 6 t) = _
  rw [after1_6]
  unfold out1_6
  rw [View.canon_unit_zero hz]
  simp only [View.ld_unit_zero (S := S4000x96) hz, View.ld_unit_zero (S := S4000x32) hz,
    View.ld_unit_zero (S := S96x128) hz, View.ld_unit_zero (S := S32x128) hz]
  funext j
  obtain ⟨e, q, rfl⟩ : ∃ (e : Fin 4000) (q : Fin 128), j = ix2 e q := ⟨j 0, j 1, eq_ix2 (n0 := 4000) (n1 := 128) j⟩
  rw [View.read_apply, emb6 t e q]
  show k1_pay1 (iblk1 V c 0 t) (iblk1 V c 1 t) (iblk1 V c 3 t) (iblk1 V c 4 t) (ix2 e q) = _
  refine (pay1_blocks V c t e q).trans ?_
  rfl

/-- What point `t` writes back to the logit output is block `t` of `G1_7` of the input arrays as the stage finds them. -/
theorem flushed7_eq (c : Dev nD) (t : Fin cfg1.N) :
    (dat1 (F := Ideal) V c).flushed 7 t = ((cfg1.win 7).blk t).view.read (Elt Ideal)
      (G1_7 (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5))) := by
  show (cfg1.win 7).cut (grid1.coords t) ((dat1 V c).after 7 t) = _
  rw [after1_7]
  unfold out1_7
  rw [View.canon_unit_zero hz]
  simp only [View.ld_unit_zero (S := S4000x96) hz, View.ld_unit_zero (S := S4000x32) hz,
    View.ld_unit_zero (S := S96x128) hz, View.ld_unit_zero (S := S32x128) hz,
    View.ld_unit_zero (S := S1x128) hz, View.ld_unit_zero (S := S4000x1) hz]
  funext j
  obtain ⟨e, z, rfl⟩ : ∃ (e : Fin 4000) (z : Fin 1), j = ix2 e z := ⟨j 0, j 1, eq_ix2 (n0 := 4000) (n1 := 1) j⟩
  obtain rfl : z = 0 := Subsingleton.elim _ _
  rw [View.read_apply, emb7 t e, G1_7_apply]
  show k1_pay2 (iblk1 V c 0 t) (iblk1 V c 1 t) (iblk1 V c 3 t) (iblk1 V c 4 t) (iblk1 V c 5 t) (iblk1 V c 2 t) (ix2 e (0 : Fin 1)) = _
  refine (pay2_apply (iblk1 V c 0 t) (iblk1 V c 1 t) (iblk1 V c 3 t) (iblk1 V c 4 t) (iblk1 V c 5 t) (iblk1 V c 2 t) e).trans ?_
  rw [iblk2_apply V c t e]
  have hsum : (∑ d : Fin 128, k1_pay1 (iblk1 V c 0 t) (iblk1 V c 1 t) (iblk1 V c 3 t) (iblk1 V c 4 t) (ix2 e d) * iblk1 V c 5 t (ix2 (0 : Fin 1) d))
      = ∑ d : Fin 128, G1_6 (V c (Pipeline.arrRef spec1 0)) (V c (Pipeline.arrRef spec1 1)) (V c (Pipeline.arrRef spec1 3))
          (V c (Pipeline.arrRef spec1 4)) (ix2 (⟨4000 * t.val + e.val, row_lt t e⟩ : Fin 800000) d)
          * (V c (Pipeline.arrRef spec1 5) : S1x128.Idx → EReal) (ix2 (0 : Fin 1) d) :=
    Finset.sum_congr rfl fun d _ => by rw [pay1_blocks V c t e d, iblk5_apply V c t d]
  rw [hsum]
  rfl

/-- The feature output array after the stage is `G1_6` of the input arrays, whatever it held on entry. -/
theorem final1_6 (c : Dev nD) :
    (dat1 (F := Ideal) V c).arrAt 6 cfg1.N
      = G1_6 (V c (Pipeline.arrRef spec1 0)) (V c (Pipeline.arrRef spec1 1)) (V c (Pipeline.arrRef spec1 3))
          (V c (Pipeline.arrRef spec1 4)) :=
  (dat1 (F := Ideal) V c).arrAt_eq_of_cover 6
    (G1_6 (V c (Pipeline.arrRef spec1 0)) (V c (Pipeline.arrRef spec1 1)) (V c (Pipeline.arrRef spec1 3))
      (V c (Pipeline.arrRef spec1 4)))
    (fun t _ => flushed6_eq V c t) cover6

/-- The logit output array after the stage is `G1_7` of the input arrays, whatever it held on entry. -/
theorem final1_7 (c : Dev nD) :
    (dat1 (F := Ideal) V c).arrAt 7 cfg1.N
      = G1_7 (V c (Pipeline.arrRef spec1 0)) (V c (Pipeline.arrRef spec1 1)) (V c (Pipeline.arrRef spec1 2))
          (V c (Pipeline.arrRef spec1 3)) (V c (Pipeline.arrRef spec1 4)) (V c (Pipeline.arrRef spec1 5)) :=
  (dat1 (F := Ideal) V c).arrAt_eq_of_cover 7
    (G1_7 (V c (Pipeline.arrRef spec1 0)) (V c (Pipeline.arrRef spec1 1)) (V c (Pipeline.arrRef spec1 2))
      (V c (Pipeline.arrRef spec1 3)) (V c (Pipeline.arrRef spec1 4)) (V c (Pipeline.arrRef spec1 5)))
    (fun t _ => flushed7_eq V c t) cover7

end Cert.KernelIdeal.Region1

end
-- ==== Proof.Region2Spec.lean ====
/- The combine stage as one function of its four input arrays, index by index.

   Row `p` of the result is, lane by lane, `elu (n p * s p q + a p q + b p q)`: the self term `s` scaled by the
   row's weight `n p` (a one-column array, the same value on every lane), plus the two aggregated terms.
   `elu v` is `v` where `v` is positive and `exp (min v 0) - 1` elsewhere; the `1` is kept as the float word
   it is printed with. Nothing here mentions a program. -/
import Idealize.ShloMosaic.PureOps.Ideal
import Idealize.ShloMosaic.Lib.ValueIdx

noncomputable section

namespace Cert.KernelIdeal.Region2

open Idealize.ShloMosaic Idealize.ShloMosaic.ValueIdx

/-- The exponential linear unit on the extended reals: the identity on the positive half line, `exp (min v 0) - 1`
    on the rest (the `min` only keeps the untaken branch small; on the branch taken it is `v` itself). -/
def elu (v : EReal) : EReal :=
  if 0 < v then v else Ideal.exp (min v 0) - Ideal.ofBits .f32 0x3F800000#32

/-- The combine stage's result array: at row `p`, lane `q`, the unit `elu` of
    `n (p, 0) * s (p, q) + a (p, q) + b (p, q)`. -/
def G2_4 (s : (⟨2, ![50000, 128]⟩ : Shape).Idx → EReal) (n : (⟨2, ![50000, 1]⟩ : Shape).Idx → EReal)
    (a b : (⟨2, ![50000, 128]⟩ : Shape).Idx → EReal) : (⟨2, ![50000, 128]⟩ : Shape).Idx → EReal :=
  fun i => elu (n (ix2 (⟨(i 0).val, idx2_lt0 i⟩ : Fin 50000) (0 : Fin 1)) * s i + a i + b i)

/-- The same, read at explicit coordinates. -/
theorem G2_4_apply (s : (⟨2, ![50000, 128]⟩ : Shape).Idx → EReal) (n : (⟨2, ![50000, 1]⟩ : Shape).Idx → EReal)
    (a b : (⟨2, ![50000, 128]⟩ : Shape).Idx → EReal) (p : Fin 50000) (q : Fin 128) :
    G2_4 s n a b (ix2 p q) = elu (n (ix2 p 0) * s (ix2 p q) + a (ix2 p q) + b (ix2 p q)) := rfl

end Cert.KernelIdeal.Region2

end
-- ==== Proof.Region2Pay.lean ====
/- The combine stage's body at one element of a block.

   The body multiplies the one-column weight block, broadcast along the lanes, into the self block, adds the two
   aggregated blocks and applies the unit `elu` as a select between the sum and `exp (min sum 0) - 1` on the
   comparison `sum > 0`. Every operation is pointwise but the broadcast, which reads column 0 of the row. -/
import proofs.«139946_j74208444940406_2_alg».proof.Proof.Gen.KernelIdeal.Skeleton
import proofs.«139946_j74208444940406_2_alg».proof.Proof.Region2Spec
import Idealize.ShloMosaic.Lib.Pipeline.Value
import Idealize.ShloMosaic.Lib.ValueIdx
import Idealize.ShloMosaic.PureOps.Ideal.Laws

noncomputable section

namespace Cert.KernelIdeal.Region2

open Idealize.ShloMosaic Idealize.ShloMosaic.ValueIdx Cert.KernelIdeal Cert.KernelIdeal.Gen

/-- A one-column array `[a, 1]` broadcast to `[a, b]` reads, at `(p, c)`, the operand's row `p` at its one column. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The select on `v > 0` (the comparison against the zero word) between `v` and `exp (min v 0) - 1` is `elu v`. -/
theorem select_eq_elu (v : EReal) :
    Scalar.select (FloatOps.cmpf (F := Ideal) (φ := .f32) .ogt v (Ideal.ofBits .f32 0x00000000#32)) v
      (Ideal.exp (min v (Ideal.ofBits .f32 0x00000000#32)) - Ideal.ofBits .f32 0x3F800000#32) = elu v := by
  rw [Ideal.ofBits_zero_f32]
  unfold elu Scalar.select
  show (if Ideal.cmp .ogt v 0 = 1 then _ else _) = _
  unfold Ideal.cmp
  by_cases h : (0 : EReal) < v
  · simp [h]
  · simp [h]

/-- The body's stored value at row `p`, lane `q` of the block: `elu` of the weight of row `p` times the self
    entry plus the two aggregated entries. -/
theorem pay1_apply (v0 : Vec Ideal S5000x1 .f32) (v2 v6 v9 : Vec Ideal S5000x128 .f32) (p : Fin 5000) (q : Fin 128) :
    k2_pay1 v0 v2 v6 v9 (ix2 p q) = elu (v0 (ix2 p 0) * v2 (ix2 p q) + v6 (ix2 p q) + v9 (ix2 p q)) := by
  unfold k2_pay1
  simp only [shapeCast_self]
  rw [← select_eq_elu, ← broadcastTo_a1_ab_apply v0 broadcasts_S5000x1_S5000x128 p q]
  rfl

end Cert.KernelIdeal.Region2

end
-- ==== Proof.Region2Final.lean ====
/- From blocks to the array, for the combine stage.

   The stage runs over ten grid points; point `t` reads rows `5000 t … 5000 t + 4999` of each of its four input
   arrays and writes the same rows of the result. Since the body is pointwise in the row (the weight column is read
   at the same row), what point `t` writes is block `t` of ONE whole-array function, `G2_4`, and the ten blocks
   tile the 50000 rows: the result array is `G2_4` of the inputs. -/
import proofs.«139946_j74208444940406_2_alg».proof.Proof.Gen.KernelIdeal.Frame
import proofs.«139946_j74208444940406_2_alg».proof.Proof.Region2Pay
import Idealize.ShloMosaic.Lib.Pipeline.Value
import Idealize.ShloMosaic.Lib.ValueIdx

set_option maxRecDepth 16384

noncomputable section

namespace Cert.KernelIdeal.Region2

open Idealize.ShloMosaic Idealize.ShloMosaic.ValueIdx Cert.KernelIdeal Cert.KernelIdeal.Gen Idealize.ShloMosaic.TcCoe Idealize.SL.Sem
open Idealize.ShloMosaic.Pipeline (Dat)

variable (V : (c : Dev nD) → (b : Ref sig .tc) → Buf (Elt Ideal) ((c : Thread nD τ).loc b))

/-- The zero offsets of a whole-block access, as a function. -/
theorem hz : (![0, 0] : Fin 2 → Nat) = fun _ => 0 := funext fun a => by fin_cases a <;> rfl

/-- Every window of the combine stage moves with the grid point along the rows and sits at lane block 0. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- A point's row offset stays inside the array. -/
theorem row_lt (t : Fin cfg2.N) (p : Fin 5000) : 5000 * t.val + p.val < 50000 := by
  have hN : cfg2.N = 10 := N_2
  have := t.isLt
  have := p.isLt
  omega

/-- The self block at point `t` is rows `5000 t … 5000 t + 4999` of its array. -/
theorem iblk0_apply (c : Dev nD) (t : Fin cfg2.N) (p : Fin 5000) (q : Fin 128) :
    iblk2 V c 0 t (ix2 p q)
      = (V c (Pipeline.arrRef spec2 0) : S50000x128.Idx → EReal) (ix2 (⟨5000 * t.val + p.val, row_lt t p⟩ : Fin 50000) q) := by
  obtain ⟨e0, e1, -⟩ := idx_facts t
  unfold iblk2
  rw [View.read_apply]
  refine congrArg (V c (Pipeline.arrRef spec2 0)) ?_
  funext a
  apply Fin.ext
  match a with
  | ⟨0, _⟩ => show win2_0.index t (0 : Fin 2) * 5000 + 1 * p.val = 5000 * t.val + p.val; omega
  | ⟨1, _⟩ => show win2_0.index t (1 : Fin 2) * 128 + 1 * q.val = q.val; omega

/-- The weight block at point `t` is the same rows of the one-column weight array. -/
theorem iblk1_apply (c : Dev nD) (t : Fin cfg2.N) (p : Fin 5000) :
    iblk2 V c 1 t (ix2 p (0 : Fin 1))
      = (V c (Pipeline.arrRef spec2 1) : S50000x1.Idx → EReal) (ix2 (⟨5000 * t.val + p.val, row_lt t p⟩ : Fin 50000) (0 : Fin 1)) := by
  obtain ⟨-, -, e0, e1, -⟩ := idx_facts t
  unfold iblk2
  rw [View.read_apply]
  refine congrArg (V c (Pipeline.arrRef spec2 1)) ?_
  funext a
  apply Fin.ext
  match a with
  | ⟨0, _⟩ => show win2_1.index t (0 : Fin 2) * 5000 + 1 * p.val = 5000 * t.val + p.val; omega
  | ⟨1, _⟩ => show win2_1.index t (1 : Fin 2) * 1 + 1 * 0 = 0; omega

/-- The first aggregated block at point `t` is the same rows of its array. -/
theorem iblk2_apply (c : Dev nD) (t : Fin cfg2.N) (p : Fin 5000) (q : Fin 128) :
    iblk2 V c 2 t (ix2 p q)
      = (V c (Pipeline.arrRef spec2 2) : S50000x128.Idx → EReal) (ix2 (⟨5000 * t.val + p.val, row_lt t p⟩ : Fin 50000) q) := by
  obtain ⟨-, -, -, -, e0, e1, -⟩ := idx_facts t
  unfold iblk2
  rw [View.read_apply]
  refine congrArg (V c (Pipeline.arrRef spec2 2)) ?_
  funext a
  apply Fin.ext
  match a with
  | ⟨0, _⟩ => show win2_2.index t (0 : Fin 2) * 5000 + 1 * p.val = 5000 * t.val + p.val; omega
  | ⟨1, _⟩ => show win2_2.index t (1 : Fin 2) * 128 + 1 * q.val = q.val; omega

/-- The second aggregated block at point `t` is the same rows of its array. -/
theorem iblk3_apply (c : Dev nD) (t : Fin cfg2.N) (p : Fin 5000) (q : Fin 128) :
    iblk2 V c 3 t (ix2 p q)
      = (V c (Pipeline.arrRef spec2 3) : S50000x128.Idx → EReal) (ix2 (⟨5000 * t.val + p.val, row_lt t p⟩ : Fin 50000) q) := by
  obtain ⟨-, -, -, -, -, -, e0, e1, -⟩ := idx_facts t
  unfold iblk2
  rw [View.read_apply]
  refine congrArg (V c (Pipeline.arrRef spec2 3)) ?_
  funext a
  apply Fin.ext
  match a with
  | ⟨0, _⟩ => show win2_3.index t (0 : Fin 2) * 5000 + 1 * p.val = 5000 * t.val + p.val; omega
  | ⟨1, _⟩ => show win2_3.index t (1 : Fin 2) * 128 + 1 * q.val = q.val; omega

/-- Element `(p, q)` of the output block at point `t` sits at row `5000 t + p`, lane `q` of the result array. -/
theorem emb4 (t : Fin cfg2.N) (p : Fin 5000) (q : Fin 128) :
    ((cfg2.win 4).blk t).view.emb (ix2 p q) = (ix2 (⟨5000 * t.val + p.val, row_lt t p⟩ : Fin 50000) q : S50000x128.Idx) := by
  obtain ⟨-, -, -, -, -, -, -, -, e0, e1⟩ := idx_facts t
  funext a
  apply Fin.ext
  match a with
  | ⟨0, _⟩ => show win2_4.index t (0 : Fin 2) * 5000 + 1 * p.val = 5000 * t.val + p.val; omega
  | ⟨1, _⟩ => show win2_4.index t (1 : Fin 2) * 128 + 1 * q.val = q.val; omega

/-- What point `t` writes back is block `t` of `G2_4` of the four input arrays as the stage finds them: the body's
    stored value at `(p, q)` reads each input block at row `p`, which is row `5000 t + p` of its array. -/
theorem flushed_eq (c : Dev nD) (t : Fin cfg2.N) :
    (dat2 (F := Ideal) V c).flushed 4 t = ((cfg2.win 4).blk t).view.read (Elt Ideal)
      (G2_4 (V c (Pipeline.arrRef spec2 0)) (V c (Pipeline.arrRef spec2 1)) (V c (Pipeline.arrRef spec2 2)) (V c (Pipeline.arrRef spec2 3))) := by
  show (cfg2.win 4).cut (grid2.coords t) ((dat2 V c).after 4 t) = _
  rw [after2_4]
  unfold out2_4
  rw [View.canon_unit_zero hz]
  simp only [View.ld_unit_zero (S := S5000x128) hz, View.ld_unit_zero (S := S5000x1) hz]
  funext j
  obtain ⟨p, q, rfl⟩ : ∃ (p : Fin 5000) (q : Fin 128), j = ix2 p q := ⟨j 0, j 1, eq_ix2 (n0 := 5000) (n1 := 128) j⟩
  rw [View.read_apply, emb4 t p q, G2_4_apply]
  show k2_pay1 (iblk2 V c 1 t) (iblk2 V c 0 t) (iblk2 V c 2 t) (iblk2 V c 3 t) (ix2 p q) = _
  refine (pay1_apply (iblk2 V c 1 t) (iblk2 V c 0 t) (iblk2 V c 2 t) (iblk2 V c 3 t) p q).trans ?_
  rw [iblk0_apply V c t p q, iblk1_apply V c t p, iblk2_apply V c t p q, iblk3_apply V c t p q]
  rfl

/-- An index of the result array is in point `t`'s block iff each coordinate is in the block's range on its axis. -/
theorem mem_blk (t : Fin cfg2.N) (i : S50000x128.Idx) :
    i ∈ ((cfg2.win 4).blk t).view.set ↔ ∀ a : Fin 2, win2_4.index t a * S5000x128.size a ≤ (i a).val
      ∧ (i a).val < win2_4.index t a * S5000x128.size a + S5000x128.size a := by
  show i ∈ ((View.whole main_v107).slice (win2_4.rect t)).set ↔ _
  rw [View.set_slice_whole, Rect.mem_set_unit]
  exact Iff.rfl

/-- Every row `r` of the result array is in the block of point `r / 5000`: the ten blocks tile the array. -/
theorem cover (i : S50000x128.Idx) :
    ∃ t : Fin cfg2.N, (cfg2.win 4).flush t = true ∧ i ∈ ((cfg2.win 4).blk t).view.set := by
  have hi0 : (i 0).val < 50000 := (i 0).isLt
  have hi1 : (i 1).val < 128 := (i 1).isLt
  have hN : cfg2.N = 10 := N_2
  obtain ⟨t, ht⟩ : ∃ t : Fin cfg2.N, t.val = (i 0).val / 5000 := ⟨⟨(i 0).val / 5000, by rw [hN]; omega⟩, rfl⟩
  obtain ⟨-, -, -, -, -, -, -, -, e0, e1⟩ := idx_facts t
  refine ⟨t, flush2_4 t, ?_⟩
  rw [mem_blk]
  intro a
  match a with
  | ⟨0, _⟩ =>
    show win2_4.index t (0 : Fin 2) * 5000 ≤ (i 0).val ∧ (i 0).val < win2_4.index t (0 : Fin 2) * 5000 + 5000
    omega
  | ⟨1, _⟩ =>
    show win2_4.index t (1 : Fin 2) * 128 ≤ (i 1).val ∧ (i 1).val < win2_4.index t (1 : Fin 2) * 128 + 128
    omega

/-- The result array after the stage is `G2_4` of the four input arrays, whatever they held on entry. -/
theorem final2_4 (c : Dev nD) :
    (dat2 (F := Ideal) V c).arrAt 4 cfg2.N
      = G2_4 (V c (Pipeline.arrRef spec2 0)) (V c (Pipeline.arrRef spec2 1)) (V c (Pipeline.arrRef spec2 2)) (V c (Pipeline.arrRef spec2 3)) :=
  (dat2 (F := Ideal) V c).arrAt_eq_of_cover 4
    (G2_4 (V c (Pipeline.arrRef spec2 0)) (V c (Pipeline.arrRef spec2 1)) (V c (Pipeline.arrRef spec2 2)) (V c (Pipeline.arrRef spec2 3)))
    (fun t _ => flushed_eq V c t) cover

end Cert.KernelIdeal.Region2

end
-- ==== Proof.KernelHost.lean ====
/-
  The host operations around the idealized kernel's three regions, as pure functions of arrays.

  Before the node region the score vectors are cut out of the three [256, 1] attention vectors: each is split into its
  first and second 128 entries and laid as a [1, 128] row (for the self score the two halves are added first), and the
  [128, 128] operation weight is split into its first 96 and last 32 rows.  A row number taken by a gather or a
  scatter is first wrapped the way jnp indexing does it (a negative number counts from the end).
-/
import proofs.«139946_j74208444940406_2_alg».proof.Proof.Gen.KernelIdeal.Frame
import Idealize.ShloMosaic.PureOps.Ideal
import Idealize.ShloMosaic.Lib.StableHlo.Run

set_option maxRecDepth 16384

noncomputable section

namespace Cert.KernelIdeal.KHost

open Idealize.ShloMosaic Idealize.ShloMosaic.TcCoe Idealize.SL.Sem Idealize.ShloMosaic.StableHlo
open Cert.KernelIdeal Cert.KernelIdeal.Gen

/-! ## The vocabulary -/

/-- The first 128 entries of a [256, 1] vector as a [1, 128] row. -/
def rowLo (a : FVec Ideal S256x1 .f32) : FVec Ideal S1x128 .f32 :=
  shapeCast S1x128 (extractStridedSlice S128x1 ![0, 0] a slices_S256x1_S128x1_0_0) shapeCasts_S128x1_S1x128

/-- The last 128 entries of a [256, 1] vector as a [1, 128] row. -/
def rowHi (a : FVec Ideal S256x1 .f32) : FVec Ideal S1x128 .f32 :=
  shapeCast S1x128 (extractStridedSlice S128x1 ![128, 0] a slices_S256x1_S128x1_128_0) shapeCasts_S128x1_S1x128

/-- The two halves of a [256, 1] vector added, as a [1, 128] row. -/
def rowSum (a : FVec Ideal S256x1 .f32) : FVec Ideal S1x128 .f32 :=
  shapeCast S1x128 (addf (extractStridedSlice S128x1 ![0, 0] a slices_S256x1_S128x1_0_0)
    (extractStridedSlice S128x1 ![128, 0] a slices_S256x1_S128x1_128_0)) shapeCasts_S128x1_S1x128

/-- The first 96 rows of the operation weight. -/
def wTop (w : FVec Ideal S128x128 .f32) : FVec Ideal S96x128 .f32 :=
  extractStridedSlice S96x128 ![0, 0] w slices_S128x128_S96x128_0_0

/-- The last 32 rows of the operation weight. -/
def wBot (w : FVec Ideal S128x128 .f32) : FVec Ideal S32x128 .f32 :=
  extractStridedSlice S32x128 ![96, 0] w slices_S128x128_S32x128_96_0

/-- 800000 row numbers wrapped into a table of `n` rows and laid as a column of start indices. -/
def wrap8 (n : BitVec 32) (i : IVec S800000 32) : IVec S800000x1 32 :=
  broadcastInDim S800000x1 ![0] bcast_S800000_S800000x1_0
    (select (cmpi .slt i (broadcastInDim S800000 ![] bcast_S_S800000 (constantI S_ 32 0#32)))
      (addi i (broadcastInDim S800000 ![] bcast_S_S800000 (constantI S_ 32 n))) i)

/-- 400000 row numbers wrapped into a table of `n` rows and laid as a column of start indices. -/
def wrap4 (n : BitVec 32) (i : IVec S400000 32) : IVec S400000x1 32 :=
  broadcastInDim S400000x1 ![0] bcast_S400000_S400000x1_0
    (select (cmpi .slt i (broadcastInDim S400000 ![] bcast_S_S400000 (constantI S_ 32 0#32)))
      (addi i (broadcastInDim S400000 ![] bcast_S_S400000 (constantI S_ 32 n))) i)

variable (m : (ℓ : Loc nD τ sig) → Buf (Elt Ideal) ℓ) (ρ : Dev nD → PrngReg)

/-! ## Before the node region -/

theorem W1_v3 (c : Dev nD) : W1 m ρ c (Proc.devRef .tc main_v3) = rowSum (m ((c : Thread nD τ).loc main_arg10)) := by
  show StableHlo.after hostOps0 (W0 m ρ c) (Proc.devRef .tc main_v3) = _
  after_results
  rfl

theorem W1_v5 (c : Dev nD) : W1 m ρ c (Proc.devRef .tc main_v5) = rowLo (m ((c : Thread nD τ).loc main_arg11)) := by
  show StableHlo.after hostOps0 (W0 m ρ c) (Proc.devRef .tc main_v5) = _
  after_results
  rfl

theorem W1_v7 (c : Dev nD) : W1 m ρ c (Proc.devRef .tc main_v7) = rowHi (m ((c : Thread nD τ).loc main_arg11)) := by
  show StableHlo.after hostOps0 (W0 m ρ c) (Proc.devRef .tc main_v7) = _
  after_results
  rfl

theorem W1_v9 (c : Dev nD) : W1 m ρ c (Proc.devRef .tc main_v9) = rowLo (m ((c : Thread nD τ).loc main_arg12)) := by
  show StableHlo.after hostOps0 (W0 m ρ c) (Proc.devRef .tc main_v9) = _
  after_results
  rfl

theorem W1_v11 (c : Dev nD) : W1 m ρ c (Proc.devRef .tc main_v11) = rowHi (m ((c : Thread nD τ).loc main_arg12)) := by
  show StableHlo.after hostOps0 (W0 m ρ c) (Proc.devRef .tc main_v11) = _
  after_results
  rfl

theorem W1_v12 (c : Dev nD) : W1 m ρ c (Proc.devRef .tc main_v12) = wTop (m ((c : Thread nD τ).loc main_arg9)) := by
  show StableHlo.after hostOps0 (W0 m ρ c) (Proc.devRef .tc main_v12) = _
  after_results
  rfl

theorem W1_v13 (c : Dev nD) : W1 m ρ c (Proc.devRef .tc main_v13) = wBot (m ((c : Thread nD τ).loc main_arg9)) := by
  show StableHlo.after hostOps0 (W0 m ρ c) (Proc.devRef .tc main_v13) = _
  after_results
  rfl

/-- An argument buffer is as launched when the node region is entered. -/
theorem W1_arg (c : Dev nD) (b : Ref sig .tc)
    (hb : (hostOps0 : List (HloOp τ sig (Elt Ideal))).Forall fun op => Proc.devRef .tc b ∉ op.writes) :
    W1 m ρ c (Proc.devRef .tc b) = m ((c : Thread nD τ).loc b) :=
  StableHlo.after_of_forall_not_mem (b := Proc.devRef .tc b) _ _ (List.forall_iff_forall_mem.mp hb)

end Cert.KernelIdeal.KHost

end
-- ==== Proof.KernelHost2.lean ====
/-
  The host operations between and after the idealized kernel's regions, as pure functions of arrays.

  After the node region its [50000, 4] score table is cut into four columns; the need-edge region reads the operation
  features gathered at the edges' source rows and the second score column gathered at their destination rows.  After
  the need-edge region come the same-type edges' logits (two gathered score columns added, then the leaky unit), the
  softmax over the three families of logits taken together (one shared maximum, one shared total, each exponential
  times the total's reciprocal), and the two weighted segment sums the last region adds up.
-/
import proofs.«139946_j74208444940406_2_alg».proof.Proof.KernelHost

set_option maxRecDepth 16384
set_option maxHeartbeats 2000000

noncomputable section

namespace Cert.KernelIdeal.KHost

open Idealize.ShloMosaic Idealize.ShloMosaic.TcCoe Idealize.SL.Sem Idealize.ShloMosaic.StableHlo
open Cert.KernelIdeal Cert.KernelIdeal.Gen

/-! ## The vocabulary -/

def col0 (sc : FVec Ideal S50000x4 .f32) : FVec Ideal S50000x1 .f32 := extractStridedSlice S50000x1 ![0, 0] sc slices_S50000x4_S50000x1_0_0
def col1 (sc : FVec Ideal S50000x4 .f32) : FVec Ideal S50000x1 .f32 := extractStridedSlice S50000x1 ![0, 1] sc slices_S50000x4_S50000x1_0_1
def col2 (sc : FVec Ideal S50000x4 .f32) : FVec Ideal S50000x1 .f32 := extractStridedSlice S50000x1 ![0, 2] sc slices_S50000x4_S50000x1_0_2
def col3 (sc : FVec Ideal S50000x4 .f32) : FVec Ideal S50000x1 .f32 := extractStridedSlice S50000x1 ![0, 3] sc slices_S50000x4_S50000x1_0_3

/-- The operation features at the need edges' source rows. -/
def opFeat (ops : FVec Ideal S100000x96 .f32) (i3 : IVec S800000 32) : FVec Ideal S800000x96 .f32 :=
  Host.gather gather_S100000x96_S800000x1_S800000x96_1_0_n_n_0_1_196 ops (wrap8 100000#32 i3)

/-- A per-node score at the need edges' destination rows. -/
def atDst8 (s : FVec Ideal S50000x1 .f32) (i4 : IVec S800000 32) : FVec Ideal S800000x1 .f32 :=
  Host.gather gather_S50000x1_S800000x1_S800000x1_1_0_n_n_0_1_11 s (wrap8 50000#32 i4)

/-- A per-node score at 400000 rows. -/
def at4 (s : FVec Ideal S50000x1 .f32) (i : IVec S400000 32) : FVec Ideal S400000x1 .f32 :=
  Host.gather gather_S50000x1_S400000x1_S400000x1_1_0_n_n_0_1_11 s (wrap4 50000#32 i)

/-- The projected rows at the same-type edges' source rows. -/
def projAt (pr : FVec Ideal S50000x128 .f32) (i5 : IVec S400000 32) : FVec Ideal S400000x128 .f32 :=
  Host.gather gather_S50000x128_S400000x1_S400000x128_1_0_n_n_0_1_1128 pr (wrap4 50000#32 i5)

/-- The same-type edges' logits: the leaky unit of the destination score plus the source score. -/
def resAtt (s2 s3 : FVec Ideal S50000x1 .f32) (i5 i6 : IVec S400000 32) : FVec Ideal S400000x1 .f32 :=
  select (cmpf .oge (addf (at4 s2 i6) (at4 s3 i5)) (broadcastInDim S400000x1 ![] bcast_S_S400000x1 (constant (F := Ideal) S_ .f32 0x00000000#32)))
    (addf (at4 s2 i6) (at4 s3 i5))
    (mulf (broadcastInDim S400000x1 ![] bcast_S_S400000x1 (constant (F := Ideal) S_ .f32 0x3E4CCCCD#32)) (addf (at4 s2 i6) (at4 s3 i5)))

/-- The largest logit of the three families. -/
def top (sa : FVec Ideal S50000x1 .f32) (oa : FVec Ideal S800000x1 .f32) (ra : FVec Ideal S400000x1 .f32) : FVec Ideal S_ .f32 :=
  maximumf (Host.reduce FloatOps.maximumf sa (constant (F := Ideal) S_ .f32 0xFF800000#32) reducesTo_S50000x1_S_d0_1 h_S_)
    (maximumf (Host.reduce FloatOps.maximumf oa (constant (F := Ideal) S_ .f32 0xFF800000#32) reducesTo_S800000x1_S_d0_1 h_S_)
      (Host.reduce FloatOps.maximumf ra (constant (F := Ideal) S_ .f32 0xFF800000#32) reducesTo_S400000x1_S_d0_1 h_S_))

def expS (sa : FVec Ideal S50000x1 .f32) (t : FVec Ideal S_ .f32) : FVec Ideal S50000x1 .f32 :=
  Host.exp (subf sa (broadcastInDim S50000x1 ![] bcast_S_S50000x1 t))
def expO (oa : FVec Ideal S800000x1 .f32) (t : FVec Ideal S_ .f32) : FVec Ideal S800000x1 .f32 :=
  Host.exp (subf oa (broadcastInDim S800000x1 ![] bcast_S_S800000x1 t))
def expR (ra : FVec Ideal S400000x1 .f32) (t : FVec Ideal S_ .f32) : FVec Ideal S400000x1 .f32 :=
  Host.exp (subf ra (broadcastInDim S400000x1 ![] bcast_S_S400000x1 t))

/-- The reciprocal of the exponentials' total. -/
def recip (es : FVec Ideal S50000x1 .f32) (eo : FVec Ideal S800000x1 .f32) (er : FVec Ideal S400000x1 .f32) : FVec Ideal S_ .f32 :=
  Host.divf (constant (F := Ideal) S_ .f32 0x3F800000#32)
    (addf (addf (Host.reduceAdd es (constant (F := Ideal) S_ .f32 0x00000000#32) reducesTo_S50000x1_S_d0_1 h_S_)
        (Host.reduceAdd eo (constant (F := Ideal) S_ .f32 0x00000000#32) reducesTo_S800000x1_S_d0_1 h_S_))
      (Host.reduceAdd er (constant (F := Ideal) S_ .f32 0x00000000#32) reducesTo_S400000x1_S_d0_1 h_S_))

variable (m : (ℓ : Loc nD τ sig) → Buf (Elt Ideal) ℓ) (ρ : Dev nD → PrngReg)

/-! ## Between the node region and the need-edge region -/

theorem W3_v25 (c : Dev nD) : W3 m ρ c (Proc.devRef .tc main_v25)
    = opFeat (W2 m ρ c (Proc.devRef .tc main_arg1)) (W2 m ρ c (Proc.devRef .tc main_arg3)) := by
  show StableHlo.after hostOps1 (W2 m ρ c) (Proc.devRef .tc main_v25) = _
  after_results_simp
  rfl

theorem W3_v32 (c : Dev nD) : W3 m ρ c (Proc.devRef .tc main_v32)
    = atDst8 (col1 (W2 m ρ c (Proc.devRef .tc main_v14_2))) (W2 m ρ c (Proc.devRef .tc main_arg4)) := by
  show StableHlo.after hostOps1 (W2 m ρ c) (Proc.devRef .tc main_v32) = _
  after_results_simp
  rfl

theorem W3_v15 (c : Dev nD) : W3 m ρ c (Proc.devRef .tc main_v15) = col0 (W2 m ρ c (Proc.devRef .tc main_v14_2)) := by
  show StableHlo.after hostOps1 (W2 m ρ c) (Proc.devRef .tc main_v15) = _
  after_results_simp
  rfl

theorem W3_v17 (c : Dev nD) : W3 m ρ c (Proc.devRef .tc main_v17) = col2 (W2 m ρ c (Proc.devRef .tc main_v14_2)) := by
  show StableHlo.after hostOps1 (W2 m ρ c) (Proc.devRef .tc main_v17) = _
  after_results_simp
  rfl

theorem W3_v18 (c : Dev nD) : W3 m ρ c (Proc.devRef .tc main_v18) = col3 (W2 m ρ c (Proc.devRef .tc main_v14_2)) := by
  show StableHlo.after hostOps1 (W2 m ρ c) (Proc.devRef .tc main_v18) = _
  after_results_simp
  rfl

end Cert.KernelIdeal.KHost

end
-- ==== Proof.KernelHost3.lean ====
/-
  After the need-edge region: the softmax weights and the two weighted segment sums, as pure functions of the three
  families of logits and the rows they weigh.
-/
import proofs.«139946_j74208444940406_2_alg».proof.Proof.KernelHost2

set_option maxRecDepth 16384
set_option maxHeartbeats 2000000

noncomputable section

namespace Cert.KernelIdeal.KHost

open Idealize.ShloMosaic Idealize.ShloMosaic.TcCoe Idealize.SL.Sem Idealize.ShloMosaic.StableHlo
open Cert.KernelIdeal Cert.KernelIdeal.Gen

/-- The reciprocal of the total of the three families' exponentials, each logit less the shared maximum. -/
def invTotal (sa : FVec Ideal S50000x1 .f32) (oa : FVec Ideal S800000x1 .f32) (ra : FVec Ideal S400000x1 .f32) : FVec Ideal S_ .f32 :=
  recip (expS sa (top sa oa ra)) (expO oa (top sa oa ra)) (expR ra (top sa oa ra))

/-- The nodes' softmax weights. -/
def normS (sa : FVec Ideal S50000x1 .f32) (oa : FVec Ideal S800000x1 .f32) (ra : FVec Ideal S400000x1 .f32) : FVec Ideal S50000x1 .f32 :=
  mulf (expS sa (top sa oa ra)) (broadcastInDim S50000x1 ![] bcast_S_S50000x1 (invTotal sa oa ra))

/-- The need edges' softmax weights. -/
def normO (sa : FVec Ideal S50000x1 .f32) (oa : FVec Ideal S800000x1 .f32) (ra : FVec Ideal S400000x1 .f32) : FVec Ideal S800000x1 .f32 :=
  mulf (expO oa (top sa oa ra)) (broadcastInDim S800000x1 ![] bcast_S_S800000x1 (invTotal sa oa ra))

/-- The same-type edges' softmax weights. -/
def normR (sa : FVec Ideal S50000x1 .f32) (oa : FVec Ideal S800000x1 .f32) (ra : FVec Ideal S400000x1 .f32) : FVec Ideal S400000x1 .f32 :=
  mulf (expR ra (top sa oa ra)) (broadcastInDim S400000x1 ![] bcast_S_S400000x1 (invTotal sa oa ra))

/-- The need edges' weighted rows summed at their destination rows. -/
def sumOps (no : FVec Ideal S800000x1 .f32) (oe : FVec Ideal S800000x128 .f32) (i4 : IVec S800000 32) : FVec Ideal S50000x128 .f32 :=
  Host.scatterAdd scatter_S50000x128_S800000x1_S800000x128_1_0_0_1
    (broadcastInDim S50000x128 ![] bcast_S_S50000x128 (constant (F := Ideal) S_ .f32 0x00000000#32)) (wrap8 50000#32 i4)
    (mulf (broadcastInDim S800000x128 ![0, 1] bcast_S800000x1_S800000x128_0_1 no) oe)

/-- The same-type edges' weighted rows summed at their destination rows. -/
def sumRes (nr : FVec Ideal S400000x1 .f32) (pg : FVec Ideal S400000x128 .f32) (i6 : IVec S400000 32) : FVec Ideal S50000x128 .f32 :=
  Host.scatterAdd scatter_S50000x128_S400000x1_S400000x128_1_0_0_1
    (broadcastInDim S50000x128 ![] bcast_S_S50000x128 (constant (F := Ideal) S_ .f32 0x00000000#32)) (wrap4 50000#32 i6)
    (mulf (broadcastInDim S400000x128 ![0, 1] bcast_S400000x1_S400000x128_0_1 nr) pg)

variable (m : (ℓ : Loc nD τ sig) → Buf (Elt Ideal) ℓ) (ρ : Dev nD → PrngReg)

theorem W6_v60 (c : Dev nD) : W6 m ρ c (Proc.devRef .tc main_v60)
    = resAtt (W4 m ρ c (Proc.devRef .tc main_v17)) (W4 m ρ c (Proc.devRef .tc main_v18))
        (W4 m ρ c (Proc.devRef .tc main_arg5)) (W4 m ρ c (Proc.devRef .tc main_arg6)) := by
  show StableHlo.after hostOps2_1 (StableHlo.after hostOps2 (W4 m ρ c)) (Proc.devRef .tc main_v60) = _
  after_results_simp
  rfl

theorem W6_v40 (c : Dev nD) : W6 m ρ c (Proc.devRef .tc main_v40)
    = projAt (W4 m ρ c (Proc.devRef .tc main_v14_1)) (W4 m ρ c (Proc.devRef .tc main_arg5)) := by
  show StableHlo.after hostOps2_1 (StableHlo.after hostOps2 (W4 m ρ c)) (Proc.devRef .tc main_v40) = _
  after_results_simp
  rfl

theorem W7_v82 (c : Dev nD) : W7 m ρ c (Proc.devRef .tc main_v82)
    = normS (W6 m ρ c (Proc.devRef .tc main_v15)) (W6 m ρ c (Proc.devRef .tc main_v33_1)) (W6 m ρ c (Proc.devRef .tc main_v60)) := by
  show StableHlo.after hostOps2_2 (W6 m ρ c) (Proc.devRef .tc main_v82) = _
  after_results_simp
  rfl

theorem W7_v98 (c : Dev nD) : W7 m ρ c (Proc.devRef .tc main_v98)
    = sumOps (normO (W6 m ρ c (Proc.devRef .tc main_v15)) (W6 m ρ c (Proc.devRef .tc main_v33_1)) (W6 m ρ c (Proc.devRef .tc main_v60)))
        (W6 m ρ c (Proc.devRef .tc main_v33_0)) (W6 m ρ c (Proc.devRef .tc main_arg4)) := by
  show StableHlo.after hostOps2_2 (W6 m ρ c) (Proc.devRef .tc main_v98) = _
  after_results_simp
  rfl

theorem W7_v106 (c : Dev nD) : W7 m ρ c (Proc.devRef .tc main_v106)
    = sumRes (normR (W6 m ρ c (Proc.devRef .tc main_v15)) (W6 m ρ c (Proc.devRef .tc main_v33_1)) (W6 m ρ c (Proc.devRef .tc main_v60)))
        (W6 m ρ c (Proc.devRef .tc main_v40)) (W6 m ρ c (Proc.devRef .tc main_arg6)) := by
  show StableHlo.after hostOps2_2 (W6 m ρ c) (Proc.devRef .tc main_v106) = _
  after_results_simp
  rfl

end Cert.KernelIdeal.KHost

end
-- ==== Proof.KernelCarry.lean ====
/-
  Buffers that a stretch of host operations or a region does not write keep their contents: the arguments as launched,
  and each intermediate array from the segment that wrote it to the segment that reads it.
-/
import proofs.«139946_j74208444940406_2_alg».proof.Proof.KernelHost3

set_option maxRecDepth 16384
set_option maxHeartbeats 2000000

noncomputable section

namespace Cert.KernelIdeal.KHost

open Idealize.ShloMosaic Idealize.ShloMosaic.TcCoe Idealize.SL.Sem Idealize.ShloMosaic.StableHlo
open Cert.KernelIdeal Cert.KernelIdeal.Gen

/-- No operation of a literal stretch writes the given buffer: each operation writes its one result buffer, which is
    another reference. -/
macro "no_write" : tactic =>
  `(tactic| (refine List.forall_iff_forall_mem.mp ?_
             simp only [hostOps0, hostOps1, hostOps2, hostOps2_1, hostOps2_2, List.flatten_cons, List.flatten_nil, List.append_nil,
               List.cons_append, List.nil_append, List.Forall, StableHlo.nullary_writes, StableHlo.unary_writes,
               StableHlo.binary_writes, StableHlo.ternary_writes, StableHlo.quaternary_writes, StableHlo.reshape_writes,
               StableHlo.binaryIndexed_writes, Finset.mem_singleton]
             repeat' apply And.intro
             all_goals exact StableHlo.devRef_ne_of_ne (by decide)))

variable (m : (ℓ : Loc nD τ sig) → Buf (Elt Ideal) ℓ) (ρ : Dev nD → PrngReg)

/-- Through the stretch before the node region. -/
theorem keep0 (c : Dev nD) (b : Ref sig .tc)
    (h : ∀ op ∈ (hostOps0 : List (HloOp τ sig (Elt Ideal))), Proc.devRef .tc b ∉ op.writes) :
    W1 m ρ c (Proc.devRef .tc b) = m ((c : Thread nD τ).loc b) :=
  StableHlo.after_of_forall_not_mem _ _ h

/-- Through the stretch before the need-edge region. -/
theorem keep1 (c : Dev nD) (b : Ref sig .tc)
    (h : ∀ op ∈ (hostOps1 : List (HloOp τ sig (Elt Ideal))), Proc.devRef .tc b ∉ op.writes) :
    W3 m ρ c (Proc.devRef .tc b) = W2 m ρ c (Proc.devRef .tc b) :=
  StableHlo.after_of_forall_not_mem _ _ h

/-- Through the same-type edges' logits (two stretches). -/
theorem keep2 (c : Dev nD) (b : Ref sig .tc)
    (h : ∀ op ∈ (hostOps2 : List (HloOp τ sig (Elt Ideal))), Proc.devRef .tc b ∉ op.writes)
    (h' : ∀ op ∈ (hostOps2_1 : List (HloOp τ sig (Elt Ideal))), Proc.devRef .tc b ∉ op.writes) :
    W6 m ρ c (Proc.devRef .tc b) = W4 m ρ c (Proc.devRef .tc b) :=
  (StableHlo.after_of_forall_not_mem _ _ h' : W6 m ρ c (Proc.devRef .tc b) = W5 m ρ c (Proc.devRef .tc b)).trans
    (StableHlo.after_of_forall_not_mem _ _ h)

/-- Through the softmax and the segment sums. -/
theorem keep3 (c : Dev nD) (b : Ref sig .tc)
    (h : ∀ op ∈ (hostOps2_2 : List (HloOp τ sig (Elt Ideal))), Proc.devRef .tc b ∉ op.writes) :
    W7 m ρ c (Proc.devRef .tc b) = W6 m ρ c (Proc.devRef .tc b) :=
  StableHlo.after_of_forall_not_mem _ _ h

/-- The self projection from the node region's exit to the combine region's entry. -/
theorem W7_selfRes (c : Dev nD) : W7 m ρ c (Proc.devRef .tc main_v14_0) = W2 m ρ c (Proc.devRef .tc main_v14_0) :=
  (keep3 m ρ c main_v14_0 (by no_write)).trans ((keep2 m ρ c main_v14_0 (by no_write) (by no_write)).trans
    ((W4_of_ne m ρ c main_v14_0 (by decide)).trans (keep1 m ρ c main_v14_0 (by no_write))))

/-- An argument no region reads through a window, from the launch to the stretch after the need-edge region. -/
theorem W4_arg (c : Dev nD) (b : Ref sig .tc)
    (h0 : ∀ op ∈ (hostOps0 : List (HloOp τ sig (Elt Ideal))), Proc.devRef .tc b ∉ op.writes)
    (h1 : ∀ op ∈ (hostOps1 : List (HloOp τ sig (Elt Ideal))), Proc.devRef .tc b ∉ op.writes)
    (n0 : ∀ w, Pipeline.arrRef spec0 w ≠ b) (n1 : ∀ w, Pipeline.arrRef spec1 w ≠ b) :
    W4 m ρ c (Proc.devRef .tc b) = m ((c : Thread nD τ).loc b) :=
  (W4_of_ne m ρ c b n1).trans ((keep1 m ρ c b h1).trans ((W2_of_ne m ρ c b n0).trans (keep0 m ρ c b h0)))

theorem W4_arg4 (c : Dev nD) : W4 m ρ c (Proc.devRef .tc main_arg4) = m ((c : Thread nD τ).loc main_arg4) :=
  W4_arg m ρ c main_arg4 (by no_write) (by no_write) (by decide) (by decide)
theorem W4_arg5 (c : Dev nD) : W4 m ρ c (Proc.devRef .tc main_arg5) = m ((c : Thread nD τ).loc main_arg5) :=
  W4_arg m ρ c main_arg5 (by no_write) (by no_write) (by decide) (by decide)
theorem W4_arg6 (c : Dev nD) : W4 m ρ c (Proc.devRef .tc main_arg6) = m ((c : Thread nD τ).loc main_arg6) :=
  W4_arg m ρ c main_arg6 (by no_write) (by no_write) (by decide) (by decide)

end Cert.KernelIdeal.KHost

end
-- ==== Proof.KernelRun.lean ====
/-
  The idealized kernel's run with its result named.

  The program is three TensorCore regions among stretches of host operations.  Its frame certificate follows the buffer
  contents from the launch through every segment; the last thread state holds every unscoped buffer at the contents
  after the third region.  Reading the result buffer there as well as the argument buffers gives the run with the result
  at those final contents, which the value modules then read back region by region.
-/
import proofs.«139946_j74208444940406_2_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the contents the
    third region leaves and the thirteen arguments end as launched. -/
theorem run_final : θ_run defs (onTc (τ := τ) (main (F := F))) ⟨m, fun _ => 0, ρ⟩ (fun r => ∀ c : Dev nD,
      r.2.mem ((c.tc : Thread nD τ).loc main_v107) = W8 m ρ c (Proc.devRef .tc main_v107)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v107 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c)⟩)

end Cert.KernelIdeal.KRun

end
-- ==== Proof.KernelValue.lean ====
/-
  The idealized kernel's result as one function of its thirteen arguments.

  The result buffer ends at what the combine region leaves; that region reads the self projection (left by the node
  region), the nodes' softmax weights and the two segment sums (left by the last stretch of host operations), which in
  turn read the need-edge region's outputs and the node region's score table.  Each region's output arrays are given
  here as whole-array functions of the arrays the region finds (the regions' closed forms, taken as parameters), and the
  host stretches as the functions of the host modules; reading the result buffer back through the segments composes them.
-/
import proofs.«139946_j74208444940406_2_alg».proof.Proof.KernelCarry
import proofs.«139946_j74208444940406_2_alg».proof.Proof.KernelRun

set_option maxRecDepth 16384
set_option maxHeartbeats 2000000

noncomputable section

namespace Cert.KernelIdeal.KValue

open Idealize.ShloMosaic Idealize.ShloMosaic.TcCoe Idealize.SL.Sem Idealize.ShloMosaic.StableHlo
open Cert.KernelIdeal Cert.KernelIdeal.Gen Cert.KernelIdeal.KHost

section

variable
  (G07 G08 : FVec Ideal S50000x128 .f32 → FVec Ideal S128x128 .f32 → FVec Ideal S50000x128 .f32)
  (G09 : FVec Ideal S50000x128 .f32 → FVec Ideal S128x128 .f32 → FVec Ideal S128x128 .f32 → FVec Ideal S1x128 .f32
    → FVec Ideal S1x128 .f32 → FVec Ideal S1x128 .f32 → FVec Ideal S1x128 .f32 → FVec Ideal S50000x4 .f32)
  (G16 : FVec Ideal S800000x96 .f32 → FVec Ideal S800000x32 .f32 → FVec Ideal S96x128 .f32 → FVec Ideal S32x128 .f32
    → FVec Ideal S800000x128 .f32)
  (G17 : FVec Ideal S800000x96 .f32 → FVec Ideal S800000x32 .f32 → FVec Ideal S800000x1 .f32 → FVec Ideal S96x128 .f32
    → FVec Ideal S32x128 .f32 → FVec Ideal S1x128 .f32 → FVec Ideal S800000x1 .f32)
  (G24 : FVec Ideal S50000x128 .f32 → FVec Ideal S50000x1 .f32 → FVec Ideal S50000x128 .f32 → FVec Ideal S50000x128 .f32
    → FVec Ideal S50000x128 .f32)

/-- The score table the node region leaves. -/
def scores (a0 : FVec Ideal S50000x128 .f32) (a7 a8 : FVec Ideal S128x128 .f32) (a10 a11 a12 : FVec Ideal S256x1 .f32) :
    FVec Ideal S50000x4 .f32 :=
  G09 a0 a7 a8 (rowSum a10) (rowLo a11) (rowLo a12) (rowHi a12)

/-- The need edges' projected rows. -/
def edgeRows (a1 : FVec Ideal S100000x96 .f32) (a2 : FVec Ideal S800000x32 .f32) (a3 : IVec S800000 32)
    (a9 : FVec Ideal S128x128 .f32) : FVec Ideal S800000x128 .f32 :=
  G16 (opFeat a1 a3) a2 (wTop a9) (wBot a9)

/-- The need edges' logits. -/
def edgeAtt (sc : FVec Ideal S50000x4 .f32) (a1 : FVec Ideal S100000x96 .f32) (a2 : FVec Ideal S800000x32 .f32)
    (a3 a4 : IVec S800000 32) (a9 : FVec Ideal S128x128 .f32) (a11 : FVec Ideal S256x1 .f32) : FVec Ideal S800000x1 .f32 :=
  G17 (opFeat a1 a3) a2 (atDst8 (col1 sc) a4) (wTop a9) (wBot a9) (rowHi a11)

/-- The kernel's result as a function of its arguments. -/
def value (a0 : FVec Ideal S50000x128 .f32) (a1 : FVec Ideal S100000x96 .f32) (a2 : FVec Ideal S800000x32 .f32)
    (a3 a4 : IVec S800000 32) (a5 a6 : IVec S400000 32) (a7 a8 a9 : FVec Ideal S128x128 .f32)
    (a10 a11 a12 : FVec Ideal S256x1 .f32) : FVec Ideal S50000x128 .f32 :=
  G24 (G07 a0 a7)
    (normS (col0 (scores G09 a0 a7 a8 a10 a11 a12)) (edgeAtt G17 (scores G09 a0 a7 a8 a10 a11 a12) a1 a2 a3 a4 a9 a11)
      (resAtt (col2 (scores G09 a0 a7 a8 a10 a11 a12)) (col3 (scores G09 a0 a7 a8 a10 a11 a12)) a5 a6))
    (sumOps (normO (col0 (scores G09 a0 a7 a8 a10 a11 a12)) (edgeAtt G17 (scores G09 a0 a7 a8 a10 a11 a12) a1 a2 a3 a4 a9 a11)
        (resAtt (col2 (scores G09 a0 a7 a8 a10 a11 a12)) (col3 (scores G09 a0 a7 a8 a10 a11 a12)) a5 a6))
      (edgeRows G16 a1 a2 a3 a9) a4)
    (sumRes (normR (col0 (scores G09 a0 a7 a8 a10 a11 a12)) (edgeAtt G17 (scores G09 a0 a7 a8 a10 a11 a12) a1 a2 a3 a4 a9 a11)
        (resAtt (col2 (scores G09 a0 a7 a8 a10 a11 a12)) (col3 (scores G09 a0 a7 a8 a10 a11 a12)) a5 a6))
      (projAt (G08 a0 a8) a5) a6)

variable (m : (ℓ : Loc nD τ sig) → Buf (Elt Ideal) ℓ) (ρ : Dev nD → PrngReg)

variable
  (f07 : ∀ (V : (c : Dev nD) → (b : Ref sig .tc) → Buf (Elt Ideal) ((c : Thread nD τ).loc b)) (c : Dev nD),
    (dat0 (F := Ideal) V c).arrAt 7 cfg0.N = G07 (V c (Pipeline.arrRef spec0 0)) (V c (Pipeline.arrRef spec0 1)))
  (f08 : ∀ (V : (c : Dev nD) → (b : Ref sig .tc) → Buf (Elt Ideal) ((c : Thread nD τ).loc b)) (c : Dev nD),
    (dat0 (F := Ideal) V c).arrAt 8 cfg0.N = G08 (V c (Pipeline.arrRef spec0 0)) (V c (Pipeline.arrRef spec0 2)))
  (f09 : ∀ (V : (c : Dev nD) → (b : Ref sig .tc) → Buf (Elt Ideal) ((c : Thread nD τ).loc b)) (c : Dev nD),
    (dat0 (F := Ideal) V c).arrAt 9 cfg0.N = G09 (V c (Pipeline.arrRef spec0 0)) (V c (Pipeline.arrRef spec0 1))
      (V c (Pipeline.arrRef spec0 2)) (V c (Pipeline.arrRef spec0 3)) (V c (Pipeline.arrRef spec0 4))
      (V c (Pipeline.arrRef spec0 5)) (V c (Pipeline.arrRef spec0 6)))
  (f16 : ∀ (V : (c : Dev nD) → (b : Ref sig .tc) → Buf (Elt Ideal) ((c : Thread nD τ).loc b)) (c : Dev nD),
    (dat1 (F := Ideal) V c).arrAt 6 cfg1.N = G16 (V c (Pipeline.arrRef spec1 0)) (V c (Pipeline.arrRef spec1 1))
      (V c (Pipeline.arrRef spec1 3)) (V c (Pipeline.arrRef spec1 4)))
  (f17 : ∀ (V : (c : Dev nD) → (b : Ref sig .tc) → Buf (Elt Ideal) ((c : Thread nD τ).loc b)) (c : Dev nD),
    (dat1 (F := Ideal) V c).arrAt 7 cfg1.N = G17 (V c (Pipeline.arrRef spec1 0)) (V c (Pipeline.arrRef spec1 1))
      (V c (Pipeline.arrRef spec1 2)) (V c (Pipeline.arrRef spec1 3)) (V c (Pipeline.arrRef spec1 4)) (V c (Pipeline.arrRef spec1 5)))
  (f24 : ∀ (V : (c : Dev nD) → (b : Ref sig .tc) → Buf (Elt Ideal) ((c : Thread nD τ).loc b)) (c : Dev nD),
    (dat2 (F := Ideal) V c).arrAt 4 cfg2.N = G24 (V c (Pipeline.arrRef spec2 0)) (V c (Pipeline.arrRef spec2 1))
      (V c (Pipeline.arrRef spec2 2)) (V c (Pipeline.arrRef spec2 3)))

/-! ## The node region's outputs -/

include f07 in
theorem selfRes_eq (c : Dev nD) : W2 m ρ c (Proc.devRef .tc main_v14_0)
    = G07 (m ((c : Thread nD τ).loc main_arg0)) (m ((c : Thread nD τ).loc main_arg7)) := by
  refine (W2_arr m ρ c 7).trans ((f07 (V1 m ρ) c).trans ?_)
  show G07 (W1 m ρ c (Proc.devRef .tc main_arg0)) (W1 m ρ c (Proc.devRef .tc main_arg7)) = _
  rw [keep0 m ρ c main_arg0 (by no_write), keep0 m ρ c main_arg7 (by no_write)]

include f08 in
theorem proj_eq (c : Dev nD) : W2 m ρ c (Proc.devRef .tc main_v14_1)
    = G08 (m ((c : Thread nD τ).loc main_arg0)) (m ((c : Thread nD τ).loc main_arg8)) := by
  refine (W2_arr m ρ c 8).trans ((f08 (V1 m ρ) c).trans ?_)
  show G08 (W1 m ρ c (Proc.devRef .tc main_arg0)) (W1 m ρ c (Proc.devRef .tc main_arg8)) = _
  rw [keep0 m ρ c main_arg0 (by no_write), keep0 m ρ c main_arg8 (by no_write)]

include f09 in
theorem scores_eq (c : Dev nD) : W2 m ρ c (Proc.devRef .tc main_v14_2)
    = scores G09 (m ((c : Thread nD τ).loc main_arg0)) (m ((c : Thread nD τ).loc main_arg7)) (m ((c : Thread nD τ).loc main_arg8))
        (m ((c : Thread nD τ).loc main_arg10)) (m ((c : Thread nD τ).loc main_arg11)) (m ((c : Thread nD τ).loc main_arg12)) := by
  refine (W2_arr m ρ c 9).trans ((f09 (V1 m ρ) c).trans ?_)
  show G09 (W1 m ρ c (Proc.devRef .tc main_arg0)) (W1 m ρ c (Proc.devRef .tc main_arg7)) (W1 m ρ c (Proc.devRef .tc main_arg8))
    (W1 m ρ c (Proc.devRef .tc main_v3)) (W1 m ρ c (Proc.devRef .tc main_v5)) (W1 m ρ c (Proc.devRef .tc main_v9))
    (W1 m ρ c (Proc.devRef .tc main_v11)) = _
  rw [keep0 m ρ c main_arg0 (by no_write), keep0 m ρ c main_arg7 (by no_write), keep0 m ρ c main_arg8 (by no_write),
    W1_v3, W1_v5, W1_v9, W1_v11]
  rfl

/-! ## The need-edge region's outputs -/

include f16 in
theorem edgeRows_eq (c : Dev nD) : W4 m ρ c (Proc.devRef .tc main_v33_0)
    = edgeRows G16 (m ((c : Thread nD τ).loc main_arg1)) (m ((c : Thread nD τ).loc main_arg2)) (m ((c : Thread nD τ).loc main_arg3)) (m ((c : Thread nD τ).loc main_arg9)) := by
  refine (W4_arr m ρ c 6).trans ((f16 (V3 m ρ) c).trans ?_)
  show G16 (W3 m ρ c (Proc.devRef .tc main_v25)) (W3 m ρ c (Proc.devRef .tc main_arg2)) (W3 m ρ c (Proc.devRef .tc main_v12)) (W3 m ρ c (Proc.devRef .tc main_v13)) = _
  rw [W3_v25, keep1 m ρ c main_arg2 (by no_write), keep1 m ρ c main_v12 (by no_write), keep1 m ρ c main_v13 (by no_write),
    W2_of_ne m ρ c main_arg1 (by decide), W2_of_ne m ρ c main_arg2 (by decide), W2_of_ne m ρ c main_arg3 (by decide),
    W2_of_ne m ρ c main_v12 (by decide), W2_of_ne m ρ c main_v13 (by decide),
    keep0 m ρ c main_arg1 (by no_write), keep0 m ρ c main_arg2 (by no_write), keep0 m ρ c main_arg3 (by no_write), W1_v12, W1_v13]
  rfl

include f09 f17 in
theorem edgeAtt_eq (c : Dev nD) : W4 m ρ c (Proc.devRef .tc main_v33_1)
    = edgeAtt G17 (scores G09 (m ((c : Thread nD τ).loc main_arg0)) (m ((c : Thread nD τ).loc main_arg7)) (m ((c : Thread nD τ).loc main_arg8)) (m ((c : Thread nD τ).loc main_arg10)) (m ((c : Thread nD τ).loc main_arg11)) (m ((c : Thread nD τ).loc main_arg12))) (m ((c : Thread nD τ).loc main_arg1)) (m ((c : Thread nD τ).loc main_arg2)) (m ((c : Thread nD τ).loc main_arg3)) (m ((c : Thread nD τ).loc main_arg4)) (m ((c : Thread nD τ).loc main_arg9)) (m ((c : Thread nD τ).loc main_arg11)) := by
  refine (W4_arr m ρ c 7).trans ((f17 (V3 m ρ) c).trans ?_)
  show G17 (W3 m ρ c (Proc.devRef .tc main_v25)) (W3 m ρ c (Proc.devRef .tc main_arg2)) (W3 m ρ c (Proc.devRef .tc main_v32)) (W3 m ρ c (Proc.devRef .tc main_v12))
    (W3 m ρ c (Proc.devRef .tc main_v13)) (W3 m ρ c (Proc.devRef .tc main_v7)) = _
  rw [W3_v25, W3_v32, keep1 m ρ c main_arg2 (by no_write), keep1 m ρ c main_v12 (by no_write), keep1 m ρ c main_v13 (by no_write),
    keep1 m ρ c main_v7 (by no_write), scores_eq G09 m ρ f09 c,
    W2_of_ne m ρ c main_arg1 (by decide), W2_of_ne m ρ c main_arg2 (by decide), W2_of_ne m ρ c main_arg3 (by decide),
    W2_of_ne m ρ c main_arg4 (by decide), W2_of_ne m ρ c main_v12 (by decide), W2_of_ne m ρ c main_v13 (by decide),
    W2_of_ne m ρ c main_v7 (by decide),
    keep0 m ρ c main_arg1 (by no_write), keep0 m ρ c main_arg2 (by no_write), keep0 m ρ c main_arg3 (by no_write),
    keep0 m ρ c main_arg4 (by no_write), W1_v12, W1_v13, W1_v7]
  rfl

/-! ## The score columns after the need-edge region -/

include f09 in
theorem col0_eq (c : Dev nD) : W6 m ρ c (Proc.devRef .tc main_v15)
    = col0 (scores G09 (m ((c : Thread nD τ).loc main_arg0)) (m ((c : Thread nD τ).loc main_arg7)) (m ((c : Thread nD τ).loc main_arg8)) (m ((c : Thread nD τ).loc main_arg10)) (m ((c : Thread nD τ).loc main_arg11)) (m ((c : Thread nD τ).loc main_arg12))) := by
  rw [keep2 m ρ c main_v15 (by no_write) (by no_write), W4_of_ne m ρ c main_v15 (by decide), W3_v15, scores_eq G09 m ρ f09 c]

include f09 in
theorem col2_eq (c : Dev nD) : W4 m ρ c (Proc.devRef .tc main_v17)
    = col2 (scores G09 (m ((c : Thread nD τ).loc main_arg0)) (m ((c : Thread nD τ).loc main_arg7)) (m ((c : Thread nD τ).loc main_arg8)) (m ((c : Thread nD τ).loc main_arg10)) (m ((c : Thread nD τ).loc main_arg11)) (m ((c : Thread nD τ).loc main_arg12))) := by
  rw [W4_of_ne m ρ c main_v17 (by decide), W3_v17, scores_eq G09 m ρ f09 c]

include f09 in
theorem col3_eq (c : Dev nD) : W4 m ρ c (Proc.devRef .tc main_v18)
    = col3 (scores G09 (m ((c : Thread nD τ).loc main_arg0)) (m ((c : Thread nD τ).loc main_arg7)) (m ((c : Thread nD τ).loc main_arg8)) (m ((c : Thread nD τ).loc main_arg10)) (m ((c : Thread nD τ).loc main_arg11)) (m ((c : Thread nD τ).loc main_arg12))) := by
  rw [W4_of_ne m ρ c main_v18 (by decide), W3_v18, scores_eq G09 m ρ f09 c]

include f08 in
theorem projRows_eq (c : Dev nD) : W4 m ρ c (Proc.devRef .tc main_v14_1) = G08 (m ((c : Thread nD τ).loc main_arg0)) (m ((c : Thread nD τ).loc main_arg8)) := by
  rw [W4_of_ne m ρ c main_v14_1 (by decide), keep1 m ρ c main_v14_1 (by no_write), proj_eq G08 m ρ f08 c]

/-! ## The result -/

include f07 f08 f09 f16 f17 f24 in
/-- The result buffer after the last region is the kernel's value at the launch arguments. -/
theorem W8_value (c : Dev nD) : W8 m ρ c (Proc.devRef .tc main_v107)
    = value G07 G08 G09 G16 G17 G24 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W8_arr m ρ c 4).trans ((f24 (V7 m ρ) c).trans ?_)
  show G24 (W7 m ρ c (Proc.devRef .tc main_v14_0)) (W7 m ρ c (Proc.devRef .tc main_v82)) (W7 m ρ c (Proc.devRef .tc main_v98)) (W7 m ρ c (Proc.devRef .tc main_v106)) = _
  rw [W7_selfRes, selfRes_eq G07 m ρ f07 c, W7_v82, W7_v98, W7_v106, W6_v60, W6_v40,
    col0_eq G09 m ρ f09 c, col2_eq G09 m ρ f09 c, col3_eq G09 m ρ f09 c, projRows_eq G08 m ρ f08 c,
    keep2 m ρ c main_v33_1 (by no_write) (by no_write), keep2 m ρ c main_v33_0 (by no_write) (by no_write),
    keep2 m ρ c main_arg4 (by no_write) (by no_write), keep2 m ρ c main_arg6 (by no_write) (by no_write),
    edgeAtt_eq G09 G17 m ρ f09 f17 c, edgeRows_eq G16 m ρ f16 c, W4_arg4, W4_arg5, W4_arg6]
  rfl

include f07 f08 f09 f16 f17 f24 in
/-- Every weakly fair execution of the idealized kernel terminates without a fault with its result at the kernel's
    value of the launch arguments, the arguments unchanged. -/
theorem run : θ_run defs (onTc (τ := τ) (main (F := Ideal))) ⟨m, fun _ => 0, ρ⟩ (fun r => ∀ c : Dev nD,
      r.2.mem ((c.tc : Thread nD τ).loc main_v107)
        = value G07 G08 G09 G16 G17 G24 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c).1.trans (W8_value G07 G08 G09 G16 G17 G24 m ρ f07 f08 f09 f16 f17 f24 c), (h c).2⟩)
    (Cert.KernelIdeal.KRun.run_final m ρ)

end

end Cert.KernelIdeal.KValue

end
-- ==== Proof.AttnScalars.lean ====
/-
  Scalar laws on the extended reals used to join the two spellings of a graph-attention layer.

  Every float input is a real number, so every quantity the layer computes from them (matrix products, scores, the
  softmax's exponentials and its normaliser) is a real number too.  On real numbers the extended reals' product
  distributes over the sum, a quotient by a nonzero real is the product with its reciprocal, and the exponential is the
  real exponential.  The last section compares the two spellings of the exponential linear unit.
-/
import Idealize.ShloMosaic.PureOps.Ideal
import Idealize.ShloMosaic.PureOps.Ideal.Laws

noncomputable section

namespace Cert.Attn

open Idealize.ShloMosaic

/-- An extended real that is a real number. -/
def IsReal (x : EReal) : Prop := ∃ r : ℝ, x = (r : EReal)

theorem isReal_coe (r : ℝ) : IsReal (r : EReal) := ⟨r, rfl⟩

theorem isReal_zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.ite {p : Prop} [Decidable p] {x y : EReal} (hx : IsReal x) (hy : IsReal y) : IsReal (if p then x else y) := by
  split <;> assumption

theorem IsReal.exp {x : EReal} (hx : IsReal x) : IsReal (Ideal.exp x) := by
  obtain ⟨a, rfl⟩ := hx; exact ⟨Real.exp a, rfl⟩

theorem IsReal.max {x y : EReal} (hx : IsReal x) (hy : IsReal y) : IsReal (max x y) := by
  rcases max_choice x y with h | h <;> rw [h] <;> assumption

theorem IsReal.sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

theorem IsReal.ne_bot {x : EReal} (hx : IsReal x) : x ≠ ⊥ := by
  obtain ⟨a, rfl⟩ := hx; exact EReal.coe_ne_bot a

theorem IsReal.ne_top {x : EReal} (hx : IsReal x) : x ≠ ⊤ := by
  obtain ⟨a, rfl⟩ := hx; exact EReal.coe_ne_top a

/-- On real numbers the product distributes over the sum. -/
theorem mul_add_of_isReal {x a b : EReal} (hx : IsReal x) (ha : IsReal a) (hb : IsReal b) :
    x * (a + b) = x * a + x * b := by
  obtain ⟨x, rfl⟩ := hx; obtain ⟨a, rfl⟩ := ha; obtain ⟨b, rfl⟩ := hb
  rw [← EReal.coe_add, ← EReal.coe_mul, ← EReal.coe_mul, ← EReal.coe_mul, ← EReal.coe_add, mul_add]

/-- The word of the float one is the number one. -/
theorem ofBits_one_f32 : Ideal.ofBits .f32 0x3F800000#32 = 1 := by
  simp [Ideal.ofBits, Ideal.ieee]
  rw [← EReal.coe_mul, ← EReal.coe_one]
  congr 1
  norm_num

/-- A weight normalised by the product with the reciprocal of a nonzero real total is the quotient by that total. -/
theorem mul_recip_eq_div {e l : EReal} (hl : IsReal l) (hl0 : l ≠ 0) :
    e * Ideal.div (Ideal.ofBits .f32 0x3F800000#32) l = Ideal.div e l := by
  obtain ⟨r, rfl⟩ := hl
  have hr : r ≠ 0 := fun h => hl0 (by rw [h]; rfl)
  rw [Ideal.div_coe hr, Ideal.div_coe hr, ofBits_one_f32, one_mul]

end Cert.Attn

end
-- ==== Proof.AttnFinite.lean ====
/- Every float input is a real number, read off the precondition.

   The precondition is the conjunction, over the nine float arguments, of "every entry has absolute value below the
   word of plus infinity". An extended real whose absolute value `max x (-x)` is below `⊤` is neither `⊤` nor `⊥`,
   so it is a real number. The conjunction is a chain of one-bit `and`s, and each conjunct is an `and`-reduction of
   the entrywise comparison over the whole array, which is `1` only if every entry's comparison is. -/
import proofs.«139946_j74208444940406_2_alg».proof.Pre_finite_inputs
import proofs.«139946_j74208444940406_2_alg».proof.Proof.Gen.Pre_finite_inputs
import proofs.«139946_j74208444940406_2_alg».proof.Proof.AttnScalars
import Idealize.ShloMosaic.Lib.ReduceAll
import Idealize.ShloMosaic.Lib.ValueIdx

noncomputable section

namespace Cert.Attn

open Idealize.ShloMosaic Idealize.ShloMosaic.ValueIdx Cert.Pre_finite_inputs

/-- The f32 word `0x7F800000` is plus infinity. -/
theorem ofBits_inf_f32 : Ideal.ofBits .f32 0x7F800000#32 = ⊤ := by simp [Ideal.ofBits, Ideal.ieee]

/-- A one-bit word made from a Boolean is `1` exactly when the Boolean is true. -/
theorem ofBool_eq_one (b : Bool) : BitVec.ofBool b = 1#1 ↔ b = true := by cases b <;> decide

/-- An extended real whose absolute value is below `⊤` is a real number. -/
theorem isReal_of_abs_lt_top (x : EReal) (h : max x (-x) < ⊤) : IsReal x := by
  induction x using EReal.rec with
  | bot => simp at h
  | coe r => exact ⟨r, rfl⟩
  | top => simp at h

/-- The printed entrywise test — the absolute value compared, ordered and strictly, with the infinity word — holds
    only of a real number. -/
theorem isReal_of_cmp (x : EReal)
    (h : FloatOps.cmpf (F := Ideal) (φ := .f32) .olt (FloatOps.hostAbsf x) (Ideal.ofBits .f32 0x7F800000#32) = 1#1) :
    IsReal x := by
  rw [ofBits_inf_f32] at h
  have h' : Ideal.cmp .olt (max x (-x)) ⊤ = 1#1 := h
  unfold Ideal.cmp at h'
  rw [ofBool_eq_one] at h'
  exact isReal_of_abs_lt_top x (of_decide_eq_true h')

/-- One conjunct of the precondition: if the `and`-reduction over a whole array of the entrywise test is `1`, every
    entry of the array is a real number. -/
theorem all_isReal {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .olt (Host.absf x) (broadcastInDim s ![] hb (constant (F := Ideal) S_ .f32 0x7F800000#32)))
      (constantI S_ 1 1#1) hr hu ix0 = 1#1) (i : s.Idx) : IsReal (x i) :=
  isReal_of_cmp (x i) (Host.reduce_andi_eq_one _ _ hr hu ix0 e i (funext fun d => d.elim0))

/-- THE PRECONDITION DECODED: each of the nine float arguments has only real entries. -/
theorem finite_of_pre [Cert.Pre_finite_inputs.Facts] (a0 : FVec Ideal S50000x128 .f32) (a1 : FVec Ideal S100000x96 .f32)
    (a2 : FVec Ideal S800000x32 .f32) (a3 a4 : IVec S800000 32) (a5 a6 : IVec S400000 32)
    (a7 a8 a9 : FVec Ideal S128x128 .f32) (a10 a11 a12 : FVec Ideal S256x1 .f32)
    (h : Cert.Pre_finite_inputs.fn (F := Ideal) a0 a1 a2 a3 a4 a5 a6 a7 a8 a9 a10 a11 a12 = fun _ => 1#1) :
    (∀ i, IsReal (a0 i)) ∧ (∀ i, IsReal (a1 i)) ∧ (∀ i, IsReal (a2 i)) ∧ (∀ i, IsReal (a7 i)) ∧ (∀ i, IsReal (a8 i))
      ∧ (∀ i, IsReal (a9 i)) ∧ (∀ i, IsReal (a10 i)) ∧ (∀ i, IsReal (a11 i)) ∧ (∀ i, IsReal (a12 i)) := by
  have e := congrFun h ix0
  dsimp only [fn, fn_part1, fn_part2] at e
  simp only [andi, IntOp.andi_eq_one] at e
  obtain ⟨⟨⟨⟨⟨⟨⟨⟨h0, h1⟩, h2⟩, h7⟩, h8⟩, h9⟩, h10⟩, h11⟩, h12⟩ := e
  exact ⟨all_isReal a0 _ _ _ h0, all_isReal a1 _ _ _ h1, all_isReal a2 _ _ _ h2, all_isReal a7 _ _ _ h7,
    all_isReal a8 _ _ _ h8, all_isReal a9 _ _ _ h9, all_isReal a10 _ _ _ h10, all_isReal a11 _ _ _ h11,
    all_isReal a12 _ _ _ h12⟩

end Cert.Attn

end
-- ==== Proof.AttnSpec.lean ====
/-
  The attention layer's per-entry quantities in one normal form, which both programs' arrays are read into.

  With `SR = X · W_self` (the self projection), `a` a [256, 1] attention vector split into its first and second 128
  entries, and row maps `r₃ … r₆` sending an edge to the (wrapped and clamped) row number it takes from a table:
    self logit        lrelu (∑_d SR[p, d] · a_self[d] + ∑_d SR[p, d] · a_self[128 + d])
    need-edge row     ∑_{k < 96} ops[r₃ e, k] · W_op[k, q] + ∑_{k < 32} attr[e, k] · W_op[96 + k, q]
    need-edge logit   lrelu (∑_d SR[r₄ e, d] · a_op[d] + ∑_d row[e, d] · a_op[128 + d])
    same-type row     ∑_k X[r₅ e, k] · W_res[k, q]
    same-type logit   lrelu (∑_d SR[r₆ e, d] · a_res[d] + ∑_d row[e, d] · a_res[128 + d])
-/
import Idealize.ShloMosaic.PureOps.Ideal
import Idealize.ShloMosaic.Lib.ValueIdx

noncomputable section

namespace Cert.Attn

open Idealize.ShloMosaic Idealize.ShloMosaic.ValueIdx

/-- An `n × m` table of extended reals. -/
abbrev Tab (n m : Nat) : Type := (⟨2, ![n, m]⟩ : Shape).Idx → EReal

/-- The leaky unit with the slope word kept as a word: `z` at or above zero, slope times `z` below. -/
def lrelu (z : EReal) : EReal := if 0 ≤ z then z else Ideal.ofBits .f32 0x3E4CCCCD#32 * z

/-- Entry `d` of the first half of a [256, 1] vector. -/
def lo (d : Fin 128) : Fin 256 := ⟨d.val, by omega⟩
/-- Entry `d` of the second half of a [256, 1] vector. -/
def hi (d : Fin 128) : Fin 256 := ⟨128 + d.val, by omega⟩

/-- The row number an edge takes from a table of `N` rows: its start index read signed and clamped into the table. -/
def rowAt {R : Nat} (N : Nat) (hN : 0 < N) (idx : IVec ⟨2, ![R, 1]⟩ 32) (e : Fin R) : Fin N :=
  ⟨min (idx (ix2 e (0 : Fin 1))).toInt.toNat (N - 1), by omega⟩

/-- A table times a [128, 128] weight. -/
def proj {n : Nat} (X : Tab n 128) (W : Tab 128 128) : Tab n 128 :=
  fun i => ∑ k : Fin 128, X (ix2 (i 0) k) * W (ix2 k (i 1))

/-- Row `p` of a table against one half of a [256, 1] vector. -/
def halfDot {n : Nat} (Y : Tab n 128) (a : Tab 256 1) (h : Fin 128 → Fin 256) (p : Fin n) : EReal :=
  ∑ d : Fin 128, Y (ix2 p d) * a (ix2 (h d) (0 : Fin 1))

/-- The self logit of node `p`. -/
def selfLogit (SR : Tab 50000 128) (a : Tab 256 1) (p : Fin 50000) : EReal :=
  lrelu (halfDot SR a lo p + halfDot SR a hi p)

/-- The need-edge row of edge `e`, entry `q`. -/
def needRow (ops : Tab 100000 96) (attr : Tab 800000 32) (W : Tab 128 128) (r₃ : Fin 800000 → Fin 100000) : Tab 800000 128 :=
  fun i => (∑ k : Fin 96, ops (ix2 (r₃ (i 0)) k) * W (ix2 (⟨k.val, by omega⟩ : Fin 128) (i 1)))
    + (∑ k : Fin 32, attr (ix2 (i 0) k) * W (ix2 (⟨96 + k.val, by omega⟩ : Fin 128) (i 1)))

/-- A table's rows taken at a row map. -/
def rowsAt {R N : Nat} (Y : Tab N 128) (r : Fin R → Fin N) : Tab R 128 := fun i => Y (ix2 (r (i 0)) (i 1))

/-- An edge logit: the destination node's half against the first half of the vector, the edge's row against the second. -/
def edgeLogit {R : Nat} (SR : Tab 50000 128) (rows : Tab R 128) (a : Tab 256 1) (r : Fin R → Fin 50000) (e : Fin R) : EReal :=
  lrelu (halfDot (rowsAt SR r) a lo e + halfDot rows a hi e)

end Cert.Attn

end
-- ==== Proof.LibRowGatherScatter.lean ====
/-
  Row gathers and row scatters read at an index.

  `x[idx]` of an array whose first axis has `N` rows, at a flat list of `R` row numbers carried as an `[R, 1]`
  array of start indices, is a `stablehlo.gather` whose result row `r` is operand row `idx[r, 0]`, the start read
  as a signed integer and clamped into `[0, N - 1]` (a flat operand `[N]`, or a matrix `[N, C]` whose rows are
  taken whole).  The accumulating scatter with the same dimension numbers (`segment_sum`: row `r` of the
  updates is added to operand row `idx[r, 0]`, read signed and NOT clamped, an update whose row number leaves
  `[0, N)` being dropped) is, at the extended reals, the operand's element plus the sum over the update rows
  that name this row:  out[p] = x[p] + ∑ r, [idx r = p] · upd[r]   (flat), and
  out[p, q] = x[p, q] + ∑ r, [idx r = p] · upd[r, q]   (rows of width `C`).
-/
import Idealize.ShloMosaic.PureOps.Ideal
import Idealize.ShloMosaic.Lib.ValueIdx

noncomputable section

namespace Idealize.ShloMosaic.RowOps

open Idealize.ShloMosaic Idealize.ShloMosaic.ValueIdx

variable {α : Type}

/-! ## The dimension numbers -/

/-- `x[idx]` of a flat operand `[N]` at `R` row numbers `[R, 1]`: result `[R]`. -/
abbrev rowGather1 (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- `x[idx]` of a matrix `[N, C]` at `R` row numbers `[R, 1]`, rows taken whole: result `[R, C]`. -/
abbrev rowGather2 (N C R : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The scatter of `R` scalars into a flat operand `[N]` at `R` row numbers `[R, 1]`. -/
abbrev rowScatter1 (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- The scatter of `R` rows of width `C` into a matrix `[N, C]` at `R` row numbers `[R, 1]`. -/
abbrev rowScatter2 (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-! ## The gathers at an index -/

/-- Row `r` of a flat row gather: the operand at the row number `idx[r, 0]`, read signed and clamped. -/
theorem gather_rows1_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (y : (⟨1, ![R]⟩ : Shape).Idx) :
    Host.gather (rowGather1 N R wf) x idx y
      = x (ix1 ⟨min (idx (ix2 (y 0) (0 : Fin 1))).toInt.toNat (N - 1), by omega⟩) := by
  unfold Host.gather
  congr 1
  funext a
  obtain rfl : a = 0 := Subsingleton.elim _ _
  refine Fin.ext ?_
  show (rowGather1 N R wf).start y idx 0 + (rowGather1 N R wf).batchCoord y 0 + (rowGather1 N R wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (rowGather1 N R wf).startIndexMap from List.mem_singleton.mpr rfl)]
  have hsi : (rowGather1 N R wf).siIdx y ⟨List.idxOf (0 : Fin 1) (rowGather1 N R wf).startIndexMap,
      List.idxOf_lt_length_iff.2 (List.mem_singleton.mpr rfl)⟩ = ix2 (y 0) (0 : Fin 1) := by
    funext b; refine Fin.ext ?_
    match b with
    | ⟨0, _⟩ => rfl
    | ⟨1, _⟩ => rfl
  rw [hsi]
  rfl

/-- Element `(r, q)` of a whole-row gather: the operand at row `idx[r, 0]` (read signed and clamped), column `q`. -/
theorem gather_rows2_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (y : (⟨2, ![R, C]⟩ : Shape).Idx) :
    Host.gather (rowGather2 N C R wf) x idx y
      = x (ix2 ⟨min (idx (ix2 (y 0) (0 : Fin 1))).toInt.toNat (N - 1), by omega⟩ (y 1)) := by
  unfold Host.gather
  congr 1
  funext a
  refine Fin.ext ?_
  match a with
  | ⟨0, _⟩ =>
    show (rowGather2 N C R wf).start y idx 0 + (rowGather2 N C R wf).batchCoord y 0 + (rowGather2 N C R wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather2 N C R wf).startIndexMap from List.mem_singleton.mpr rfl)]
    have hsi : (rowGather2 N C R wf).siIdx y ⟨List.idxOf (0 : Fin 2) (rowGather2 N C R wf).startIndexMap,
        List.idxOf_lt_length_iff.2 (List.mem_singleton.mpr rfl)⟩ = ix2 (y 0) (0 : Fin 1) := by
      funext b; refine Fin.ext ?_
      match b with
      | ⟨0, _⟩ => rfl
      | ⟨1, _⟩ => rfl
    rw [hsi]
    rfl
  | ⟨1, _⟩ =>
    show (rowGather2 N C R wf).start y idx 1 + (rowGather2 N C R wf).batchCoord y 1 + (rowGather2 N C R wf).offCoord y 1 = (y 1).val
    rw [GatherDims.batchCoord_eq_zero _ _ _ List.not_mem_nil]
    unfold GatherDims.start
    rw [dif_neg (show ¬ (1 : Fin 2) ∈ ([0] : List (Fin 2)) by decide)]
    simp only [Nat.zero_add, Nat.add_zero]
    rfl

/-! ## Where a scattered row lands -/

/-- Update `j` of a flat row scatter lands on element `p` exactly when its row number, read signed, is `p`. -/
theorem scatter_rows1_lands {N R w : Nat} (wf : ScatterDims.WF ⟨1, ![N]⟩ ⟨2, ![R, 1]⟩ ⟨1, ![R]⟩ [] [0] [0] 1)
    (idx : IVec ⟨2, ![R, 1]⟩ w) (j : (⟨1, ![R]⟩ : Shape).Idx) (p : Fin N) :
    (rowScatter1 N R wf).resultIdx? j idx = some (ix1 p) ↔ (idx (ix2 (j 0) (0 : Fin 1))).toInt = (p.val : ℤ) := by
  have hsi : (rowScatter1 N R wf).siIdx j ⟨List.idxOf (0 : Fin 1) (rowScatter1 N R wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  have hstart : ∀ a : Fin 1, (rowScatter1 N R wf).start j idx a = (idx (ix2 (j 0) (0 : Fin 1))).toInt := by
    intro a
    obtain rfl : a = 0 := Subsingleton.elim _ _
    unfold ScatterDims.start
    rw [dif_pos (show (0 : Fin 1) ∈ (rowScatter1 N R wf).scatterDimsToOperandDims from List.mem_singleton.mpr rfl), hsi]
    rfl
  have hwin : ∀ a : Fin 1, (rowScatter1 N R wf).window j a = 0 := by
    intro a
    obtain rfl : a = 0 := Subsingleton.elim _ _
    unfold ScatterDims.window
    rw [dif_neg (show ¬ (0 : Fin 1) ∈ ((⟨1, ![N]⟩ : Shape).kept [0]) by simp [Shape.kept])]
  unfold ScatterDims.resultIdx?
  split
  · next h =>
    have h0 := h 0
    rw [hstart, hwin] at h0
    rw [Option.some.injEq]
    constructor
    · intro e
      have := congrArg (fun f => (f 0).val) e
      simp only [hstart, hwin] at this
      change ((idx (ix2 (j 0) (0 : Fin 1))).toInt + ((0 : Nat) : ℤ)).toNat = p.val at this
      omega
    · intro e
      funext a
      obtain rfl : a = 0 := Subsingleton.elim _ _
      refine Fin.ext ?_
      show ((rowScatter1 N R wf).start j idx 0 + ((rowScatter1 N R wf).window j 0 : ℤ)).toNat = p.val
      rw [hstart, hwin]; omega
  · next h =>
    constructor
    · intro e; cases e
    · intro e
      exfalso; apply h
      intro a
      obtain rfl : a = 0 := Subsingleton.elim _ _
      rw [hstart, hwin]
      have := p.isLt
      show 0 ≤ _ + ((0 : Nat) : ℤ) ∧ _ + ((0 : Nat) : ℤ) < ((N : Nat) : ℤ)
      omega

/-- Update `j` of a whole-row scatter lands on element `(p, q)` exactly when its row number, read signed, is `p`
    and its column is `q`. -/
theorem scatter_rows2_lands {N C R w : Nat} (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) (p : Fin N) (q : Fin C) :
    (rowScatter2 N C R wf).resultIdx? j idx = some (ix2 p q)
      ↔ (idx (ix2 (j 0) (0 : Fin 1))).toInt = (p.val : ℤ) ∧ j 1 = q := by
  have hsi : (rowScatter2 N C R wf).siIdx j ⟨List.idxOf (0 : Fin 2) (rowScatter2 N C R wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  have hstart0 : (rowScatter2 N C R wf).start j idx 0 = (idx (ix2 (j 0) (0 : Fin 1))).toInt := by
    unfold ScatterDims.start
    rw [dif_pos (show (0 : Fin 2) ∈ (rowScatter2 N C R wf).scatterDimsToOperandDims from List.mem_singleton.mpr rfl), hsi]
    rfl
  have hstart1 : (rowScatter2 N C R wf).start j idx 1 = 0 := by
    unfold ScatterDims.start
    rw [dif_neg (show ¬ (1 : Fin 2) ∈ ([0] : List (Fin 2)) by decide)]
  have hwin0 : (rowScatter2 N C R wf).window j 0 = 0 := by
    unfold ScatterDims.window
    rw [dif_neg (show ¬ (0 : Fin 2) ∈ ((⟨2, ![N, C]⟩ : Shape).kept [0]) by simp [Shape.kept])]
  have hwin1 : (rowScatter2 N C R wf).window j 1 = (j 1).val := by
    unfold ScatterDims.window
    rw [dif_pos (show (1 : Fin 2) ∈ ((⟨2, ![N, C]⟩ : Shape).kept [0]) by simp [Shape.kept])]
    rfl
  unfold ScatterDims.resultIdx?
  split
  · next h =>
    have h0 := h 0
    rw [hstart0, hwin0] at h0
    rw [Option.some.injEq]
    constructor
    · intro e
      have e0 := congrArg (fun f => (f 0).val) e
      have e1 := congrArg (fun f => (f 1).val) e
      simp only [hstart0, hwin0, hstart1, hwin1] at e0 e1
      change ((idx (ix2 (j 0) (0 : Fin 1))).toInt + ((0 : Nat) : ℤ)).toNat = p.val at e0
      change ((0 : ℤ) + (((j 1).val : Nat) : ℤ)).toNat = q.val at e1
      refine ⟨by omega, Fin.ext (by omega)⟩
    · rintro ⟨e, rfl⟩
      funext a
      refine Fin.ext ?_
      match a with
      | ⟨0, _⟩ =>
        show ((rowScatter2 N C R wf).start j idx 0 + ((rowScatter2 N C R wf).window j 0 : ℤ)).toNat = p.val
        rw [hstart0, hwin0]; omega
      | ⟨1, _⟩ =>
        show ((rowScatter2 N C R wf).start j idx 1 + ((rowScatter2 N C R wf).window j 1 : ℤ)).toNat = (j 1).val
        rw [hstart1, hwin1]; omega
  · next h =>
    constructor
    · intro e; cases e
    · rintro ⟨e, rfl⟩
      exfalso; apply h
      intro a
      match a with
      | ⟨0, _⟩ =>
        show 0 ≤ (rowScatter2 N C R wf).start j idx 0 + ((rowScatter2 N C R wf).window j 0 : ℤ)
          ∧ (rowScatter2 N C R wf).start j idx 0 + ((rowScatter2 N C R wf).window j 0 : ℤ) < ((N : Nat) : ℤ)
        rw [hstart0, hwin0]
        have := p.isLt
        omega
      | ⟨1, _⟩ =>
        show 0 ≤ (rowScatter2 N C R wf).start j idx 1 + ((rowScatter2 N C R wf).window j 1 : ℤ)
          ∧ (rowScatter2 N C R wf).start j idx 1 + ((rowScatter2 N C R wf).window j 1 : ℤ) < ((C : Nat) : ℤ)
        rw [hstart1, hwin1]
        have : (j 1).val < C := (j 1).isLt
        omega

/-! ## The accumulating scatters at an index -/

/-- A flat index is its one coordinate. -/
def idxEquiv1 {n : Nat} : (⟨1, ![n]⟩ : Shape).Idx ≃ Fin n where
  toFun j := j 0
  invFun a := ix1 a
  left_inv j := (eq_ix1 j).symm
  right_inv _ := rfl

theorem sum_idx1 {M : Type*} [AddCommMonoid M] {n : Nat} (f : (⟨1, ![n]⟩ : Shape).Idx → M) :
    ∑ j, f j = ∑ a : Fin n, f (ix1 a) :=
  (Equiv.sum_comp idxEquiv1.symm f).symm

/-- THE FLAT ROW SCATTER AT `p`: the operand's element plus the updates whose row number is `p`. -/
theorem scatterAdd_rows1_apply {N R w : Nat} (wf : ScatterDims.WF ⟨1, ![N]⟩ ⟨2, ![R, 1]⟩ ⟨1, ![R]⟩ [] [0] [0] 1)
    (x : (⟨1, ![N]⟩ : Shape).Idx → EReal) (idx : IVec ⟨2, ![R, 1]⟩ w) (upd : (⟨1, ![R]⟩ : Shape).Idx → EReal) (p : Fin N) :
    Ideal.hostScatterAdd (rowScatter1 N R wf) x idx upd (ix1 p)
      = x (ix1 p) + ∑ r : Fin R, if (idx (ix2 r (0 : Fin 1))).toInt = (p.val : ℤ) then upd (ix1 r) else 0 := by
  unfold Ideal.hostScatterAdd
  congr 1
  rw [Finset.sum_filter, sum_idx1]
  refine Finset.sum_congr rfl fun r _ => ?_
  exact if_congr (scatter_rows1_lands wf idx (ix1 r) p) rfl rfl

/-- THE WHOLE-ROW SCATTER AT `(p, q)`: the operand's element plus column `q` of the update rows whose row number is `p`. -/
theorem scatterAdd_rows2_apply {N C R w : Nat} (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (p : Fin N) (q : Fin C) :
    Ideal.hostScatterAdd (rowScatter2 N C R wf) x idx upd (ix2 p q)
      = x (ix2 p q) + ∑ r : Fin R, if (idx (ix2 r (0 : Fin 1))).toInt = (p.val : ℤ) then upd (ix2 r q) else 0 := by
  unfold Ideal.hostScatterAdd
  congr 1
  rw [Finset.sum_filter, sum_idx2]
  refine Finset.sum_congr rfl fun r _ => ?_
  have key : ∀ c : Fin C, (rowScatter2 N C R wf).resultIdx? (ix2 r c) idx = some (ix2 p q)
      ↔ ((idx (ix2 r (0 : Fin 1))).toInt = (p.val : ℤ) ∧ c = q) := fun c => scatter_rows2_lands wf idx (ix2 r c) p q
  rw [Finset.sum_congr rfl (fun c _ => if_congr (key c) rfl rfl)]
  by_cases hr : (idx (ix2 r (0 : Fin 1))).toInt = (p.val : ℤ)
  · simp only [hr, true_and, if_true]
    rw [Finset.sum_ite_eq' Finset.univ q (fun c => upd (ix2 r c))]
    simp
  · simp only [hr, false_and, if_false, Finset.sum_const_zero]

end Idealize.ShloMosaic.RowOps

end
-- ==== Proof.KernelAtHost.lean ====
/-
  The host operations around the three regions, read at an entry.

  A [256, 1] attention vector laid as a [1, 128] row reads, at lane `d`, entry `d` of its first half, entry
  `128 + d` of its second half, or the sum of the two (`rowLo_apply`, `rowHi_apply`, `rowSum_apply`). The
  operation weight's first 96 rows and last 32 rows read the weight at row `k` and at row `96 + k`
  (`wTop_apply`, `wBot_apply`). Column `j` of the score table reads the table at `(p, j)` (`col0_apply` …). A row
  gather reads its operand at the row number the edge's start index names, read signed and clamped into the table
  (`opFeat_apply`, `atDst8_apply`, `at4_apply`, `projAt_apply`).
-/
import proofs.«139946_j74208444940406_2_alg».proof.Proof.KernelHost3
import proofs.«139946_j74208444940406_2_alg».proof.Proof.AttnSpec
import proofs.«139946_j74208444940406_2_alg».proof.Proof.LibRowGatherScatter
import Idealize.ShloMosaic.Lib.ValueLayout
import Idealize.ShloMosaic.Lib.Pipeline.Value

noncomputable section

open scoped BigOperators

namespace Cert.KernelIdeal.KAt

open Idealize.ShloMosaic Idealize.ShloMosaic.ValueIdx Idealize.ShloMosaic.RowOps
open Cert.KernelIdeal Cert.KernelIdeal.Gen Cert.KernelIdeal.KHost Cert.Attn

/-- A column of `a` entries recast as a row reads, at `(u, d)`, entry `d`: both sit at position `d` in row-major order. -/
theorem shapeCast_a1_1a_apply {α : Type} {a : ℕ} (x : (⟨2, ![a, 1]⟩ : Shape).Idx → α)
    (h : (⟨2, ![a, 1]⟩ : Shape).ShapeCasts ⟨2, ![1, a]⟩) (u : Fin 1) (d : Fin a) :
    shapeCast ⟨2, ![1, a]⟩ x h (ix2 u d) = x (ix2 d (0 : Fin 1)) :=
  shapeCast_apply x h _ _ (by
    have hu : u.val = 0 := by omega
    rw [Shape.rowMajor_val_two, Shape.rowMajor_val_two]
    show d.val * 1 + 0 = u.val * a + d.val
    rw [hu, Nat.zero_mul, Nat.zero_add, Nat.mul_one, Nat.add_zero])

/-! ## The attention vectors as rows -/

theorem rowLo_apply (a : Tab 256 1) (d : Fin 128) : rowLo a (ix2 (0 : Fin 1) d) = a (ix2 (lo d) (0 : Fin 1)) := by
  unfold rowLo
  refine (shapeCast_a1_1a_apply _ _ 0 d).trans ?_
  exact slice2_axis0_apply 0 a _ d 0 (lo d) (Nat.zero_add _).symm

theorem rowHi_apply (a : Tab 256 1) (d : Fin 128) : rowHi a (ix2 (0 : Fin 1) d) = a (ix2 (hi d) (0 : Fin 1)) := by
  unfold rowHi
  refine (shapeCast_a1_1a_apply _ _ 0 d).trans ?_
  exact slice2_axis0_apply 128 a _ d 0 (hi d) rfl

theorem rowSum_apply (a : Tab 256 1) (d : Fin 128) :
    rowSum a (ix2 (0 : Fin 1) d) = a (ix2 (lo d) (0 : Fin 1)) + a (ix2 (hi d) (0 : Fin 1)) := by
  unfold rowSum
  refine (shapeCast_a1_1a_apply _ _ 0 d).trans ?_
  rw [addf_apply]
  exact congrArg₂ (· + ·) (slice2_axis0_apply 0 a _ d 0 (lo d) (Nat.zero_add _).symm)
    (slice2_axis0_apply 128 a _ d 0 (hi d) rfl)

/-! ## The operation weight's two parts -/

theorem wTop_apply (w : Tab 128 128) (k : Fin 96) (q : Fin 128) :
    wTop w (ix2 k q) = w (ix2 (⟨k.val, by omega⟩ : Fin 128) q) := by
  unfold wTop
  exact slice2_axis0_apply 0 w _ k q _ (Nat.zero_add _).symm

theorem wBot_apply (w : Tab 128 128) (k : Fin 32) (q : Fin 128) :
    wBot w (ix2 k q) = w (ix2 (⟨96 + k.val, by omega⟩ : Fin 128) q) := by
  unfold wBot
  exact slice2_axis0_apply 96 w _ k q _ rfl

/-! ## The score table's columns -/

theorem col0_apply (sc : Tab 50000 4) (p : Fin 50000) : col0 sc (ix2 p (0 : Fin 1)) = sc (ix2 p (0 : Fin 4)) := by
  unfold col0
  exact slice2_axis1_apply 0 sc _ p 0 (0 : Fin 4) rfl

theorem col1_apply (sc : Tab 50000 4) (p : Fin 50000) : col1 sc (ix2 p (0 : Fin 1)) = sc (ix2 p (1 : Fin 4)) := by
  unfold col1
  exact slice2_axis1_apply 1 sc _ p 0 (1 : Fin 4) rfl

theorem col2_apply (sc : Tab 50000 4) (p : Fin 50000) : col2 sc (ix2 p (0 : Fin 1)) = sc (ix2 p (2 : Fin 4)) := by
  unfold col2
  exact slice2_axis1_apply 2 sc _ p 0 (2 : Fin 4) rfl

theorem col3_apply (sc : Tab 50000 4) (p : Fin 50000) : col3 sc (ix2 p (0 : Fin 1)) = sc (ix2 p (3 : Fin 4)) := by
  unfold col3
  exact slice2_axis1_apply 3 sc _ p 0 (3 : Fin 4) rfl

/-! ## The row gathers -/

/-- The operation features at a need edge: the operations' row the edge's source index names. -/
theorem opFeat_apply (ops : Tab 100000 96) (i3 : IVec S800000 32) (e : Fin 800000) (k : Fin 96) :
    opFeat ops i3 (ix2 e k) = ops (ix2 (rowAt 100000 (by decide) (wrap8 100000#32 i3) e) k) := by
  unfold opFeat
  exact gather_rows2_apply (N := 100000) (C := 96) (R := 800000) (by decide)
    gather_S100000x96_S800000x1_S800000x96_1_0_n_n_0_1_196_wf ops (wrap8 100000#32 i3) (ix2 e k)

/-- A per-node score at a need edge: the score of the node the edge's destination index names. -/
theorem atDst8_apply (s : Tab 50000 1) (i4 : IVec S800000 32) (e : Fin 800000) :
    atDst8 s i4 (ix2 e (0 : Fin 1)) = s (ix2 (rowAt 50000 (by decide) (wrap8 50000#32 i4) e) (0 : Fin 1)) := by
  unfold atDst8
  exact gather_rows2_apply (N := 50000) (C := 1) (R := 800000) (by decide)
    gather_S50000x1_S800000x1_S800000x1_1_0_n_n_0_1_11_wf s (wrap8 50000#32 i4) (ix2 e (0 : Fin 1))

/-- A per-node score at a same-type edge. -/
theorem at4_apply (s : Tab 50000 1) (i : IVec S400000 32) (e : Fin 400000) :
    at4 s i (ix2 e (0 : Fin 1)) = s (ix2 (rowAt 50000 (by decide) (wrap4 50000#32 i) e) (0 : Fin 1)) := by
  unfold at4
  exact gather_rows2_apply (N := 50000) (C := 1) (R := 400000) (by decide)
    gather_S50000x1_S400000x1_S400000x1_1_0_n_n_0_1_11_wf s (wrap4 50000#32 i) (ix2 e (0 : Fin 1))

/-- A projected row at a same-type edge: the row of the node the edge's source index names. -/
theorem projAt_apply (pr : Tab 50000 128) (i5 : IVec S400000 32) (e : Fin 400000) (q : Fin 128) :
    projAt pr i5 (ix2 e q) = pr (ix2 (rowAt 50000 (by decide) (wrap4 50000#32 i5) e) q) := by
  unfold projAt
  exact gather_rows2_apply (N := 50000) (C := 128) (R := 400000) (by decide)
    gather_S50000x128_S400000x1_S400000x128_1_0_n_n_0_1_1128_wf pr (wrap4 50000#32 i5) (ix2 e q)

end Cert.KernelIdeal.KAt

end
-- ==== Proof.KernelAtNode.lean ====
/-
  The node region's tables in the shared normal form.

  The two projections are `proj` of the node table and a weight. The score table's columns, read at node `p`:
  column 0 is the leaky unit of the self projection's row `p` against the SUM of the two halves of the self
  attention vector (the kernel folds the halves before the region); column 1 and column 2 are that row against the
  first half of the operation and of the same-type attention vector; column 3 is the neighbour projection's row
  against the second half of the same-type vector. The leaky unit written as a comparison and a choice is the one
  written as an `if`.
-/
import proofs.«139946_j74208444940406_2_alg».proof.Proof.KernelAtHost
import proofs.«139946_j74208444940406_2_alg».proof.Proof.Region0Spec
import proofs.«139946_j74208444940406_2_alg».proof.Proof.Region1Spec

noncomputable section

open scoped BigOperators

namespace Cert.KernelIdeal.KAt

open Idealize.ShloMosaic Idealize.ShloMosaic.ValueIdx
open Cert.KernelIdeal Cert.KernelIdeal.Gen Cert.KernelIdeal.KHost Cert.Attn

/-! ## The leaky unit's three spellings -/

theorem lrelu0_eq (z : EReal) : Region0.lrelu z = lrelu z := (Region0.lrelu_eq z).trans rfl

theorem lrelu1_eq (z : EReal) : Region1.lrelu z = lrelu z := rfl

/-! ## The two projections -/

theorem G0_7_eq_proj (a0 : Tab 50000 128) (a7 : Tab 128 128) : Region0.G0_7 a0 a7 = proj a0 a7 := rfl

theorem G0_8_eq_proj (a0 : Tab 50000 128) (a8 : Tab 128 128) : Region0.G0_8 a0 a8 = proj a0 a8 := rfl

/-! ## The score columns at a node -/

/-- Column 0: the leaky unit of the self projection's row against the folded self attention vector. -/
theorem col0_scores (a0 : Tab 50000 128) (a7 a8 : Tab 128 128) (a10 a11 a12 : Tab 256 1) (p : Fin 50000) :
    col0 (Region0.G0_9 a0 a7 a8 (rowSum a10) (rowLo a11) (rowLo a12) (rowHi a12)) (ix2 p (0 : Fin 1))
      = lrelu (∑ d : Fin 128, proj a0 a7 (ix2 p d) * (a10 (ix2 (lo d) (0 : Fin 1)) + a10 (ix2 (hi d) (0 : Fin 1)))) := by
  rw [col0_apply, Region0.G0_9_apply_0, lrelu0_eq]
  refine congrArg lrelu (Finset.sum_congr rfl fun d _ => ?_)
  rw [rowSum_apply]
  rfl

/-- Column 1: the self projection's row against the first half of the operation attention vector. -/
theorem col1_scores (a0 : Tab 50000 128) (a7 a8 : Tab 128 128) (a10 a11 a12 : Tab 256 1) (p : Fin 50000) :
    col1 (Region0.G0_9 a0 a7 a8 (rowSum a10) (rowLo a11) (rowLo a12) (rowHi a12)) (ix2 p (0 : Fin 1)) = halfDot (proj a0 a7) a11 lo p := by
  rw [col1_apply, Region0.G0_9_apply_1]
  unfold halfDot
  refine Finset.sum_congr rfl fun d _ => ?_
  rw [rowLo_apply]
  rfl

/-- Column 2: the self projection's row against the first half of the same-type attention vector. -/
theorem col2_scores (a0 : Tab 50000 128) (a7 a8 : Tab 128 128) (a10 a11 a12 : Tab 256 1) (p : Fin 50000) :
    col2 (Region0.G0_9 a0 a7 a8 (rowSum a10) (rowLo a11) (rowLo a12) (rowHi a12)) (ix2 p (0 : Fin 1)) = halfDot (proj a0 a7) a12 lo p := by
  rw [col2_apply, Region0.G0_9_apply_2]
  unfold halfDot
  refine Finset.sum_congr rfl fun d _ => ?_
  rw [rowLo_apply]
  rfl

/-- Column 3: the neighbour projection's row against the second half of the same-type attention vector. -/
theorem col3_scores (a0 : Tab 50000 128) (a7 a8 : Tab 128 128) (a10 a11 a12 : Tab 256 1) (p : Fin 50000) :
    col3 (Region0.G0_9 a0 a7 a8 (rowSum a10) (rowLo a11) (rowLo a12) (rowHi a12)) (ix2 p (0 : Fin 1)) = halfDot (proj a0 a8) a12 hi p := by
  rw [col3_apply, Region0.G0_9_apply_3]
  unfold halfDot
  refine Finset.sum_congr rfl fun d _ => ?_
  rw [rowHi_apply]
  rfl

end Cert.KernelIdeal.KAt

end
-- ==== Proof.KernelAtEdge.lean ====
/-
  The need-edge region's tables in the shared normal form.

  An edge's projected row is the operations' row its source index names against the first 96 rows of the operation
  weight, plus its own attribute row against the last 32 rows (`needRows_eq`). Its logit is the leaky unit of the
  destination node's score — column 1 of the node scores, read at the node the destination index names: the self
  projection's row against the first half of the operation attention vector — plus the projected row against the
  second half (`needLogit_eq`).
-/
import proofs.«139946_j74208444940406_2_alg».proof.Proof.KernelAtNode

noncomputable section

open scoped BigOperators

namespace Cert.KernelIdeal.KAt

open Idealize.ShloMosaic Idealize.ShloMosaic.ValueIdx
open Cert.KernelIdeal Cert.KernelIdeal.Gen Cert.KernelIdeal.KHost Cert.Attn

/-- The need edges' projected rows. -/
theorem needRows_eq (a1 : Tab 100000 96) (a2 : Tab 800000 32) (a3 : IVec S800000 32) (a9 : Tab 128 128) :
    Region1.G1_6 (opFeat a1 a3) a2 (wTop a9) (wBot a9)
      = needRow a1 a2 a9 (rowAt 100000 (by decide) (wrap8 100000#32 a3)) := by
  funext i
  obtain ⟨e, q, rfl⟩ : ∃ (e : Fin 800000) (q : Fin 128), i = ix2 e q := ⟨i 0, i 1, eq_ix2 i⟩
  rw [Region1.G1_6_apply]
  show _ = (∑ k : Fin 96, a1 (ix2 (rowAt 100000 (by decide) (wrap8 100000#32 a3) e) k) * a9 (ix2 (⟨k.val, by omega⟩ : Fin 128) q))
    + (∑ k : Fin 32, a2 (ix2 e k) * a9 (ix2 (⟨96 + k.val, by omega⟩ : Fin 128) q))
  refine congrArg₂ (· + ·) (Finset.sum_congr rfl fun k _ => ?_) (Finset.sum_congr rfl fun k _ => ?_)
  · rw [opFeat_apply, wTop_apply]
  · rw [wBot_apply]

/-- The need edges' logits. -/
theorem needLogit_eq (a0 : Tab 50000 128) (a1 : Tab 100000 96) (a2 : Tab 800000 32) (a3 a4 : IVec S800000 32)
    (a7 a8 a9 : Tab 128 128) (a10 a11 a12 : Tab 256 1) (e : Fin 800000) :
    Region1.G1_7 (opFeat a1 a3) a2 (atDst8 (col1 (Region0.G0_9 a0 a7 a8 (rowSum a10) (rowLo a11) (rowLo a12) (rowHi a12))) a4) (wTop a9) (wBot a9) (rowHi a11) (ix2 e (0 : Fin 1))
      = edgeLogit (proj a0 a7) (needRow a1 a2 a9 (rowAt 100000 (by decide) (wrap8 100000#32 a3))) a11
          (rowAt 50000 (by decide) (wrap8 50000#32 a4)) e := by
  rw [Region1.G1_7_apply, needRows_eq, lrelu1_eq, atDst8_apply, col1_scores]
  unfold edgeLogit
  refine congrArg lrelu (congrArg₂ (· + ·) rfl ?_)
  unfold halfDot
  refine Finset.sum_congr rfl fun d _ => ?_
  rw [rowHi_apply]

end Cert.KernelIdeal.KAt

end
-- ==== Proof.KernelAtSame.lean ====
/-
  The same-type edges' rows and logits in the shared normal form.

  An edge's row is the neighbour projection's row at the node its source index names (`sameRows_eq`). Its logit is
  the leaky unit of two gathered node scores added: column 2 at the destination node — the self projection's row
  against the first half of the same-type attention vector — plus column 3 at the source node — the neighbour
  projection's row against the second half (`sameLogit_eq`).
-/
import proofs.«139946_j74208444940406_2_alg».proof.Proof.KernelAtNode

noncomputable section

open scoped BigOperators

namespace Cert.KernelIdeal.KAt

open Idealize.ShloMosaic Idealize.ShloMosaic.ValueIdx
open Cert.KernelIdeal Cert.KernelIdeal.Gen Cert.KernelIdeal.KHost Cert.Attn

/-- The same-type edges' rows. -/
theorem sameRows_eq (a0 : Tab 50000 128) (a8 : Tab 128 128) (a5 : IVec S400000 32) :
    projAt (proj a0 a8) a5 = rowsAt (proj a0 a8) (rowAt 50000 (by decide) (wrap4 50000#32 a5)) := by
  funext i
  obtain ⟨e, q, rfl⟩ : ∃ (e : Fin 400000) (q : Fin 128), i = ix2 e q := ⟨i 0, i 1, eq_ix2 i⟩
  exact projAt_apply (proj a0 a8) a5 e q

/-- The comparison and the choice the host takes entrywise are the leaky unit of the entry. -/
theorem resAtt_apply (s2 s3 : Tab 50000 1) (i5 i6 : IVec S400000 32) (e : Fin 400000) :
    resAtt s2 s3 i5 i6 (ix2 e (0 : Fin 1))
      = lrelu (at4 s2 i6 (ix2 e (0 : Fin 1)) + at4 s3 i5 (ix2 e (0 : Fin 1))) :=
  (show resAtt s2 s3 i5 i6 (ix2 e (0 : Fin 1))
      = Region0.lrelu (at4 s2 i6 (ix2 e (0 : Fin 1)) + at4 s3 i5 (ix2 e (0 : Fin 1))) from rfl).trans (lrelu0_eq _)

/-- The same-type edges' logits. -/
theorem sameLogit_eq (a0 : Tab 50000 128) (a5 a6 : IVec S400000 32) (a7 a8 : Tab 128 128) (a10 a11 a12 : Tab 256 1)
    (e : Fin 400000) :
    resAtt (col2 (Region0.G0_9 a0 a7 a8 (rowSum a10) (rowLo a11) (rowLo a12) (rowHi a12))) (col3 (Region0.G0_9 a0 a7 a8 (rowSum a10) (rowLo a11) (rowLo a12) (rowHi a12))) a5 a6 (ix2 e (0 : Fin 1))
      = edgeLogit (proj a0 a7) (rowsAt (proj a0 a8) (rowAt 50000 (by decide) (wrap4 50000#32 a5))) a12
          (rowAt 50000 (by decide) (wrap4 50000#32 a6)) e := by
  rw [resAtt_apply, at4_apply, at4_apply, col2_scores, col3_scores]
  rfl

end Cert.KernelIdeal.KAt

end
-- ==== Proof.RefAtOps.lean ====
/- The reference's pointwise and row-taking operations at one entry.

   The reference's leaky unit is a select on the comparison with a broadcast zero between the entry and a broadcast
   slope times the entry: at any entry that is the leaky unit of the entry. Each of its row gathers takes, for result
   row `r`, the operand's row whose number is the start index of `r` read signed and clamped into the table, with
   the row's columns kept. -/
import proofs.«139946_j74208444940406_2_alg».proof.Proof.RefValueDefs
import proofs.«139946_j74208444940406_2_alg».proof.Proof.AttnSpec
import proofs.«139946_j74208444940406_2_alg».proof.Proof.LibRowGatherScatter
import Idealize.ShloMosaic.PureOps.Ideal.Laws
import Idealize.ShloMosaic.Lib.ValueIdx

noncomputable section

namespace Cert.ReferenceIdeal.RefAt

open Idealize.ShloMosaic Idealize.ShloMosaic.ValueIdx Cert.ReferenceIdeal Cert.ReferenceIdeal.RefRun Cert.Attn

variable [Cert.ReferenceIdeal.Facts]
open Cert.ReferenceIdeal.Facts₀ Cert.ReferenceIdeal.Facts

/-- The select on `z ≥ 0` (against the zero word) between `z` and the slope word times `z` is the leaky unit of `z`. -/
theorem select_eq_lrelu (z : EReal) :
    Scalar.select (FloatOps.cmpf (F := Ideal) (φ := .f32) .oge z (Ideal.ofBits .f32 0x00000000#32)) z
      (Ideal.ofBits .f32 0x3E4CCCCD#32 * z) = Cert.Attn.lrelu z := by
  rw [Ideal.ofBits_zero_f32]
  unfold Cert.Attn.lrelu Scalar.select
  show (if Ideal.cmp .oge z 0 = 1 then _ else _) = _
  unfold Ideal.cmp
  by_cases h : (0 : EReal) ≤ z
  · simp [h]
  · simp [h]

/-- The reference's leaky unit on a tensor of any shape, at an entry. -/
theorem lrelu_apply {s : Shape} (h : S_.BroadcastsInDim s (![] : Fin 0 → Fin s.rank)) (x : FVec Ideal s .f32) (i : s.Idx) :
    RefRun.lrelu h x i = Cert.Attn.lrelu (x i) :=
  select_eq_lrelu (x i)

/-- The gathered operation features: row `e` is the operations table's row `rowAt e`. -/
theorem opFeat_apply (a1 : FVec Ideal S100000x96 .f32) (i : IVec S800000x1 32) (e : Fin 800000) (k : Fin 96) :
    opFeat a1 i (ix2 e k) = a1 (ix2 (rowAt 100000 (by decide) i e) k) :=
  RowOps.gather_rows2_apply (N := 100000) (C := 96) (R := 800000) (by decide)
    gather_S100000x96_S800000x1_S800000x96_1_0_n_n_0_1_196_wf a1 i (ix2 e k)

/-- The destination nodes' self features of the need edges: row `e` is the self table's row `rowAt e`. -/
theorem resEdge_apply (SR : FVec Ideal S50000x128 .f32) (i : IVec S800000x1 32) (e : Fin 800000) (d : Fin 128) :
    resEdge SR i (ix2 e d) = SR (ix2 (rowAt 50000 (by decide) i e) d) :=
  RowOps.gather_rows2_apply (N := 50000) (C := 128) (R := 800000) (by decide)
    gather_S50000x128_S800000x1_S800000x128_1_0_n_n_0_1_1128_wf SR i (ix2 e d)

/-- The same-type edges' gathered rows: row `e` is the table's row `rowAt e`. -/
theorem res2_apply (SR : FVec Ideal S50000x128 .f32) (i : IVec S400000x1 32) (e : Fin 400000) (d : Fin 128) :
    res2 SR i (ix2 e d) = SR (ix2 (rowAt 50000 (by decide) i e) d) :=
  RowOps.gather_rows2_apply (N := 50000) (C := 128) (R := 400000) (by decide)
    gather_S50000x128_S400000x1_S400000x128_1_0_n_n_0_1_1128_wf SR i (ix2 e d)

end Cert.ReferenceIdeal.RefAt

end
-- ==== Proof.RefDense.lean ====
/- The reference's matrix products, read at one entry.

   At the extended reals a host matrix product with one contracted axis is, entry by entry, the plain sum over that
   axis of the products of the operands' entries. When the left operand is a concatenation of two arrays along the
   contracted axis, the sum splits into the sum over the first array's columns against the leading rows of the
   right operand plus the sum over the second array's columns against the following rows. Only the laws of a
   commutative monoid are used: nothing here needs the entries to be finite. -/
import proofs.«139946_j74208444940406_2_alg».proof.ReferenceIdeal
import Idealize.ShloMosaic.PureOps.Ideal.Laws
import Idealize.ShloMosaic.Lib.ValueIdx
import Idealize.ShloMosaic.Lib.Pipeline.Value

noncomputable section

open scoped BigOperators

namespace Cert.ReferenceIdeal.Dense

open Idealize.ShloMosaic Idealize.ShloMosaic.ValueIdx Cert.ReferenceIdeal

variable [Cert.ReferenceIdeal.Facts]
open Cert.ReferenceIdeal.Facts₀ Cert.ReferenceIdeal.Facts

/-! ## A rows-by-columns product at an entry -/

/-- A host product of an `[M, K]` array with a `[K, N]` array whose dimension numbers contract the one shared
    axis (`hL`, `hR`: the operand indices at result entry `(p, q)` and contraction position `k` are `(p, k)` and
    `(k, q)`) is at `(p, q)` the sum over `k` of the products. -/
theorem dot_apply_of {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hL : ∀ (p : Fin M) (q : Fin N) (k : Fin K), D.lhsIdx (ix2 p q) ((contrEquiv1 D K hr hs).symm k) = ix2 p k)
    (hR : ∀ (p : Fin M) (q : Fin N) (k : Fin K), D.rhsIdx (ix2 p q) ((contrEquiv1 D K hr hs).symm k) = ix2 k q)
    (l : FVec Ideal ⟨2, ![M, K]⟩ φ₁) (r : FVec Ideal ⟨2, ![K, N]⟩ φ₂) (p : Fin M) (q : Fin N) :
    Host.dotGeneral D none l r (ix2 p q) = ∑ k : Fin K, l (ix2 p k) * r (ix2 k q) := by
  refine (Ideal.dotGeneral_apply D none .single l r (ix2 p q)).trans ?_
  rw [← Equiv.sum_comp (contrEquiv1 D K hr hs).symm]
  refine Finset.sum_congr rfl fun k _ => ?_
  rw [hL p q k, hR p q k]

/-- The self projection `[50000, 128] · [128, 128]` at an entry. -/
theorem dot_50000x128_apply (x : FVec Ideal S50000x128 .f32) (w : FVec Ideal S128x128 .f32) (p : Fin 50000) (q : Fin 128) :
    Host.dotGeneral dot_S50000x128_S128x128_S50000x128_1_0_0_1_n_n none x w (ix2 p q)
      = ∑ k : Fin 128, x (ix2 p k) * w (ix2 k q) :=
  dot_apply_of dot_S50000x128_S128x128_S50000x128_1_0_0_1_n_n rfl rfl
    (fun p q k => funext fun a => Fin.ext (by match a with | ⟨0, _⟩ => rfl | ⟨1, _⟩ => rfl))
    (fun p q k => funext fun a => Fin.ext (by match a with | ⟨0, _⟩ => rfl | ⟨1, _⟩ => rfl)) x w p q

/-- The same-edge projection `[400000, 128] · [128, 128]` at an entry. -/
theorem dot_400000x128_apply (x : FVec Ideal S400000x128 .f32) (w : FVec Ideal S128x128 .f32) (p : Fin 400000) (q : Fin 128) :
    Host.dotGeneral dot_S400000x128_S128x128_S400000x128_1_0_0_1_n_n none x w (ix2 p q)
      = ∑ k : Fin 128, x (ix2 p k) * w (ix2 k q) :=
  dot_apply_of dot_S400000x128_S128x128_S400000x128_1_0_0_1_n_n rfl rfl
    (fun p q k => funext fun a => Fin.ext (by match a with | ⟨0, _⟩ => rfl | ⟨1, _⟩ => rfl))
    (fun p q k => funext fun a => Fin.ext (by match a with | ⟨0, _⟩ => rfl | ⟨1, _⟩ => rfl)) x w p q

/-! ## A product whose left operand is two arrays side by side -/

/-- The sum over the columns of two arrays set side by side (`A` columns, then `B`), each entry against the matching
    row of `r`, is the sum over the first array's columns against rows `0 … A - 1` plus the sum over the second's
    against rows `A … A + B - 1`. -/
theorem cat_sum {M A B K N : ℕ} (hK : A + B = K) (x : (⟨2, ![M, A]⟩ : Shape).Idx → EReal) (y : (⟨2, ![M, B]⟩ : Shape).Idx → EReal)
    (h : Shape.Concatenates [(⟨2, ![M, A]⟩ : Shape), ⟨2, ![M, B]⟩] ⟨2, ![M, K]⟩ 1)
    (r : (⟨2, ![K, N]⟩ : Shape).Idx → EReal) (p : Fin M) (q : Fin N) :
    (∑ k : Fin K, concatenate ⟨2, ![M, K]⟩ 1 [⟨⟨2, ![M, A]⟩, x⟩, ⟨⟨2, ![M, B]⟩, y⟩] h (ix2 p k) * r (ix2 k q))
      = (∑ d : Fin A, x (ix2 p d) * r (ix2 (⟨d.val, by have := d.isLt; omega⟩ : Fin K) q))
        + ∑ d : Fin B, y (ix2 p d) * r (ix2 (⟨A + d.val, by have := d.isLt; omega⟩ : Fin K) q) := by
  subst hK
  refine (Fin.sum_univ_add _).trans ?_
  refine congrArg₂ (· + ·) (Finset.sum_congr rfl fun d _ => ?_) (Finset.sum_congr rfl fun d _ => ?_)
  · refine congrArg₂ (· * ·) ?_ rfl
    exact concatenate_pair_apply_left 1 x y h (ix2 p (Fin.castAdd B d)) rfl (ix2 p d)
      (fun b => by match b with | ⟨0, _⟩ => rfl | ⟨1, _⟩ => rfl)
  · refine congrArg₂ (· * ·) ?_ rfl
    exact concatenate_pair_apply_right 1 x y h (ix2 p (Fin.natAdd A d)) rfl rfl (ix2 p d)
      (fun b hb => by match b, hb with | ⟨0, _⟩, _ => rfl | ⟨1, _⟩, hb => exact absurd (Fin.ext rfl) hb)
      (by show d.val + A = A + d.val; omega)

/-- The self score: the doubled self features `[x | y]` (128 + 128 columns) against the 256-row attention column. -/
theorem dot_50000x256_cat_apply (x y : FVec Ideal S50000x128 .f32) (a : FVec Ideal S256x1 .f32) (p : Fin 50000) :
    Host.dotGeneral dot_S50000x256_S256x1_S50000x1_1_0_0_1_n_n none
        (concatenate S50000x256 1 [⟨S50000x128, x⟩, ⟨S50000x128, y⟩] concatenates_S50000x128_S50000x128_S50000x256_d1) a
        (ix2 p (0 : Fin 1))
      = (∑ d : Fin 128, x (ix2 p d) * a (ix2 (⟨d.val, by have := d.isLt; omega⟩ : Fin 256) (0 : Fin 1)))
        + ∑ d : Fin 128, y (ix2 p d) * a (ix2 (⟨128 + d.val, by have := d.isLt; omega⟩ : Fin 256) (0 : Fin 1)) :=
  (dot_apply_of dot_S50000x256_S256x1_S50000x1_1_0_0_1_n_n rfl rfl
    (fun p q k => funext fun a => Fin.ext (by match a with | ⟨0, _⟩ => rfl | ⟨1, _⟩ => rfl))
    (fun p q k => funext fun a => Fin.ext (by match a with | ⟨0, _⟩ => rfl | ⟨1, _⟩ => rfl)) _ a p 0).trans
    (cat_sum (A := 128) (B := 128) rfl x y concatenates_S50000x128_S50000x128_S50000x256_d1 a p 0)

/-- The need-edge score: `[x | y]` over the 800000 edges against the 256-row attention column. -/
theorem dot_800000x256_cat_apply (x y : FVec Ideal S800000x128 .f32) (a : FVec Ideal S256x1 .f32) (p : Fin 800000) :
    Host.dotGeneral dot_S800000x256_S256x1_S800000x1_1_0_0_1_n_n none
        (concatenate S800000x256 1 [⟨S800000x128, x⟩, ⟨S800000x128, y⟩] concatenates_S800000x128_S800000x128_S800000x256_d1) a
        (ix2 p (0 : Fin 1))
      = (∑ d : Fin 128, x (ix2 p d) * a (ix2 (⟨d.val, by have := d.isLt; omega⟩ : Fin 256) (0 : Fin 1)))
        + ∑ d : Fin 128, y (ix2 p d) * a (ix2 (⟨128 + d.val, by have := d.isLt; omega⟩ : Fin 256) (0 : Fin 1)) :=
  (dot_apply_of dot_S800000x256_S256x1_S800000x1_1_0_0_1_n_n rfl rfl
    (fun p q k => funext fun a => Fin.ext (by match a with | ⟨0, _⟩ => rfl | ⟨1, _⟩ => rfl))
    (fun p q k => funext fun a => Fin.ext (by match a with | ⟨0, _⟩ => rfl | ⟨1, _⟩ => rfl)) _ a p 0).trans
    (cat_sum (A := 128) (B := 128) rfl x y concatenates_S800000x128_S800000x128_S800000x256_d1 a p 0)

/-- The same-edge score: `[x | y]` over the 400000 edges against the 256-row attention column. -/
theorem dot_400000x256_cat_apply (x y : FVec Ideal S400000x128 .f32) (a : FVec Ideal S256x1 .f32) (p : Fin 400000) :
    Host.dotGeneral dot_S400000x256_S256x1_S400000x1_1_0_0_1_n_n none
        (concatenate S400000x256 1 [⟨S400000x128, x⟩, ⟨S400000x128, y⟩] concatenates_S400000x128_S400000x128_S400000x256_d1) a
        (ix2 p (0 : Fin 1))
      = (∑ d : Fin 128, x (ix2 p d) * a (ix2 (⟨d.val, by have := d.isLt; omega⟩ : Fin 256) (0 : Fin 1)))
        + ∑ d : Fin 128, y (ix2 p d) * a (ix2 (⟨128 + d.val, by have := d.isLt; omega⟩ : Fin 256) (0 : Fin 1)) :=
  (dot_apply_of dot_S400000x256_S256x1_S400000x1_1_0_0_1_n_n rfl rfl
    (fun p q k => funext fun a => Fin.ext (by match a with | ⟨0, _⟩ => rfl | ⟨1, _⟩ => rfl))
    (fun p q k => funext fun a => Fin.ext (by match a with | ⟨0, _⟩ => rfl | ⟨1, _⟩ => rfl)) _ a p 0).trans
    (cat_sum (A := 128) (B := 128) rfl x y concatenates_S400000x128_S400000x128_S400000x256_d1 a p 0)

/-- The need-edge projection: the gathered operation features and the edge attributes side by side (96 + 32 columns)
    against the 128-row weight matrix. -/
theorem dot_800000x128_cat_apply (f : FVec Ideal S800000x96 .f32) (g : FVec Ideal S800000x32 .f32)
    (w : FVec Ideal S128x128 .f32) (e : Fin 800000) (q : Fin 128) :
    Host.dotGeneral dot_S800000x128_S128x128_S800000x128_1_0_0_1_n_n none
        (concatenate S800000x128 1 [⟨S800000x96, f⟩, ⟨S800000x32, g⟩] concatenates_S800000x96_S800000x32_S800000x128_d1) w
        (ix2 e q)
      = (∑ k : Fin 96, f (ix2 e k) * w (ix2 (⟨k.val, by have := k.isLt; omega⟩ : Fin 128) q))
        + ∑ k : Fin 32, g (ix2 e k) * w (ix2 (⟨96 + k.val, by have := k.isLt; omega⟩ : Fin 128) q) :=
  (dot_apply_of dot_S800000x128_S128x128_S800000x128_1_0_0_1_n_n rfl rfl
    (fun p q k => funext fun a => Fin.ext (by match a with | ⟨0, _⟩ => rfl | ⟨1, _⟩ => rfl))
    (fun p q k => funext fun a => Fin.ext (by match a with | ⟨0, _⟩ => rfl | ⟨1, _⟩ => rfl)) _ w e q).trans
    (cat_sum (A := 96) (B := 32) rfl f g concatenates_S800000x96_S800000x32_S800000x128_d1 w e q)

end Cert.ReferenceIdeal.Dense

end
-- ==== Proof.RefAtStages.lean ====
/- The reference's stages read into the layer's normal form.

   Each matrix product of the reference is, entry by entry, a plain sum of products; a product over two arrays set
   side by side splits into the two halves of the attention vector (or of the weight matrix); a gathered operand reads
   the table at the row the edge names. Put together, the self projection is the table times its weight, each logit
   is the leaky unit of two half dot products, the need-edge row is the two-part sum over operation features and
   edge attributes, and the same-type row is the projected table taken at the edge's source row. -/
import proofs.«139946_j74208444940406_2_alg».proof.Proof.RefAtOps
import proofs.«139946_j74208444940406_2_alg».proof.Proof.RefDense

noncomputable section

open scoped BigOperators

namespace Cert.ReferenceIdeal.RefAt

open Idealize.ShloMosaic Idealize.ShloMosaic.ValueIdx Cert.ReferenceIdeal Cert.ReferenceIdeal.RefRun Cert.Attn

variable [Cert.ReferenceIdeal.Facts]
open Cert.ReferenceIdeal.Facts₀ Cert.ReferenceIdeal.Facts

/-- (a) The self projection is the resources table times its weight. -/
theorem selfRes_eq (a0 : FVec Ideal S50000x128 .f32) (a7 : FVec Ideal S128x128 .f32) :
    selfRes a0 a7 = proj a0 a7 := by
  funext i
  obtain ⟨p, q, rfl⟩ : ∃ (p : Fin 50000) (q : Fin 128), i = ix2 p q := ⟨i 0, i 1, eq_ix2 (n0 := 50000) (n1 := 128) i⟩
  exact Dense.dot_50000x128_apply a0 a7 p q

/-- (b) The self logit of node `p`: the node's projected row against both halves of the attention vector. -/
theorem selfAtt_apply (SR : FVec Ideal S50000x128 .f32) (a10 : FVec Ideal S256x1 .f32) (p : Fin 50000) :
    selfAtt SR a10 (ix2 p (0 : Fin 1)) = selfLogit SR a10 p := by
  unfold selfAtt
  rw [lrelu_apply]
  unfold selfScore
  rw [Dense.dot_50000x256_cat_apply]
  rfl

/-- (c) The need-edge rows: gathered operation features and edge attributes against the two parts of the weight. -/
theorem opsEdge_eq (a1 : FVec Ideal S100000x96 .f32) (i3 : IVec S800000x1 32) (a2 : FVec Ideal S800000x32 .f32)
    (a9 : FVec Ideal S128x128 .f32) :
    opsEdge (opFeat a1 i3) a2 a9 = needRow a1 a2 a9 (rowAt 100000 (by decide) i3) := by
  funext i
  obtain ⟨e, q, rfl⟩ : ∃ (e : Fin 800000) (q : Fin 128), i = ix2 e q := ⟨i 0, i 1, eq_ix2 (n0 := 800000) (n1 := 128) i⟩
  unfold opsEdge
  rw [Dense.dot_800000x128_cat_apply]
  exact congrArg₂ (· + ·) (Finset.sum_congr rfl fun k _ => congrArg₂ (· * ·) (opFeat_apply a1 i3 e k) rfl) rfl

/-- (d) The need-edge logit of edge `e`: the destination node's self row against the first half of the attention
    vector, the edge's own row against the second. -/
theorem opAtt_apply (SR : FVec Ideal S50000x128 .f32) (i4 : IVec S800000x1 32) (OE : FVec Ideal S800000x128 .f32)
    (a11 : FVec Ideal S256x1 .f32) (e : Fin 800000) :
    opAtt (resEdge SR i4) OE a11 (ix2 e (0 : Fin 1)) = edgeLogit SR OE a11 (rowAt 50000 (by decide) i4) e := by
  unfold opAtt
  rw [lrelu_apply]
  unfold opScore
  rw [Dense.dot_800000x256_cat_apply]
  exact congrArg Cert.Attn.lrelu
    (congrArg₂ (· + ·) (Finset.sum_congr rfl fun d _ => congrArg₂ (· * ·) (resEdge_apply SR i4 e d) rfl) rfl)

/-- (e) The same-type rows: the resources' row the edge names as its source, times the weight. -/
theorem res1_eq (a0 : FVec Ideal S50000x128 .f32) (i5 : IVec S400000x1 32) (a8 : FVec Ideal S128x128 .f32) :
    res1 a0 i5 a8 = rowsAt (proj a0 a8) (rowAt 50000 (by decide) i5) := by
  funext i
  obtain ⟨e, q, rfl⟩ : ∃ (e : Fin 400000) (q : Fin 128), i = ix2 e q := ⟨i 0, i 1, eq_ix2 (n0 := 400000) (n1 := 128) i⟩
  unfold res1
  rw [Dense.dot_400000x128_apply]
  show _ = ∑ k : Fin 128, a0 (ix2 (rowAt 50000 (by decide) i5 e) k) * a8 (ix2 k q)
  exact Finset.sum_congr rfl fun k _ => congrArg₂ (· * ·)
    (RowOps.gather_rows2_apply (N := 50000) (C := 128) (R := 400000) (by decide)
      gather_S50000x128_S400000x1_S400000x128_1_0_n_n_0_1_1128_wf a0 i5 (ix2 e k)) rfl

/-- (f) The same-type logit of edge `e`: the destination node's self row against the first half of the attention
    vector, the edge's own row against the second. -/
theorem resAtt_apply (SR : FVec Ideal S50000x128 .f32) (i6 : IVec S400000x1 32) (R1 : FVec Ideal S400000x128 .f32)
    (a12 : FVec Ideal S256x1 .f32) (e : Fin 400000) :
    resAtt (res2 SR i6) R1 a12 (ix2 e (0 : Fin 1)) = edgeLogit SR R1 a12 (rowAt 50000 (by decide) i6) e := by
  unfold resAtt
  rw [lrelu_apply]
  unfold resScore
  rw [Dense.dot_400000x256_cat_apply]
  exact congrArg Cert.Attn.lrelu
    (congrArg₂ (· + ·) (Finset.sum_congr rfl fun d _ => congrArg₂ (· * ·) (res2_apply SR i6 e d) rfl) rfl)

end Cert.ReferenceIdeal.RefAt

end
-- ==== Proof.AttnReduce.lean ====
/-
  Total reductions on the host read as suprema and sums.

  A `stablehlo.reduce` with `maximum` from the word of minus infinity, over axes that leave a single element, is the
  supremum of all entries; with `add` from the zero word it is zero plus the sum of all entries.  Over a table of one
  column the supremum and the sum run over the rows.
-/
import Idealize.ShloMosaic.PureOps.Ideal.Laws
import Idealize.ShloMosaic.PureOps.Reduce
import Idealize.ShloMosaic.Lib.IdealHost
import Idealize.ShloMosaic.Lib.ValueIdx

noncomputable section

namespace Cert.Attn

open Idealize.ShloMosaic Idealize.ShloMosaic.ValueIdx

/-- The word of minus infinity is the bottom element. -/
theorem ofBits_neg_inf_f32 : Ideal.ofBits .f32 0xFF800000#32 = ⊥ := by
  simp [Ideal.ofBits, Ideal.ieee]

/-- A maximum taken over axes that leave one element, from minus infinity: the supremum of all entries. -/
theorem reduce_max_all {s t u : Shape} {axes : List (Fin s.rank)} (h : s.ReducesTo axes t) (ht : ∀ b, t.size b = 1)
    (hu : 0 < u.numel) (x : s.Idx → EReal) (j : t.Idx) :
    Host.reduce (FloatOps.maximumf (F := Ideal) (φ := .f32)) x (constant (F := Ideal) u .f32 0xFF800000#32) h hu j
      = Finset.univ.sup x := by
  rw [Host.reduce_eq_fold, Finset.filter_true_of_mem (fun i _ => funext fun b => Fin.ext (by
    have := (h.drop i b).isLt; have := (j b).isLt; have := ht b; omega))]
  rw [constant_apply, ofBits_neg_inf_f32]
  rfl

/-- A sum taken over axes that leave one element, from the zero word: zero plus the sum of all entries. -/
theorem reduce_add_all {s t u : Shape} {axes : List (Fin s.rank)} (h : s.ReducesTo axes t) (ht : ∀ b, t.size b = 1)
    (hu : 0 < u.numel) (x : FVec Ideal s .f32) (j : t.Idx) :
    Host.reduceAdd (F := Ideal) x (constant (F := Ideal) u .f32 0x00000000#32) h hu j = 0 + ∑ i, x i := by
  rw [hostReduceAdd_apply, Ideal.hostReduceAdd_total h ht, constant_apply, Ideal.ofBits_zero_f32]

/-- The second coordinate of an index into a one-column table is zero. -/
theorem col_zero {n : Nat} (i : (⟨2, ![n, 1]⟩ : Shape).Idx) : i = ix2 (⟨(i 0).val, idx2_lt0 i⟩ : Fin n) (0 : Fin 1) := by
  funext a
  match a with
  | ⟨0, _⟩ => rfl
  | ⟨1, _⟩ => exact Fin.ext (by have := idx2_lt1 i; show (i 1).val = 0; omega)

/-- The supremum over a one-column table runs over its rows. -/
theorem sup_col {n : Nat} (f : (⟨2, ![n, 1]⟩ : Shape).Idx → EReal) :
    Finset.univ.sup f = Finset.univ.sup fun p : Fin n => f (ix2 p (0 : Fin 1)) := by
  apply le_antisymm
  · refine Finset.sup_le fun i _ => ?_
    rw [col_zero i]
    exact Finset.le_sup (f := fun p : Fin n => f (ix2 p (0 : Fin 1))) (Finset.mem_univ _)
  · exact Finset.sup_le fun p _ => Finset.le_sup (Finset.mem_univ _)

/-- The sum over a one-column table runs over its rows. -/
theorem sum_col {M : Type*} [AddCommMonoid M] {n : Nat} (f : (⟨2, ![n, 1]⟩ : Shape).Idx → M) :
    ∑ i, f i = ∑ p : Fin n, f (ix2 p (0 : Fin 1)) := by
  rw [sum_idx2]
  exact Finset.sum_congr rfl fun p _ => Fin.sum_univ_one _

end Cert.Attn

end
-- ==== Proof.AttnThree.lean ====
/-
  Sums and maxima over three families laid end to end.

  The reference takes one softmax over the node logits followed by the two families of edge logits in one column of
  length a + b + c; the kernel keeps the three families apart and combines their maxima and their sums.  Both the sum
  and the fold of `max` over the long column split into the three families' own.
-/
import Idealize.ShloMosaic.PureOps.Ideal
import Idealize.ShloMosaic.PureOps.Ideal.Laws

noncomputable section

namespace Cert.Attn

open Idealize.ShloMosaic

/-- A sum over positions `0 … a + b + c` is the sum over the first `a`, the next `b` and the last `c`. -/
theorem sum_three {M : Type*} [AddCommMonoid M] (a b c : Nat) (f : Fin (a + b + c) → M) :
    ∑ i, f i = (∑ p : Fin a, f ⟨p.val, by omega⟩) + (∑ e : Fin b, f ⟨a + e.val, by omega⟩)
      + (∑ e : Fin c, f ⟨a + b + e.val, by omega⟩) := by
  rw [Fin.sum_univ_add, Fin.sum_univ_add]
  rfl

/-- The fold of `max` from `⊥` over a finite family is its supremum. -/
theorem fold_max_eq_sup {ι : Type*} (s : Finset ι) (f : ι → EReal) : s.fold max ⊥ f = s.sup f := rfl

/-- The supremum over positions `0 … a + b + c` is the largest of the three families' suprema. -/
theorem sup_three (a b c : Nat) (f : Fin (a + b + c) → EReal) :
    Finset.univ.sup f = max (Finset.univ.sup fun p : Fin a => f ⟨p.val, by omega⟩)
      (max (Finset.univ.sup fun e : Fin b => f ⟨a + e.val, by omega⟩)
        (Finset.univ.sup fun e : Fin c => f ⟨a + b + e.val, by omega⟩)) := by
  apply le_antisymm
  · refine Finset.sup_le fun i _ => ?_
    by_cases h1 : i.val < a
    · exact le_max_of_le_left (Finset.le_sup (f := fun p : Fin a => f ⟨p.val, by omega⟩) (Finset.mem_univ (⟨i.val, h1⟩ : Fin a)))
    · by_cases h2 : i.val < a + b
      · refine le_max_of_le_right (le_max_of_le_left ?_)
        have := Finset.le_sup (f := fun e : Fin b => f ⟨a + e.val, by omega⟩) (Finset.mem_univ (⟨i.val - a, by omega⟩ : Fin b))
        have e : (⟨a + (i.val - a), by omega⟩ : Fin (a + b + c)) = i := Fin.ext (by simp only []; omega)
        simpa only [e] using this
      · refine le_max_of_le_right (le_max_of_le_right ?_)
        have := Finset.le_sup (f := fun e : Fin c => f ⟨a + b + e.val, by omega⟩) (Finset.mem_univ (⟨i.val - (a + b), by have := i.isLt; omega⟩ : Fin c))
        have e : (⟨a + b + (i.val - (a + b)), by have := i.isLt; omega⟩ : Fin (a + b + c)) = i := Fin.ext (by simp only []; omega)
        simpa only [e] using this
  · refine max_le (Finset.sup_le fun p _ => Finset.le_sup (Finset.mem_univ _)) (max_le
      (Finset.sup_le fun e _ => Finset.le_sup (Finset.mem_univ _)) (Finset.sup_le fun e _ => Finset.le_sup (Finset.mem_univ _)))

end Cert.Attn

end
-- ==== Proof.AttnTail.lean ====
/-
  One softmax over three families of real logits laid end to end, against the same softmax taken family by family.

  The reference subtracts the largest logit of the long column, exponentiates, sums and divides.  The kernel takes the
  largest of the three families' own maxima, the sum of the three families' own totals, and multiplies each
  exponential by the reciprocal of the total.  On real logits (at least one per family) the two maxima are one real
  number, the two totals are one positive real number, and so the weights agree.
-/
import proofs.«139946_j74208444940406_2_alg».proof.Proof.AttnScalars
import proofs.«139946_j74208444940406_2_alg».proof.Proof.AttnThree

noncomputable section

namespace Cert.Attn

open Idealize.ShloMosaic

/-- A positive real number among the extended reals. -/
def Pos (x : EReal) : Prop := ∃ r : ℝ, 0 < r ∧ x = (r : EReal)

/-- A nonnegative real number among the extended reals. -/
def NN (x : EReal) : Prop := ∃ r : ℝ, 0 ≤ r ∧ x = (r : EReal)

theorem NN.zero : NN 0 := ⟨0, le_rfl, rfl⟩

theorem Pos.nn {x : EReal} (h : Pos x) : NN x := by obtain ⟨r, hr, rfl⟩ := h; exact ⟨r, hr.le, rfl⟩

theorem NN.add {x y : EReal} (hx : NN x) (hy : NN y) : NN (x + y) := by
  obtain ⟨a, ha, rfl⟩ := hx; obtain ⟨b, hb, rfl⟩ := hy
  exact ⟨a + b, add_nonneg ha hb, (EReal.coe_add a b).symm⟩

theorem Pos.add_nn {x y : EReal} (hx : Pos x) (hy : NN y) : Pos (x + y) := by
  obtain ⟨a, ha, rfl⟩ := hx; obtain ⟨b, hb, rfl⟩ := hy
  exact ⟨a + b, add_pos_of_pos_of_nonneg ha hb, (EReal.coe_add a b).symm⟩

theorem NN.add_pos {x y : EReal} (hx : NN x) (hy : Pos y) : Pos (x + y) := by
  rw [add_comm]; exact hy.add_nn hx

theorem Pos.isReal {x : EReal} (h : Pos x) : IsReal x := by obtain ⟨r, _, rfl⟩ := h; exact ⟨r, rfl⟩

theorem Pos.ne_zero {x : EReal} (h : Pos x) : x ≠ 0 := by
  obtain ⟨r, hr, rfl⟩ := h
  intro h0
  exact hr.ne' (EReal.coe_eq_zero.mp h0)

theorem NN.sum {ι : Type*} (s : Finset ι) (f : ι → EReal) (h : ∀ i ∈ s, NN (f i)) : NN (∑ i ∈ s, f i) := by
  classical
  induction s using Finset.induction_on with
  | empty => simpa using NN.zero
  | insert a s ha ih =>
    rw [Finset.sum_insert ha]
    exact (h a (Finset.mem_insert_self a s)).add (ih fun i hi => h i (Finset.mem_insert_of_mem hi))

/-- The exponential of a difference of real numbers is a positive real number. -/
theorem pos_exp_sub {x t : EReal} (hx : IsReal x) (ht : IsReal t) : Pos (Ideal.exp (x - t)) := by
  obtain ⟨a, rfl⟩ := hx; obtain ⟨b, rfl⟩ := ht
  refine ⟨Real.exp (a - b), Real.exp_pos _, ?_⟩
  rw [← EReal.coe_sub]; rfl

/-- A sum of positive reals over a nonempty index type is a positive real. -/
theorem pos_sum {n : Nat} (hn : 0 < n) (f : Fin n → EReal) (h : ∀ i, Pos (f i)) : Pos (∑ i, f i) := by
  classical
  rw [← Finset.add_sum_erase Finset.univ f (Finset.mem_univ (⟨0, hn⟩ : Fin n))]
  exact (h _).add_nn (NN.sum _ _ fun i _ => (h i).nn)

/-- The supremum of a nonempty finite family of real numbers is a real number. -/
theorem isReal_sup {n : Nat} (hn : 0 < n) (f : Fin n → EReal) (h : ∀ i, IsReal (f i)) : IsReal (Finset.univ.sup f) := by
  obtain ⟨i, _, hi⟩ := Finset.exists_mem_eq_sup Finset.univ ⟨(⟨0, hn⟩ : Fin n), Finset.mem_univ _⟩ f
  rw [hi]; exact h i

section Tail

variable {a b c : Nat} (ha : 0 < a) (hb : 0 < b) (hc : 0 < c)
  (sa : Fin a → EReal) (oa : Fin b → EReal) (ra : Fin c → EReal)
  (hsa : ∀ p, IsReal (sa p)) (hoa : ∀ e, IsReal (oa e)) (hra : ∀ e, IsReal (ra e))
  (lg : Fin (a + b + c) → EReal)
  (h1 : ∀ p : Fin a, lg ⟨p.val, by omega⟩ = sa p) (h2 : ∀ e : Fin b, lg ⟨a + e.val, by omega⟩ = oa e)
  (h3 : ∀ e : Fin c, lg ⟨a + b + e.val, by omega⟩ = ra e)

/-- The kernel's shared maximum: the largest of the three families' maxima. -/
def topK : EReal := max (Finset.univ.sup sa) (max (Finset.univ.sup oa) (Finset.univ.sup ra))

/-- The kernel's total: the three families' totals added, each started from zero. -/
def totalK (t : EReal) : EReal :=
  ((0 + ∑ p, Ideal.exp (sa p - t)) + (0 + ∑ e, Ideal.exp (oa e - t))) + (0 + ∑ e, Ideal.exp (ra e - t))

include h1 h2 h3 in
/-- The long column's maximum, taken once more against `⊥`, is the kernel's shared maximum. -/
theorem top_eq : max ⊥ (Finset.univ.sup lg) = topK sa oa ra := by
  rw [max_eq_right bot_le, sup_three a b c lg]
  unfold topK
  simp only [h1, h2, h3]

include h1 h2 h3 in
/-- The long column's total is the kernel's total. -/
theorem total_eq (t : EReal) : (0 + ∑ i, Ideal.exp (lg i - t)) = totalK sa oa ra t := by
  rw [sum_three a b c (fun i => Ideal.exp (lg i - t))]
  unfold totalK
  simp only [h1, h2, h3, zero_add]

include ha hb hc hsa hoa hra in
theorem isReal_topK : IsReal (topK sa oa ra) :=
  (isReal_sup ha sa hsa).max ((isReal_sup hb oa hoa).max (isReal_sup hc ra hra))

include ha hb hc hsa hoa hra in
/-- The kernel's total at the shared maximum is a positive real number. -/
theorem pos_totalK : Pos (totalK sa oa ra (topK sa oa ra)) := by
  have ht := isReal_topK ha hb hc sa oa ra hsa hoa hra
  unfold totalK
  simp only [zero_add]
  exact ((pos_sum ha _ fun p => pos_exp_sub (hsa p) ht).add_nn (pos_sum hb _ fun e => pos_exp_sub (hoa e) ht).nn).add_nn
    (pos_sum hc _ fun e => pos_exp_sub (hra e) ht).nn

include ha hb hc hsa hoa hra in
/-- A weight spelled as the exponential times the reciprocal of the total is the exponential divided by the total. -/
theorem weight_eq (x : EReal) :
    Ideal.exp (x - topK sa oa ra) * Ideal.div (Ideal.ofBits .f32 0x3F800000#32) (totalK sa oa ra (topK sa oa ra))
      = Ideal.div (Ideal.exp (x - topK sa oa ra)) (totalK sa oa ra (topK sa oa ra)) :=
  mul_recip_eq_div (pos_totalK ha hb hc sa oa ra hsa hoa hra).isReal (pos_totalK ha hb hc sa oa ra hsa hoa hra).ne_zero

end Tail

end Cert.Attn

end
-- ==== Proof.AttnSoftmax.lean ====
/-
  The softmax weights of the two programs.

  The reference lays the three families of logits end to end in one column of 1250000 entries, takes one maximum `t`
  (once more against minus infinity), exponentiates every logit less `t`, sums, divides, and cuts the column back into
  its three pieces.  The kernel takes the largest of the three families' maxima, the three families' totals added, and
  multiplies each exponential by the reciprocal of the total.  On real logits the pieces agree.
-/
import proofs.«139946_j74208444940406_2_alg».proof.Proof.RefValueDefs
import proofs.«139946_j74208444940406_2_alg».proof.Proof.KernelHost3
import proofs.«139946_j74208444940406_2_alg».proof.Proof.AttnReduce
import proofs.«139946_j74208444940406_2_alg».proof.Proof.AttnTail
import Idealize.ShloMosaic.Lib.Pipeline.Value
import Idealize.ShloMosaic.Lib.ValueLayout

set_option maxRecDepth 16384

noncomputable section

namespace Cert.Attn.Softmax

open Idealize.ShloMosaic Idealize.ShloMosaic.ValueIdx Cert.ReferenceIdeal Cert.Attn

variable [Cert.ReferenceIdeal.Facts]
open Cert.ReferenceIdeal.Facts₀ Cert.ReferenceIdeal.Facts

/-! ## The reference's stages at an entry -/

/-- A one-element vector broadcast to a [1, 1] table and then down a column reads its one element everywhere. -/
theorem bcast_col (M : FVec Ideal S1 .f32) (i : S1250000x1.Idx) :
    broadcastInDim S1250000x1 ![0, 1] bcast_S1x1_S1250000x1_0_1 (broadcastInDim S1x1 ![1] bcast_S1_S1x1_1 M) i
      = M (ix1 (0 : Fin 1)) := by
  rw [broadcastInDim_apply _ _ _ i (ix2 (0 : Fin 1) (0 : Fin 1)) (fun a => by
    match a with
    | ⟨0, _⟩ => rfl
    | ⟨1, _⟩ => rfl)]
  exact broadcastInDim_apply _ _ _ _ (ix1 (0 : Fin 1)) (fun a => by
    match a with
    | ⟨0, _⟩ => rfl)

theorem mx_apply (lg : FVec Ideal S1250000x1 .f32) (j : S1.Idx) :
    RefRun.mx lg j = max ⊥ (Finset.univ.sup fun k : Fin 1250000 => lg (ix2 k (0 : Fin 1))) := by
  unfold RefRun.mx
  rw [maximumf_apply, broadcastInDim_scalar_apply, constant_apply, ofBits_neg_inf_f32,
    reduce_max_all _ (fun b => by match b with | ⟨0, _⟩ => rfl), sup_col]

theorem ex_apply (lg : FVec Ideal S1250000x1 .f32) (M : FVec Ideal S1 .f32) (i : S1250000x1.Idx) :
    RefRun.ex lg M i = Ideal.exp (lg i - M (ix1 (0 : Fin 1))) := by
  unfold RefRun.ex Host.exp
  rw [subf_apply, bcast_col, Ideal.hostUnary_exp_def]

theorem den_apply (e : FVec Ideal S1250000x1 .f32) (j : S1.Idx) :
    RefRun.den e j = 0 + ∑ k : Fin 1250000, e (ix2 k (0 : Fin 1)) := by
  unfold RefRun.den
  rw [reduce_add_all _ (fun b => by match b with | ⟨0, _⟩ => rfl), sum_col]

theorem norm_apply (e : FVec Ideal S1250000x1 .f32) (D : FVec Ideal S1 .f32) (i : S1250000x1.Idx) :
    RefRun.norm e D i = Ideal.div (e i) (D (ix1 (0 : Fin 1))) := by
  unfold RefRun.norm Host.divf
  rw [bcast_col, Ideal.hostDivf_def]

/-! ## The kernel's stages at an entry -/

open Cert.KernelIdeal.KHost in
theorem top_apply (sa : FVec Ideal S50000x1 .f32) (oa : FVec Ideal S800000x1 .f32) (ra : FVec Ideal S400000x1 .f32) (j : S_.Idx) :
    top sa oa ra j = topK (fun p : Fin 50000 => sa (ix2 p (0 : Fin 1))) (fun e : Fin 800000 => oa (ix2 e (0 : Fin 1)))
      (fun e : Fin 400000 => ra (ix2 e (0 : Fin 1))) := by
  unfold top topK
  rw [maximumf_apply, maximumf_apply, reduce_max_all _ (fun b => b.elim0), reduce_max_all _ (fun b => b.elim0),
    reduce_max_all _ (fun b => b.elim0), sup_col, sup_col, sup_col]

open Cert.KernelIdeal.KHost in
theorem expS_apply (sa : FVec Ideal S50000x1 .f32) (t : FVec Ideal S_ .f32) (i : S50000x1.Idx) :
    expS sa t i = Ideal.exp (sa i - t ix0) := by
  unfold expS Host.exp
  rw [subf_apply, broadcastInDim_scalar_apply, Ideal.hostUnary_exp_def]

open Cert.KernelIdeal.KHost in
theorem expO_apply (oa : FVec Ideal S800000x1 .f32) (t : FVec Ideal S_ .f32) (i : S800000x1.Idx) :
    expO oa t i = Ideal.exp (oa i - t ix0) := by
  unfold expO Host.exp
  rw [subf_apply, broadcastInDim_scalar_apply, Ideal.hostUnary_exp_def]

open Cert.KernelIdeal.KHost in
theorem expR_apply (ra : FVec Ideal S400000x1 .f32) (t : FVec Ideal S_ .f32) (i : S400000x1.Idx) :
    expR ra t i = Ideal.exp (ra i - t ix0) := by
  unfold expR Host.exp
  rw [subf_apply, broadcastInDim_scalar_apply, Ideal.hostUnary_exp_def]

section Pieces

variable (sa : FVec Ideal S50000x1 .f32) (oa : FVec Ideal S800000x1 .f32) (ra : FVec Ideal S400000x1 .f32)

/-- The three families as functions of the row. -/
abbrev saF : Fin 50000 → EReal := fun p => sa (ix2 p (0 : Fin 1))
abbrev oaF : Fin 800000 → EReal := fun e => oa (ix2 e (0 : Fin 1))
abbrev raF : Fin 400000 → EReal := fun e => ra (ix2 e (0 : Fin 1))

open Cert.KernelIdeal.KHost in
theorem invTotal_apply (j : S_.Idx) :
    invTotal sa oa ra j = Ideal.div (Ideal.ofBits .f32 0x3F800000#32)
      (totalK (saF sa) (oaF oa) (raF ra) (topK (saF sa) (oaF oa) (raF ra))) := by
  unfold invTotal recip Host.divf
  rw [Ideal.hostDivf_def, constant_apply, addf_apply, addf_apply, reduce_add_all _ (fun b => b.elim0),
    reduce_add_all _ (fun b => b.elim0), reduce_add_all _ (fun b => b.elim0), sum_col, sum_col, sum_col]
  unfold totalK
  simp only [expS_apply, expO_apply, expR_apply, top_apply]

/-- The long column of logits, as a function of the row. -/
abbrev lgF : Fin (50000 + 800000 + 400000) → EReal := fun k => RefRun.logits sa oa ra (ix2 (k : Fin 1250000) (0 : Fin 1))

theorem logits_piece0 (p : Fin 50000) :
    RefRun.logits sa oa ra (ix2 (⟨p.val, by omega⟩ : Fin 1250000) (0 : Fin 1)) = sa (ix2 p (0 : Fin 1)) := by
  unfold RefRun.logits
  refine concatenate_apply_piece (t := S1250000x1) 0 [⟨S50000x1, sa⟩, ⟨S800000x1, oa⟩, ⟨S400000x1, ra⟩] _ _ 0 (by simp) S50000x1 sa rfl rfl 0 ?_ (ix2 p (0 : Fin 1)) ?_ ?_
  · simp
  · intro b hb
    match b with
    | ⟨0, _⟩ => exact absurd rfl hb
    | ⟨1, _⟩ => rfl
  · show 0 + p.val = p.val
    omega

theorem logits_piece1 (e : Fin 800000) :
    RefRun.logits sa oa ra (ix2 (⟨50000 + e.val, by omega⟩ : Fin 1250000) (0 : Fin 1)) = oa (ix2 e (0 : Fin 1)) := by
  unfold RefRun.logits
  refine concatenate_apply_piece (t := S1250000x1) 0 [⟨S50000x1, sa⟩, ⟨S800000x1, oa⟩, ⟨S400000x1, ra⟩] _ _ 1 (by simp) S800000x1 oa rfl rfl 50000 ?_ (ix2 e (0 : Fin 1)) ?_ ?_
  · simp
  · intro b hb
    match b with
    | ⟨0, _⟩ => exact absurd rfl hb
    | ⟨1, _⟩ => rfl
  · show 50000 + e.val = 50000 + e.val
    rfl

theorem logits_piece2 (e : Fin 400000) :
    RefRun.logits sa oa ra (ix2 (⟨50000 + 800000 + e.val, by omega⟩ : Fin 1250000) (0 : Fin 1)) = ra (ix2 e (0 : Fin 1)) := by
  unfold RefRun.logits
  refine concatenate_apply_piece (t := S1250000x1) 0 [⟨S50000x1, sa⟩, ⟨S800000x1, oa⟩, ⟨S400000x1, ra⟩] _ _ 2 (by simp) S400000x1 ra rfl rfl 850000 ?_ (ix2 e (0 : Fin 1)) ?_ ?_
  · simp
  · intro b hb
    match b with
    | ⟨0, _⟩ => exact absurd rfl hb
    | ⟨1, _⟩ => rfl
  · show 850000 + e.val = 50000 + 800000 + e.val
    omega

/-- The reference's weight at row `k` of the long column: the exponential of the logit less the kernel's shared
    maximum, divided by the kernel's total. -/
theorem norm_row (k : Fin 1250000) :
    RefRun.norm (RefRun.ex (RefRun.logits sa oa ra) (RefRun.mx (RefRun.logits sa oa ra)))
        (RefRun.den (RefRun.ex (RefRun.logits sa oa ra) (RefRun.mx (RefRun.logits sa oa ra)))) (ix2 k (0 : Fin 1))
      = Ideal.div (Ideal.exp (RefRun.logits sa oa ra (ix2 k (0 : Fin 1)) - topK (saF sa) (oaF oa) (raF ra)))
          (totalK (saF sa) (oaF oa) (raF ra) (topK (saF sa) (oaF oa) (raF ra))) := by
  rw [norm_apply, ex_apply, den_apply, mx_apply]
  simp only [ex_apply, mx_apply]
  have ht := top_eq (by decide) (by decide) (saF sa) (oaF oa) (raF ra) (lgF sa oa ra) (fun p => logits_piece0 sa oa ra p)
    (fun e => logits_piece1 sa oa ra e) (fun e => logits_piece2 sa oa ra e)
  have hT := total_eq (by decide) (by decide) (saF sa) (oaF oa) (raF ra) (lgF sa oa ra) (fun p => logits_piece0 sa oa ra p)
    (fun e => logits_piece1 sa oa ra e) (fun e => logits_piece2 sa oa ra e) (topK (saF sa) (oaF oa) (raF ra))
  rw [show (max ⊥ (Finset.univ.sup fun k : Fin 1250000 => RefRun.logits sa oa ra (ix2 k (0 : Fin 1))))
    = topK (saF sa) (oaF oa) (raF ra) from ht]
  rw [show (0 + ∑ k : Fin 1250000, Ideal.exp (RefRun.logits sa oa ra (ix2 k (0 : Fin 1)) - topK (saF sa) (oaF oa) (raF ra)))
    = totalK (saF sa) (oaF oa) (raF ra) (topK (saF sa) (oaF oa) (raF ra)) from hT]

variable (hsa : ∀ i, IsReal (sa i)) (hoa : ∀ i, IsReal (oa i)) (hra : ∀ i, IsReal (ra i))

include hsa hoa hra in
/-- The first piece of the reference's weights is the kernel's node weights. -/
theorem slice_self :
    extractStridedSlice S50000x1 ![0, 0] (RefRun.norm (RefRun.ex (RefRun.logits sa oa ra) (RefRun.mx (RefRun.logits sa oa ra)))
        (RefRun.den (RefRun.ex (RefRun.logits sa oa ra) (RefRun.mx (RefRun.logits sa oa ra))))) slices_S1250000x1_S50000x1_0_0
      = Cert.KernelIdeal.KHost.normS sa oa ra := by
  funext i
  rw [col_zero i, slice2_axis0_apply 0 _ _ _ (0 : Fin 1) (⟨(i 0).val, by have := idx2_lt0 i; omega⟩ : Fin 1250000) (by simp),
    norm_row, logits_piece0 sa oa ra ⟨(i 0).val, idx2_lt0 i⟩]
  unfold Cert.KernelIdeal.KHost.normS
  rw [mulf_apply, expS_apply, broadcastInDim_scalar_apply, invTotal_apply, top_apply]
  exact (weight_eq (by decide) (by decide) (by decide) (saF sa) (oaF oa) (raF ra) (fun p => hsa _) (fun e => hoa _)
    (fun e => hra _) _).symm

include hsa hoa hra in
/-- The second piece of the reference's weights is the kernel's need-edge weights. -/
theorem slice_ops :
    extractStridedSlice S800000x1 ![50000, 0] (RefRun.norm (RefRun.ex (RefRun.logits sa oa ra) (RefRun.mx (RefRun.logits sa oa ra)))
        (RefRun.den (RefRun.ex (RefRun.logits sa oa ra) (RefRun.mx (RefRun.logits sa oa ra))))) slices_S1250000x1_S800000x1_50000_0
      = Cert.KernelIdeal.KHost.normO sa oa ra := by
  funext i
  rw [col_zero i, slice2_axis0_apply 50000 _ _ _ (0 : Fin 1) (⟨50000 + (i 0).val, by have := idx2_lt0 i; omega⟩ : Fin 1250000) (by simp),
    norm_row, logits_piece1 sa oa ra ⟨(i 0).val, idx2_lt0 i⟩]
  unfold Cert.KernelIdeal.KHost.normO
  rw [mulf_apply, expO_apply, broadcastInDim_scalar_apply, invTotal_apply, top_apply]
  exact (weight_eq (by decide) (by decide) (by decide) (saF sa) (oaF oa) (raF ra) (fun p => hsa _) (fun e => hoa _)
    (fun e => hra _) _).symm

include hsa hoa hra in
/-- The third piece of the reference's weights is the kernel's same-type-edge weights. -/
theorem slice_res :
    extractStridedSlice S400000x1 ![850000, 0] (RefRun.norm (RefRun.ex (RefRun.logits sa oa ra) (RefRun.mx (RefRun.logits sa oa ra)))
        (RefRun.den (RefRun.ex (RefRun.logits sa oa ra) (RefRun.mx (RefRun.logits sa oa ra))))) slices_S1250000x1_S400000x1_850000_0
      = Cert.KernelIdeal.KHost.normR sa oa ra := by
  funext i
  rw [col_zero i, slice2_axis0_apply 850000 _ _ _ (0 : Fin 1) (⟨850000 + (i 0).val, by have := idx2_lt0 i; omega⟩ : Fin 1250000) (by simp),
    norm_row, logits_piece2 sa oa ra ⟨(i 0).val, idx2_lt0 i⟩]
  unfold Cert.KernelIdeal.KHost.normR
  rw [mulf_apply, expR_apply, broadcastInDim_scalar_apply, invTotal_apply, top_apply]
  exact (weight_eq (by decide) (by decide) (by decide) (saF sa) (oaF oa) (raF ra) (fun p => hsa _) (fun e => hoa _)
    (fun e => hra _) _).symm

end Pieces

end Cert.Attn.Softmax

end
-- ==== Proof.AttnElu.lean ====
/-
  The two spellings of the exponential linear unit.

  The reference takes `x` where `x > 0` and otherwise one times `expm1` of (`0` where `x > 0`, else `x`); the kernel
  takes `x` where `x > 0` and otherwise `exp (min x 0) - 1`.  Where `x > 0` both give `x`; elsewhere `min x 0 = x`,
  `expm1 x = exp x - 1`, and the product with one changes nothing.  So the reference's last stage, applied to the
  weighted self projection plus the two segment sums, is the combine region's function of the same four arrays.
-/
import proofs.«139946_j74208444940406_2_alg».proof.Proof.RefValueDefs
import proofs.«139946_j74208444940406_2_alg».proof.Proof.Region2Spec
import proofs.«139946_j74208444940406_2_alg».proof.Proof.AttnScalars
import Idealize.ShloMosaic.Lib.Pipeline.Value
import Idealize.ShloMosaic.Lib.IdealHost
import Idealize.ShloMosaic.Lib.ValueIdx

noncomputable section

namespace Cert.Attn

open Idealize.ShloMosaic Idealize.ShloMosaic.ValueIdx Cert.ReferenceIdeal

variable [Cert.ReferenceIdeal.Facts]
open Cert.ReferenceIdeal.Facts₀ Cert.ReferenceIdeal.Facts

/-- At one value: the reference's select-of-`expm1` form is the kernel's select-of-`exp` form. -/
theorem elu_scalar (v : EReal) :
    Scalar.select (FloatOps.cmpf (F := Ideal) (φ := .f32) .ogt v (Ideal.ofBits .f32 0x00000000#32)) v
      (Ideal.ofBits .f32 0x3F800000#32
        * (Ideal.exp (Scalar.select (FloatOps.cmpf (F := Ideal) (φ := .f32) .ogt v (Ideal.ofBits .f32 0x00000000#32))
            (Ideal.ofBits .f32 0x00000000#32) v) - 1))
      = Cert.KernelIdeal.Region2.elu v := by
  by_cases h : (0 : EReal) < v
  · have hc : FloatOps.cmpf (F := Ideal) (φ := .f32) .ogt v (Ideal.ofBits .f32 0x00000000#32) = 1#1 := by
      rw [Ideal.ofBits_zero_f32]
      show Ideal.cmp .ogt v 0 = 1
      unfold Ideal.cmp
      simp [h]
    unfold Cert.KernelIdeal.Region2.elu Scalar.select
    rw [hc]
    simp [h]
  · have hc : FloatOps.cmpf (F := Ideal) (φ := .f32) .ogt v (Ideal.ofBits .f32 0x00000000#32) = 0#1 := by
      rw [Ideal.ofBits_zero_f32]
      show Ideal.cmp .ogt v 0 = 0
      unfold Ideal.cmp
      simp [h]
    unfold Cert.KernelIdeal.Region2.elu Scalar.select
    rw [hc]
    simp [h, min_eq_left (not_lt.mp h), ofBits_one_f32]

/-- The reference's last stage on the weighted self projection plus the two segment sums is the combine region's
    function of the four arrays. -/
theorem elu_eq (SR so sr : FVec Ideal S50000x128 .f32) (nS : FVec Ideal S50000x1 .f32) :
    RefRun.elu (addf (addf (mulf (broadcastInDim S50000x128 ![0, 1] bcast_S50000x1_S50000x128_0_1 nS) SR) so) sr)
      = Cert.KernelIdeal.Region2.G2_4 SR nS so sr := by
  funext i
  obtain ⟨p, q, rfl⟩ : ∃ (p : Fin 50000) (q : Fin 128), i = ix2 p q := ⟨i 0, i 1, eq_ix2 i⟩
  rw [Cert.KernelIdeal.Region2.G2_4_apply, ← elu_scalar]
  have hb : broadcastInDim S50000x128 ![0, 1] bcast_S50000x1_S50000x128_0_1 nS (ix2 p q) = nS (ix2 p (0 : Fin 1)) :=
    broadcastInDim_apply _ _ _ _ _ (fun a => by
      match a with
      | ⟨0, _⟩ => rfl
      | ⟨1, _⟩ => rfl)
  have hz : ∀ (w : BitVec 32) (j : S50000x128.Idx),
      broadcastInDim S50000x128 ![] bcast_S_S50000x128 (constant (F := Ideal) S_ .f32 w) j = Ideal.ofBits .f32 w :=
    fun w j => broadcastInDim_scalar_apply _ _ j
  unfold RefRun.elu
  simp only [select_apply, cmpf_apply, mulf_apply, addf_apply, Host.expm1, hz, hb, Ideal.hostUnary_expm1_def]

end Cert.Attn

end
-- ==== Proof.AttnReal.lean ====
/-
  Real-valuedness of the layer's per-entry quantities, and the folded self score.

  Sums of products of real numbers are real numbers, and the leaky unit of a real number is a real number, so every logit
  is one.  On real numbers `x · (a + b) = x · a + x · b`: the kernel's self score, taken against the two halves of the
  self attention vector added beforehand, is the reference's self score taken against the two halves one after the other.
-/
import proofs.«139946_j74208444940406_2_alg».proof.Proof.AttnSpec
import proofs.«139946_j74208444940406_2_alg».proof.Proof.AttnScalars

noncomputable section

namespace Cert.Attn

open Idealize.ShloMosaic Idealize.ShloMosaic.ValueIdx

/-- The slope word is a real number. -/
theorem isReal_slope : IsReal (Ideal.ofBits .f32 0x3E4CCCCD#32) := by
  have h : Ideal.ofBits .f32 0x3E4CCCCD#32 = ((13421773 : ℝ) : EReal) * ((((2 : ℝ) ^ 26)⁻¹ : ℝ) : EReal) := by
    simp [Ideal.ofBits, Ideal.ieee]
  rw [h]
  exact (isReal_coe _).mul (isReal_coe _)

theorem IsReal.lrelu {z : EReal} (hz : IsReal z) : IsReal (lrelu z) := by
  unfold Cert.Attn.lrelu
  exact IsReal.ite hz (isReal_slope.mul hz)

theorem isReal_proj {n : Nat} (X : Tab n 128) (W : Tab 128 128) (hX : ∀ i, IsReal (X i)) (hW : ∀ i, IsReal (W i))
    (i : (⟨2, ![n, 128]⟩ : Shape).Idx) : IsReal (proj X W i) :=
  IsReal.sum _ _ fun k _ => (hX _).mul (hW _)

theorem isReal_halfDot {n : Nat} (Y : Tab n 128) (a : Tab 256 1) (h : Fin 128 → Fin 256) (hY : ∀ i, IsReal (Y i))
    (ha : ∀ i, IsReal (a i)) (p : Fin n) : IsReal (halfDot Y a h p) :=
  IsReal.sum _ _ fun d _ => (hY _).mul (ha _)

theorem isReal_selfLogit (SR : Tab 50000 128) (a : Tab 256 1) (hSR : ∀ i, IsReal (SR i)) (ha : ∀ i, IsReal (a i))
    (p : Fin 50000) : IsReal (selfLogit SR a p) :=
  ((isReal_halfDot SR a lo hSR ha p).add (isReal_halfDot SR a hi hSR ha p)).lrelu

theorem isReal_needRow (ops : Tab 100000 96) (attr : Tab 800000 32) (W : Tab 128 128) (r₃ : Fin 800000 → Fin 100000)
    (ho : ∀ i, IsReal (ops i)) (hattr : ∀ i, IsReal (attr i)) (hW : ∀ i, IsReal (W i))
    (i : (⟨2, ![800000, 128]⟩ : Shape).Idx) : IsReal (needRow ops attr W r₃ i) :=
  (IsReal.sum _ _ fun k _ => (ho _).mul (hW _)).add (IsReal.sum _ _ fun k _ => (hattr _).mul (hW _))

theorem isReal_rowsAt {R N : Nat} (Y : Tab N 128) (r : Fin R → Fin N) (hY : ∀ i, IsReal (Y i))
    (i : (⟨2, ![R, 128]⟩ : Shape).Idx) : IsReal (rowsAt Y r i) := hY _

theorem isReal_edgeLogit {R : Nat} (SR : Tab 50000 128) (rows : Tab R 128) (a : Tab 256 1) (r : Fin R → Fin 50000)
    (hSR : ∀ i, IsReal (SR i)) (hrows : ∀ i, IsReal (rows i)) (ha : ∀ i, IsReal (a i)) (e : Fin R) :
    IsReal (edgeLogit SR rows a r e) :=
  ((isReal_halfDot (rowsAt SR r) a lo (isReal_rowsAt SR r hSR) ha e).add (isReal_halfDot rows a hi hrows ha e)).lrelu

/-- The self score against the two halves added beforehand is the self logit. -/
theorem folded_self (SR : Tab 50000 128) (a : Tab 256 1) (hSR : ∀ i, IsReal (SR i)) (ha : ∀ i, IsReal (a i)) (p : Fin 50000) :
    lrelu (∑ d : Fin 128, SR (ix2 p d) * (a (ix2 (lo d) (0 : Fin 1)) + a (ix2 (hi d) (0 : Fin 1)))) = selfLogit SR a p := by
  unfold selfLogit halfDot
  congr 1
  rw [← Finset.sum_add_distrib]
  exact Finset.sum_congr rfl fun d _ => mul_add_of_isReal (hSR _) (ha _) (ha _)

end Cert.Attn

end
-- ==== Proof.AttnBridge.lean ====
/-
  The idealized kernel and the idealized reference compute one function of their arguments.

  Array by array: the self projection is the same matrix product; the self logits agree because on real numbers the
  score against the two halves of the self attention vector added beforehand is the score against the halves one after
  the other; the need-edge rows, the need-edge logits, the same-type rows and the same-type logits agree because a row
  gather commutes with whatever is computed row by row; the three pieces of the reference's softmax weights are the
  kernel's three weight arrays because the logits are real numbers; the two weighted segment sums are then the same
  scatter-adds of the same updates; and the two spellings of the exponential linear unit agree.
-/
import proofs.«139946_j74208444940406_2_alg».proof.Proof.KernelValue
import proofs.«139946_j74208444940406_2_alg».proof.Proof.KernelAtEdge
import proofs.«139946_j74208444940406_2_alg».proof.Proof.KernelAtSame
import proofs.«139946_j74208444940406_2_alg».proof.Proof.RefAtStages
import proofs.«139946_j74208444940406_2_alg».proof.Proof.AttnSoftmax
import proofs.«139946_j74208444940406_2_alg».proof.Proof.AttnElu
import proofs.«139946_j74208444940406_2_alg».proof.Proof.AttnReal

set_option maxRecDepth 16384
set_option maxHeartbeats 2000000

noncomputable section

namespace Cert.Attn.Bridge

open Idealize.ShloMosaic Idealize.ShloMosaic.ValueIdx Cert.Attn

variable [Cert.ReferenceIdeal.Facts]

section

variable (a0 : Tab 50000 128) (a1 : Tab 100000 96) (a2 : Tab 800000 32)
  (a3 a4 : IVec Cert.KernelIdeal.S800000 32) (a5 a6 : IVec Cert.KernelIdeal.S400000 32)
  (a7 a8 a9 : Tab 128 128) (a10 a11 a12 : Tab 256 1)

/-- The node region's score table. -/
abbrev SC : Tab 50000 4 := Cert.KernelIdeal.KValue.scores Cert.KernelIdeal.Region0.G0_9 a0 a7 a8 a10 a11 a12

/-- The kernel's three families of logits. -/
abbrev SA : Tab 50000 1 := Cert.KernelIdeal.KHost.col0 (SC a0 a7 a8 a10 a11 a12)
abbrev OA : Tab 800000 1 :=
  Cert.KernelIdeal.KValue.edgeAtt Cert.KernelIdeal.Region1.G1_7 (SC a0 a7 a8 a10 a11 a12) a1 a2 a3 a4 a9 a11
abbrev RA : Tab 400000 1 :=
  Cert.KernelIdeal.KHost.resAtt (Cert.KernelIdeal.KHost.col2 (SC a0 a7 a8 a10 a11 a12))
    (Cert.KernelIdeal.KHost.col3 (SC a0 a7 a8 a10 a11 a12)) a5 a6

variable (h0 : ∀ i, IsReal (a0 i)) (h1 : ∀ i, IsReal (a1 i)) (h2 : ∀ i, IsReal (a2 i)) (h7 : ∀ i, IsReal (a7 i))
  (h8 : ∀ i, IsReal (a8 i)) (h9 : ∀ i, IsReal (a9 i)) (h10 : ∀ i, IsReal (a10 i)) (h11 : ∀ i, IsReal (a11 i))
  (h12 : ∀ i, IsReal (a12 i))

/-! ## The logits, family by family -/

include h0 h7 h10 in
theorem selfAtt_eq : Cert.ReferenceIdeal.RefRun.selfAtt (proj a0 a7) a10 = SA a0 a7 a8 a10 a11 a12 := by
  funext i
  rw [col_zero i, Cert.ReferenceIdeal.RefAt.selfAtt_apply]
  show _ = Cert.KernelIdeal.KHost.col0 (Cert.KernelIdeal.Region0.G0_9 a0 a7 a8 (Cert.KernelIdeal.KHost.rowSum a10)
    (Cert.KernelIdeal.KHost.rowLo a11) (Cert.KernelIdeal.KHost.rowLo a12) (Cert.KernelIdeal.KHost.rowHi a12)) _
  rw [Cert.KernelIdeal.KAt.col0_scores, folded_self _ _ (isReal_proj a0 a7 h0 h7) h10]

theorem opAtt_eq :
    Cert.ReferenceIdeal.RefRun.opAtt
        (Cert.ReferenceIdeal.RefRun.resEdge (proj a0 a7) (Cert.ReferenceIdeal.RefRun.wrap8 50000#32 a4))
        (needRow a1 a2 a9 (rowAt 100000 (by decide) (Cert.ReferenceIdeal.RefRun.wrap8 100000#32 a3))) a11
      = OA a0 a1 a2 a3 a4 a7 a8 a9 a10 a11 a12 := by
  funext i
  rw [col_zero i, Cert.ReferenceIdeal.RefAt.opAtt_apply]
  exact (Cert.KernelIdeal.KAt.needLogit_eq a0 a1 a2 a3 a4 a7 a8 a9 a10 a11 a12 _).symm

theorem resAtt_eq :
    Cert.ReferenceIdeal.RefRun.resAtt
        (Cert.ReferenceIdeal.RefRun.res2 (proj a0 a7) (Cert.ReferenceIdeal.RefRun.wrap4 50000#32 a6))
        (rowsAt (proj a0 a8) (rowAt 50000 (by decide) (Cert.ReferenceIdeal.RefRun.wrap4 50000#32 a5))) a12
      = RA a0 a5 a6 a7 a8 a10 a11 a12 := by
  funext i
  rw [col_zero i, Cert.ReferenceIdeal.RefAt.resAtt_apply]
  exact (Cert.KernelIdeal.KAt.sameLogit_eq a0 a5 a6 a7 a8 a10 a11 a12 _).symm

/-! ## The logits are real numbers -/

include h0 h7 h10 in
theorem isReal_SA (i : (⟨2, ![50000, 1]⟩ : Shape).Idx) : IsReal (SA a0 a7 a8 a10 a11 a12 i) := by
  rw [← selfAtt_eq a0 a7 a8 a10 a11 a12 h0 h7 h10, col_zero i, Cert.ReferenceIdeal.RefAt.selfAtt_apply]
  exact isReal_selfLogit _ _ (isReal_proj a0 a7 h0 h7) h10 _

include h0 h1 h2 h7 h9 h11 in
theorem isReal_OA (i : (⟨2, ![800000, 1]⟩ : Shape).Idx) : IsReal (OA a0 a1 a2 a3 a4 a7 a8 a9 a10 a11 a12 i) := by
  rw [← opAtt_eq a0 a1 a2 a3 a4 a7 a8 a9 a10 a11 a12, col_zero i, Cert.ReferenceIdeal.RefAt.opAtt_apply]
  exact isReal_edgeLogit _ _ _ _ (isReal_proj a0 a7 h0 h7) (isReal_needRow a1 a2 a9 _ h1 h2 h9) h11 _

include h0 h7 h8 h12 in
theorem isReal_RA (i : (⟨2, ![400000, 1]⟩ : Shape).Idx) : IsReal (RA a0 a5 a6 a7 a8 a10 a11 a12 i) := by
  rw [← resAtt_eq a0 a5 a6 a7 a8 a10 a11 a12, col_zero i, Cert.ReferenceIdeal.RefAt.resAtt_apply]
  exact isReal_edgeLogit _ _ _ _ (isReal_proj a0 a7 h0 h7) (isReal_rowsAt _ _ (isReal_proj a0 a8 h0 h8)) h12 _

/-! ## The long column of logits -/

include h0 h7 h10 in
theorem logitsOf_eq :
    Cert.ReferenceIdeal.RefRun.logitsOf a0 a1 a2 a3 a4 a5 a6 a7 a8 a9 a10 a11 a12
      = Cert.ReferenceIdeal.RefRun.logits (SA a0 a7 a8 a10 a11 a12) (OA a0 a1 a2 a3 a4 a7 a8 a9 a10 a11 a12)
          (RA a0 a5 a6 a7 a8 a10 a11 a12) := by
  unfold Cert.ReferenceIdeal.RefRun.logitsOf
  rw [Cert.ReferenceIdeal.RefAt.selfRes_eq, Cert.ReferenceIdeal.RefAt.opsEdge_eq, Cert.ReferenceIdeal.RefAt.res1_eq,
    selfAtt_eq a0 a7 a8 a10 a11 a12 h0 h7 h10, opAtt_eq a0 a1 a2 a3 a4 a7 a8 a9 a10 a11 a12,
    resAtt_eq a0 a5 a6 a7 a8 a10 a11 a12]

/-! ## The result -/

include h0 h1 h2 h7 h8 h9 h10 h11 h12 in
/-- The reference's value is the kernel's value. -/
theorem value_eq :
    Cert.ReferenceIdeal.RefRun.value a0 a1 a2 a3 a4 a5 a6 a7 a8 a9 a10 a11 a12
      = Cert.KernelIdeal.KValue.value Cert.KernelIdeal.Region0.G0_7 Cert.KernelIdeal.Region0.G0_8 Cert.KernelIdeal.Region0.G0_9
          Cert.KernelIdeal.Region1.G1_6 Cert.KernelIdeal.Region1.G1_7 Cert.KernelIdeal.Region2.G2_4
          a0 a1 a2 a3 a4 a5 a6 a7 a8 a9 a10 a11 a12 := by
  unfold Cert.ReferenceIdeal.RefRun.value Cert.ReferenceIdeal.RefRun.normOf Cert.ReferenceIdeal.RefRun.exOf
  rw [logitsOf_eq a0 a1 a2 a3 a4 a5 a6 a7 a8 a9 a10 a11 a12 h0 h7 h10]
  unfold Cert.ReferenceIdeal.RefRun.pre Cert.ReferenceIdeal.RefRun.sumOps Cert.ReferenceIdeal.RefRun.sumRes
  rw [Cert.Attn.Softmax.slice_self _ _ _ (isReal_SA a0 a7 a8 a10 a11 a12 h0 h7 h10)
      (isReal_OA a0 a1 a2 a3 a4 a7 a8 a9 a10 a11 a12 h0 h1 h2 h7 h9 h11) (isReal_RA a0 a5 a6 a7 a8 a10 a11 a12 h0 h7 h8 h12),
    Cert.Attn.Softmax.slice_ops _ _ _ (isReal_SA a0 a7 a8 a10 a11 a12 h0 h7 h10)
      (isReal_OA a0 a1 a2 a3 a4 a7 a8 a9 a10 a11 a12 h0 h1 h2 h7 h9 h11) (isReal_RA a0 a5 a6 a7 a8 a10 a11 a12 h0 h7 h8 h12),
    Cert.Attn.Softmax.slice_res _ _ _ (isReal_SA a0 a7 a8 a10 a11 a12 h0 h7 h10)
      (isReal_OA a0 a1 a2 a3 a4 a7 a8 a9 a10 a11 a12 h0 h1 h2 h7 h9 h11) (isReal_RA a0 a5 a6 a7 a8 a10 a11 a12 h0 h7 h8 h12)]
  rw [Cert.ReferenceIdeal.RefAt.selfRes_eq, Cert.ReferenceIdeal.RefAt.opsEdge_eq, Cert.ReferenceIdeal.RefAt.res1_eq, elu_eq]
  unfold Cert.KernelIdeal.KValue.value
  have e1 : needRow a1 a2 a9 (rowAt 100000 (by decide) (Cert.ReferenceIdeal.RefRun.wrap8 100000#32 a3))
      = Cert.KernelIdeal.KValue.edgeRows Cert.KernelIdeal.Region1.G1_6 a1 a2 a3 a9 :=
    (Cert.KernelIdeal.KAt.needRows_eq a1 a2 a3 a9).symm
  have e2 : rowsAt (proj a0 a8) (rowAt 50000 (by decide) (Cert.ReferenceIdeal.RefRun.wrap4 50000#32 a5))
      = Cert.KernelIdeal.KHost.projAt (Cert.KernelIdeal.Region0.G0_8 a0 a8) a5 :=
    (Cert.KernelIdeal.KAt.sameRows_eq a0 a8 a5).symm
  rw [e1, e2]
  rfl

end

end Cert.Attn.Bridge

end
-- ==== Proof.lean ====
/-
  A graph-attention layer over resources and operations: per-node projections and attention scores, per-edge
  projections gathered along two families of edges, one softmax over all node and edge logits together, two weighted
  segment sums and an exponential linear unit.  The kernel computes the dense parts in three TensorCore regions
  (node transform, need-edge projection, final combine) and the irregular parts on the host; the reference is plain
  array code.  The three programs run and keep their arguments; the idealization rewrote nothing; and at the extended
  reals, on finite inputs, the idealized kernel and the idealized reference end with the same result: both are read as
  one function of the thirteen arguments (the kernel's through its three regions' closed forms and the host stretches
  between them, the reference's through its host operations), and the two functions are equal array by array.
-/
import proofs.«139946_j74208444940406_2_alg».proof.Defs
import proofs.«139946_j74208444940406_2_alg».proof.Proof.Gen.Kernel
import proofs.«139946_j74208444940406_2_alg».proof.Proof.Gen.Kernel.Skeleton
import proofs.«139946_j74208444940406_2_alg».proof.Proof.Gen.Kernel.Launch
import proofs.«139946_j74208444940406_2_alg».proof.Proof.Gen.Kernel.Points
import proofs.«139946_j74208444940406_2_alg».proof.Proof.Gen.Kernel.Frame
import proofs.«139946_j74208444940406_2_alg».proof.Proof.Gen.KernelIdeal
import proofs.«139946_j74208444940406_2_alg».proof.Proof.Gen.KernelIdeal.Skeleton
import proofs.«139946_j74208444940406_2_alg».proof.Proof.Gen.KernelIdeal.Launch
import proofs.«139946_j74208444940406_2_alg».proof.Proof.Gen.KernelIdeal.Points
import proofs.«139946_j74208444940406_2_alg».proof.Proof.Gen.KernelIdeal.Frame
import proofs.«139946_j74208444940406_2_alg».proof.Proof.Gen.ReferenceIdeal
import proofs.«139946_j74208444940406_2_alg».proof.Proof.Gen.Pre_finite_inputs
import proofs.«139946_j74208444940406_2_alg».proof.Proof.RefRun
import proofs.«139946_j74208444940406_2_alg».proof.Proof.RefRunValue
import proofs.«139946_j74208444940406_2_alg».proof.Proof.Region0Final
import proofs.«139946_j74208444940406_2_alg».proof.Proof.Region1Final
import proofs.«139946_j74208444940406_2_alg».proof.Proof.Region2Final
import proofs.«139946_j74208444940406_2_alg».proof.Proof.KernelValue
import proofs.«139946_j74208444940406_2_alg».proof.Proof.AttnFinite
import proofs.«139946_j74208444940406_2_alg».proof.Proof.AttnBridge
import Idealize.ShloMosaic.Adequacy
import Idealize.ShloMosaic.Init

set_option maxRecDepth 16384

noncomputable section

namespace Cert.Proof

open Idealize.ShloMosaic Idealize.SL.Sem

/-- At the extended reals, on finite inputs, the idealized kernel and the idealized reference both run, end with
    their arguments unchanged, and end with one and the same result: the kernel's value of the arguments. -/
theorem algebraic : Cert.algebraic_KernelIdeal_ReferenceIdeal := by
  intro m ρ m' ρ' hpre hagree
  refine ⟨fun c => Cert.KernelIdeal.KValue.value Cert.KernelIdeal.Region0.G0_7 Cert.KernelIdeal.Region0.G0_8
      Cert.KernelIdeal.Region0.G0_9 Cert.KernelIdeal.Region1.G1_6 Cert.KernelIdeal.Region1.G1_7 Cert.KernelIdeal.Region2.G2_4
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)), ?_, ?_⟩
  · exact Cert.KernelIdeal.KValue.run Cert.KernelIdeal.Region0.G0_7 Cert.KernelIdeal.Region0.G0_8 Cert.KernelIdeal.Region0.G0_9
      Cert.KernelIdeal.Region1.G1_6 Cert.KernelIdeal.Region1.G1_7 Cert.KernelIdeal.Region2.G2_4 m ρ
      (fun V c => Cert.KernelIdeal.Region0.final0_7 V c) (fun V c => Cert.KernelIdeal.Region0.final0_8 V c)
      (fun V c => Cert.KernelIdeal.Region0.final0_9 V c) (fun V c => Cert.KernelIdeal.Region1.final1_6 V c)
      (fun V c => Cert.KernelIdeal.Region1.final1_7 V c) (fun V c => Cert.KernelIdeal.Region2.final2_4 V c)
  · refine (θ_run (Cert.ReferenceIdeal.defs (F := Ideal)) _ _).mono (fun _ h c => ⟨(h c).1.trans ?_, (h c).2⟩)
      (Cert.ReferenceIdeal.RefRun.run m' ρ')
    obtain ⟨e0, e1, e2, e3, e4, e5, e6, e7, e8, e9, e10, e11, e12⟩ := hagree c
    rw [e0, e1, e2, e3, e4, e5, e6, e7, e8, e9, e10, e11, e12]
    obtain ⟨h0, h1, h2, h7, h8, h9, h10, h11, h12⟩ := Cert.Attn.finite_of_pre _ _ _ _ _ _ _ _ _ _ _ _ _ (hpre c)
    exact Cert.Attn.Bridge.value_eq _ _ _ _ _ _ _ _ _ _ _ _ _ h0 h1 h2 h7 h8 h9 h10 h11 h12

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  Cert.ReferenceIdeal.RefRun.frame,
  trivial,
  algebraic⟩

end Cert.Proof

end
